-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v41)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v41) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x1600000 : Shape := ⟨2, ![2, 1600000]⟩
abbrev S256x1 : Shape := ⟨2, ![256, 1]⟩
abbrev S1 : Shape := ⟨1, ![1]⟩
abbrev S128x1 : Shape := ⟨2, ![128, 1]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S256x1 : S_.BroadcastsInDim S256x1 (![] : Fin 0 → Fin S256x1.rank)
  reducesTo_S256x1_S_d0_1 : S256x1.ReducesTo [0, 1] S_
  bcast_S_S1 : S_.BroadcastsInDim S1 (![] : Fin 0 → Fin S1.rank)
  reducesTo_S1_S_d0 : S1.ReducesTo [0] S_
  bcast_S_S128x1 : S_.BroadcastsInDim S128x1 (![] : Fin 0 → Fin S128x1.rank)
  reducesTo_S128x1_S_d0_1 : S128x1.ReducesTo [0, 1] S_

variable [Facts]

def fn_part1 {F : FTy → Type} [FloatOps F] (main_arg5 : FVec F S1 .f32) (main_v13 : IVec S_ 1) (main_v16 : IVec S128x1 1) : IVec S_ 1 :=
  let main_c_5 : IVec S_ 1 := constantI S_ 1 1#1
  let main_v17 : IVec S_ 1 := (fun x v => Host.reduce IntOp.andi x v reducesTo_S128x1_S_d0_1 h_S_) main_v16 main_c_5
  let main_v18 : IVec S_ 1 := andi main_v13 main_v17
  let main_v19 : FVec F S1 .f32 := Host.absf main_arg5
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  main_v23

def fn {F : FTy → Type} [FloatOps F] (main_arg0 : FVec F S50000x128 .f32) (main_arg1 : IVec S2x1600000 32) (main_arg2 : FVec F S256x1 .f32) (main_arg3 : FVec F S1 .f32) (main_arg4 : FVec F S128x1 .f32) (main_arg5 : FVec F S1 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S256x1 .f32 := Host.absf main_arg2
  let main_cst_0 : FVec F S_ .f32 := constant S_ .f32 0x7F800000#32
  let main_v5 : FVec F S256x1 .f32 := broadcastInDim S256x1 ![] bcast_S_S256x1 main_cst_0
  let main_v6 : IVec S256x1 1 := cmpf .olt main_v4 main_v5
  let main_c_1 : IVec S_ 1 := constantI S_ 1 1#1
  let main_v7 : IVec S_ 1 := (fun x v => Host.reduce IntOp.andi x v reducesTo_S256x1_S_d0_1 h_S_) main_v6 main_c_1
  let main_v8 : IVec S_ 1 := andi main_v3 main_v7
  let main_v9 : FVec F S1 .f32 := Host.absf main_arg3
  let main_cst_2 : FVec F S_ .f32 := constant S_ .f32 0x7F800000#32
  let main_v10 : FVec F S1 .f32 := broadcastInDim S1 ![] bcast_S_S1 main_cst_2
  let main_v11 : IVec S1 1 := cmpf .olt main_v9 main_v10
  let main_c_3 : IVec S_ 1 := constantI S_ 1 1#1
  let main_v12 : IVec S_ 1 := (fun x v => Host.reduce IntOp.andi x v reducesTo_S1_S_d0 h_S_) main_v11 main_c_3
  let main_v13 : IVec S_ 1 := andi main_v8 main_v12
  let main_v14 : FVec F S128x1 .f32 := Host.absf main_arg4
  let main_cst_4 : FVec F S_ .f32 := constant S_ .f32 0x7F800000#32
  let main_v15 : FVec F S128x1 .f32 := broadcastInDim S128x1 ![] bcast_S_S128x1 main_cst_4
  let main_v16 : IVec S128x1 1 := cmpf .olt main_v14 main_v15
  fn_part1 (F := F) main_arg5 main_v13 main_v16
-- ==== Kernel.lean ====
abbrev S50000x128 : Shape := ⟨2, ![50000, 128]⟩
abbrev S2x1600000 : Shape := ⟨2, ![2, 1600000]⟩
abbrev S256x1 : Shape := ⟨2, ![256, 1]⟩
abbrev S1 : Shape := ⟨1, ![1]⟩
abbrev S128x1 : Shape := ⟨2, ![128, 1]⟩
abbrev S1x1600000 : Shape := ⟨2, ![1, 1600000]⟩
abbrev S1600000 : Shape := ⟨1, ![1600000]⟩
abbrev S128x3 : Shape := ⟨2, ![128, 3]⟩
abbrev S50000x3 : Shape := ⟨2, ![50000, 3]⟩
abbrev S10000x128 : Shape := ⟨2, ![10000, 128]⟩
abbrev S10000x3 : Shape := ⟨2, ![10000, 3]⟩
abbrev S50000x1 : Shape := ⟨2, ![50000, 1]⟩
abbrev S50000 : Shape := ⟨1, ![50000]⟩
abbrev S_ : Shape := ⟨0, ![]⟩
abbrev S1600000x1 : Shape := ⟨2, ![1600000, 1]⟩
abbrev S50048 : Shape := ⟨1, ![50048]⟩
abbrev S391x128 : Shape := ⟨2, ![391, 128]⟩
abbrev S391 : Shape := ⟨1, ![391]⟩
abbrev S391x1 : Shape := ⟨2, ![391, 1]⟩
abbrev S1x1 : Shape := ⟨2, ![1, 1]⟩

abbrev nBuf : Space → Nat
  | .hbm => 55
  | .vmem => 7
  | .smem => 0
  | _ => 0

abbrev bufTy : (tb : Table) → Fin (tcTables nBuf tb) → BufTy
  | .hbm, ⟨0, _⟩ => ⟨S50000x128, .f32⟩
  | .hbm, ⟨1, _⟩ => ⟨S2x1600000, .i32⟩
  | .hbm, ⟨2, _⟩ => ⟨S256x1, .f32⟩
  | .hbm, ⟨3, _⟩ => ⟨S1, .f32⟩
  | .hbm, ⟨4, _⟩ => ⟨S128x1, .f32⟩
  | .hbm, ⟨5, _⟩ => ⟨S1, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S128x1, .f32⟩
  | .hbm, ⟨11, _⟩ => ⟨S128x1, .f32⟩
  | .hbm, ⟨12, _⟩ => ⟨S128x3, .f32⟩
  | .hbm, ⟨13, _⟩ => ⟨S50000x3, .f32⟩
  | .hbm, ⟨14, _⟩ => ⟨S50000x1, .f32⟩
  | .hbm, ⟨15, _⟩ => ⟨S50000, .f32⟩
  | .hbm, ⟨16, _⟩ => ⟨S50000x1, .f32⟩
  | .hbm, ⟨17, _⟩ => ⟨S50000, .f32⟩
  | .hbm, ⟨18, _⟩ => ⟨S50000x1, .f32⟩
  | .hbm, ⟨19, _⟩ => ⟨S50000, .f32⟩
  | .hbm, ⟨20, _⟩ => ⟨S_, .i32⟩
  | .hbm, ⟨21, _⟩ => ⟨S1600000, .i32⟩
  | .hbm, ⟨22, _⟩ => ⟨S1600000, .i1⟩
  | .hbm, ⟨23, _⟩ => ⟨S_, .i32⟩
  | .hbm, ⟨24, _⟩ => ⟨S1600000, .i32⟩
  | .hbm, ⟨25, _⟩ => ⟨S1600000, .i32⟩
  | .hbm, ⟨26, _⟩ => ⟨S1600000, .i32⟩
  | .hbm, ⟨27, _⟩ => ⟨S1600000x1, .i32⟩
  | .hbm, ⟨28, _⟩ => ⟨S1600000, .f32⟩
  | .hbm, ⟨29, _⟩ => ⟨S_, .f32⟩
  | .hbm, ⟨30, _⟩ => ⟨S1600000, .f32⟩
  | .hbm, ⟨31, _⟩ => ⟨S_, .f32⟩
  | .hbm, ⟨32, _⟩ => ⟨S50000, .f32⟩
  | .hbm, ⟨33, _⟩ => ⟨S1600000x1, .i32⟩
  | .hbm, ⟨34, _⟩ => ⟨S50000, .f32⟩
  | .hbm, ⟨35, _⟩ => ⟨S_, .f32⟩
  | .hbm, ⟨36, _⟩ => ⟨S50000, .f32⟩
  | .hbm, ⟨37, _⟩ => ⟨S1600000x1, .i32⟩
  | .hbm, ⟨38, _⟩ => ⟨S50000, .f32⟩
  | .hbm, ⟨39, _⟩ => ⟨S_, .f32⟩
  | .hbm, ⟨40, _⟩ => ⟨S50000, .f32⟩
  | .hbm, ⟨41, _⟩ => ⟨S50000, .f32⟩
  | .hbm, ⟨42, _⟩ => ⟨S50000, .f32⟩
  | .hbm, ⟨43, _⟩ => ⟨S50000, .f32⟩
  | .hbm, ⟨44, _⟩ => ⟨S_, .f32⟩
  | .hbm, ⟨45, _⟩ => ⟨S50000, .f32⟩
  | .hbm, ⟨46, _⟩ => ⟨S50000, .f32⟩
  | .hbm, ⟨47, _⟩ => ⟨S50000, .f32⟩
  | .hbm, ⟨48, _⟩ => ⟨S_, .f32⟩
  | .hbm, ⟨49, _⟩ => ⟨S_, .f32⟩
  | .hbm, ⟨50, _⟩ => ⟨S50048, .f32⟩
  | .hbm, ⟨51, _⟩ => ⟨S391x128, .f32⟩
  | .hbm, ⟨52, _⟩ => ⟨S391x128, .f32⟩
  | .hbm, ⟨53, _⟩ => ⟨S50048, .f32⟩
  | .hbm, ⟨54, _⟩ => ⟨S50000, .f32⟩
  | .local _ .vmem, ⟨0, _⟩ => ⟨S10000x128, .f32⟩
  | .local _ .vmem, ⟨1, _⟩ => ⟨S10000x128, .f32⟩
  | .local _ .vmem, ⟨2, _⟩ => ⟨S128x3, .f32⟩
  | .local _ .vmem, ⟨3, _⟩ => ⟨S10000x3, .f32⟩
  | .local _ .vmem, ⟨4, _⟩ => ⟨S10000x3, .f32⟩
  | .local _ .vmem, ⟨5, _⟩ => ⟨S391x128, .f32⟩
  | .local _ .vmem, ⟨6, _⟩ => ⟨S391x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_c : Ref sig .tc := ⟨.hbm, 20, rfl⟩
abbrev main_v14 : Ref sig .tc := ⟨.hbm, 21, rfl⟩
abbrev main_v15 : Ref sig .tc := ⟨.hbm, 22, rfl⟩
abbrev main_c_0 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst : Ref sig .tc := ⟨.hbm, 29, rfl⟩
abbrev main_v21 : Ref sig .tc := ⟨.hbm, 30, rfl⟩
abbrev main_cst_1 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_2 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_cst_3 : Ref sig .tc := ⟨.hbm, 48, rfl⟩
abbrev main_call0_v0 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg1_0 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem1_0 : DmaSem sig := 6

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x3 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x3 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![1], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S391x128 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S391x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  slices_S256x1_S128x1_0_0 : S256x1.Slices ![0, 0] S128x1
  slices_S256x1_S128x1_128_0 : S256x1.Slices ![128, 0] S128x1
  concatenates_S128x1_S128x1_S128x1_S128x3_d1 : Shape.Concatenates [S128x1, S128x1, S128x1] S128x3 1
  inb_S10000x128_S10000x128_0_0 : ∀ a, (![0, 0] : Fin 2 → Nat) a + S10000x128.size a ≤ S10000x128.size a
  h_S10000x128 : 0 < S10000x128.numel
  inb_S128x3_S128x3_0_0 : ∀ a, (![0, 0] : Fin 2 → Nat) a + S128x3.size a ≤ S128x3.size a
  h_S128x3 : 0 < S128x3.numel
  shapeCasts_S128x3_S128x3 : S128x3.ShapeCasts S128x3
  inb_S10000x3_S10000x3_0_0 : ∀ a, (![0, 0] : Fin 2 → Nat) a + S10000x3.size a ≤ S10000x3.size a
  h_S10000x3 : 0 < S10000x3.numel
  slices_S50000x3_S50000x1_0_0 : S50000x3.Slices ![0, 0] S50000x1
  shapeCasts_S50000x1_S50000 : S50000x1.ShapeCasts S50000
  slices_S50000x3_S50000x1_0_1 : S50000x3.Slices ![0, 1] S50000x1
  slices_S50000x3_S50000x1_0_2 : S50000x3.Slices ![0, 2] S50000x1
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S50000 : S_.BroadcastsInDim S50000 (![] : Fin 0 → Fin S50000.rank)
  shapeCasts_S1_S_ : S1.ShapeCasts S_
  pads_S50000_S50048_0480 : S50000.Pads (![0] : Fin 1 → Nat) ![48] ![0] S50048
  h_S_ : 0 < S_.numel
  shapeCasts_S50048_S391x128 : S50048.ShapeCasts S391x128
  inb_S391x128_S391x128_0_0 : ∀ a, (![0, 0] : Fin 2 → Nat) a + S391x128.size a ≤ S391x128.size a
  h_S391x128 : 0 < S391x128.numel
  shapeCasts_S391x128_S391x128 : S391x128.ShapeCasts S391x128
  reduces_S391x128_S391 : S391x128.Reduces [1] S391
  shapeCasts_S391_S391x1 : S391.ShapeCasts S391x1
  reduces_S391x1_S1 : S391x1.Reduces [0] S1
  shapeCasts_S1_S1x1 : S1.ShapeCasts S1x1
  broadcasts_S1x1_S391x128 : S1x1.Broadcasts S391x128
  shapeCasts_S391x128_S50048 : S391x128.ShapeCasts S50048
  slices_S50048_S50000_0 : S50048.Slices ![0] S50000
  dot_S10000x128_S128x3_S10000x3_1_0_0_1_n_n_wf : DotDims.WF S10000x128 S128x3 S10000x3 [1] [0] [0] [1] [] []
  gather_S50000_S1600000x1_S1600000_n_0_n_n_0_1_1_wf : GatherDims.WF S50000 S1600000x1 S1600000 [] [0] [] [0] [] 1 ![1]
  scatter_S50000_S1600000x1_S1600000_n_0_0_1_wf : ScatterDims.WF S50000 S1600000x1 S1600000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S50000x128.size a
  hwx0_0 : ∀ i : grid0.Coords, EltTy.bits .f32 = 32 ∨ (Rect.block (s := S50000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x3.size a ≤ S128x3.size a
  hwx0_1 : ∀ i : grid0.Coords, EltTy.bits .f32 = 32 ∨ (Rect.block (s := S128x3) S128x3.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x3.size a ≤ S50000x3.size a
  hwx0_2 : ∀ i : grid0.Coords, EltTy.bits .f32 = 32 ∨ (Rect.block (s := S50000x3) S10000x3.size (cc0_transform_2 i) (hinb0_2 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S391x128.size a ≤ S391x128.size a
  hwx1_0 : ∀ i : grid1.Coords, EltTy.bits .f32 = 32 ∨ (Rect.block (s := S391x128) S391x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S391x128.size a ≤ S391x128.size a
  hwx1_1 : ∀ i : grid1.Coords, EltTy.bits .f32 = 32 ∨ (Rect.block (s := S391x128) S391x128.size (cc1_transform_1 i) (hinb1_1 i)).WholeWords (EltTy.packing .f32)

variable [Facts₀]

def dot_S10000x128_S128x3_S10000x3_1_0_0_1_n_n : DotDims S10000x128 S128x3 S10000x3 where
  lhsContracting := [1]
  rhsContracting := [0]
  lhsNonContracting := [0]
  rhsNonContracting := [1]
  lhsBatch := []
  rhsBatch := []
  wf := dot_S10000x128_S128x3_S10000x3_1_0_0_1_n_n_wf
def gather_S50000_S1600000x1_S1600000_n_0_n_n_0_1_1 : GatherDims S50000 S1600000x1 S1600000 where
  offsetDims := []
  collapsedSliceDims := [0]
  operandBatchingDims := []
  startIndicesBatchingDims := []
  startIndexMap := [0]
  indexVectorDim := 1
  sliceSizes := ![1]
  wf := gather_S50000_S1600000x1_S1600000_n_0_n_n_0_1_1_wf
def scatter_S50000_S1600000x1_S1600000_n_0_0_1 : ScatterDims S50000 S1600000x1 S1600000 where
  updateWindowDims := []
  insertedWindowDims := [0]
  scatterDimsToOperandDims := [0]
  indexVectorDim := 1
  wf := scatter_S50000_S1600000x1_S1600000_n_0_0_1_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S128x3.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v7) S10000x3.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v38) S391x128.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v39) S391x128.size cc1_transform_1 reads1_1 true true 1 stage1_1 sem1_1
    hrank1 hreads1_1 hinb1_1 nbuf1_1 (Memref.isWhole_whole _) hwx1_1 hstage1_1

abbrev win1 : Fin 2 → Pipeline.Window sig grid1 := fun | 0 => win1_0 | 1 => win1_1 | ⟨_ + 2, h⟩ => absurd h (Nat.not_lt.2 (Nat.le_add_left _ _))
abbrev spec1 : Fin 2 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x1600000 : Shape := ⟨2, ![2, 1600000]⟩
abbrev S256x1 : Shape := ⟨2, ![256, 1]⟩
abbrev S1 : Shape := ⟨1, ![1]⟩
abbrev S128x1 : Shape := ⟨2, ![128, 1]⟩
abbrev S1x1600000 : Shape := ⟨2, ![1, 1600000]⟩
abbrev S1600000 : Shape := ⟨1, ![1600000]⟩
abbrev S50000x1 : Shape := ⟨2, ![50000, 1]⟩
abbrev S50000 : Shape := ⟨1, ![50000]⟩
abbrev S_ : Shape := ⟨0, ![]⟩
abbrev S1600000x1 : Shape := ⟨2, ![1600000, 1]⟩

abbrev nBuf : Space → Nat
  | .hbm => 61
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x1600000, .i32⟩
  | .hbm, ⟨2, _⟩ => ⟨S256x1, .f32⟩
  | .hbm, ⟨3, _⟩ => ⟨S1, .f32⟩
  | .hbm, ⟨4, _⟩ => ⟨S128x1, .f32⟩
  | .hbm, ⟨5, _⟩ => ⟨S1, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S128x1, .f32⟩
  | .hbm, ⟨11, _⟩ => ⟨S128x1, .f32⟩
  | .hbm, ⟨12, _⟩ => ⟨S50000x1, .f32⟩
  | .hbm, ⟨13, _⟩ => ⟨S50000, .f32⟩
  | .hbm, ⟨14, _⟩ => ⟨S50000x1, .f32⟩
  | .hbm, ⟨15, _⟩ => ⟨S50000, .f32⟩
  | .hbm, ⟨16, _⟩ => ⟨S_, .i32⟩
  | .hbm, ⟨17, _⟩ => ⟨S1600000, .i32⟩
  | .hbm, ⟨18, _⟩ => ⟨S1600000, .i1⟩
  | .hbm, ⟨19, _⟩ => ⟨S_, .i32⟩
  | .hbm, ⟨20, _⟩ => ⟨S1600000, .i32⟩
  | .hbm, ⟨21, _⟩ => ⟨S1600000, .i32⟩
  | .hbm, ⟨22, _⟩ => ⟨S1600000, .i32⟩
  | .hbm, ⟨23, _⟩ => ⟨S1600000x1, .i32⟩
  | .hbm, ⟨24, _⟩ => ⟨S1600000, .f32⟩
  | .hbm, ⟨25, _⟩ => ⟨S_, .i32⟩
  | .hbm, ⟨26, _⟩ => ⟨S1600000, .i32⟩
  | .hbm, ⟨27, _⟩ => ⟨S1600000, .i1⟩
  | .hbm, ⟨28, _⟩ => ⟨S_, .i32⟩
  | .hbm, ⟨29, _⟩ => ⟨S1600000, .i32⟩
  | .hbm, ⟨30, _⟩ => ⟨S1600000, .i32⟩
  | .hbm, ⟨31, _⟩ => ⟨S1600000, .i32⟩
  | .hbm, ⟨32, _⟩ => ⟨S1600000x1, .i32⟩
  | .hbm, ⟨33, _⟩ => ⟨S1600000, .f32⟩
  | .hbm, ⟨34, _⟩ => ⟨S1600000, .f32⟩
  | .hbm, ⟨35, _⟩ => ⟨S_, .f32⟩
  | .hbm, ⟨36, _⟩ => ⟨S1600000, .f32⟩
  | .hbm, ⟨37, _⟩ => ⟨S1600000, .f32⟩
  | .hbm, ⟨38, _⟩ => ⟨S_, .f32⟩
  | .hbm, ⟨39, _⟩ => ⟨S50000, .f32⟩
  | .hbm, ⟨40, _⟩ => ⟨S1600000x1, .i32⟩
  | .hbm, ⟨41, _⟩ => ⟨S50000, .f32⟩
  | .hbm, ⟨42, _⟩ => ⟨S50000x1, .f32⟩
  | .hbm, ⟨43, _⟩ => ⟨S50000, .f32⟩
  | .hbm, ⟨44, _⟩ => ⟨S_, .f32⟩
  | .hbm, ⟨45, _⟩ => ⟨S50000, .f32⟩
  | .hbm, ⟨46, _⟩ => ⟨S50000, .f32⟩
  | .hbm, ⟨47, _⟩ => ⟨S50000, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S1, .f32⟩
  | .hbm, ⟨53, _⟩ => ⟨S50000, .f32⟩
  | .hbm, ⟨54, _⟩ => ⟨S50000, .f32⟩
  | .hbm, ⟨55, _⟩ => ⟨S50000, .f32⟩
  | .hbm, ⟨56, _⟩ => ⟨S_, .f32⟩
  | .hbm, ⟨57, _⟩ => ⟨S_, .f32⟩
  | .hbm, ⟨58, _⟩ => ⟨S1, .f32⟩
  | .hbm, ⟨59, _⟩ => ⟨S50000, .f32⟩
  | .hbm, ⟨60, _⟩ => ⟨S50000, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_c : Ref sig .tc := ⟨.hbm, 16, rfl⟩
abbrev main_v10 : Ref sig .tc := ⟨.hbm, 17, rfl⟩
abbrev main_v11 : Ref sig .tc := ⟨.hbm, 18, rfl⟩
abbrev main_c_0 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_c_1 : Ref sig .tc := ⟨.hbm, 25, rfl⟩
abbrev main_v17 : Ref sig .tc := ⟨.hbm, 26, rfl⟩
abbrev main_v18 : Ref sig .tc := ⟨.hbm, 27, rfl⟩
abbrev main_c_2 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_cst_3 : Ref sig .tc := ⟨.hbm, 48, rfl⟩
abbrev main_v37 : Ref sig .tc := ⟨.hbm, 49, rfl⟩
abbrev main_cst_4 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_cst_5 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  slices_S256x1_S128x1_0_0 : S256x1.Slices ![0, 0] S128x1
  slices_S256x1_S128x1_128_0 : S256x1.Slices ![128, 0] S128x1
  shapeCasts_S50000x1_S50000 : S50000x1.ShapeCasts S50000
  bcast_S_S1600000 : S_.BroadcastsInDim S1600000 (![] : Fin 0 → Fin S1600000.rank)
  bcast_S1600000_S1600000x1_0 : S1600000.BroadcastsInDim S1600000x1 (![0] : Fin 1 → Fin S1600000x1.rank)
  shapeCasts_S1_S_ : S1.ShapeCasts S_
  bcast_S_S50000 : S_.BroadcastsInDim S50000 (![] : Fin 0 → Fin S50000.rank)
  reducesTo_S50000_S_d0 : S50000.ReducesTo [0] S_
  h_S_ : 0 < S_.numel
  bcast_S_S1 : S_.BroadcastsInDim S1 (![] : Fin 0 → Fin S1.rank)
  bcast_S1_S50000_0 : S1.BroadcastsInDim S50000 (![0] : Fin 1 → Fin S50000.rank)
  dot_S50000x128_S128x1_S50000x1_1_0_0_1_n_n_wf : DotDims.WF S50000x128 S128x1 S50000x1 [1] [0] [0] [1] [] []
  gather_S50000_S1600000x1_S1600000_n_0_n_n_0_1_1_wf : GatherDims.WF S50000 S1600000x1 S1600000 [] [0] [] [0] [] 1 ![1]
  scatter_S50000_S1600000x1_S1600000_n_0_0_1_wf : ScatterDims.WF S50000 S1600000x1 S1600000 [] [0] [0] 1

variable [Facts₀]

def dot_S50000x128_S128x1_S50000x1_1_0_0_1_n_n : DotDims S50000x128 S128x1 S50000x1 where
  lhsContracting := [1]
  rhsContracting := [0]
  lhsNonContracting := [0]
  rhsNonContracting := [1]
  lhsBatch := []
  rhsBatch := []
  wf := dot_S50000x128_S128x1_S50000x1_1_0_0_1_n_n_wf
def gather_S50000_S1600000x1_S1600000_n_0_n_n_0_1_1 : GatherDims S50000 S1600000x1 S1600000 where
  offsetDims := []
  collapsedSliceDims := [0]
  operandBatchingDims := []
  startIndicesBatchingDims := []
  startIndexMap := [0]
  indexVectorDim := 1
  sliceSizes := ![1]
  wf := gather_S50000_S1600000x1_S1600000_n_0_n_n_0_1_1_wf
def scatter_S50000_S1600000x1_S1600000_n_0_0_1 : ScatterDims S50000 S1600000x1 S1600000 where
  updateWindowDims := []
  insertedWindowDims := [0]
  scatterDimsToOperandDims := [0]
  indexVectorDim := 1
  wf := scatter_S50000_S1600000x1_S1600000_n_0_0_1_wf

class Facts : Prop extends Facts₀ where

variable [Facts]
-- ==== Proof.KRegions.lean ====
/-
  The two launched kernels of the program as printed (read at any float instance), each taken by itself at an arbitrary valuation V of the
  TensorCore's buffers at the moment its region is entered.
  Region 0 (the node projections): at grid point t the body multiplies the point's 10000 x 128 block of the feature
  matrix by the whole 128 x 3 weight matrix and stores the 10000 x 3 product over its output block; nothing else is
  written. Region 1 (the normalisation): its single grid point reads the whole 391 x 128 score tile and stores the
  normalised tile over the whole output. For each region: the blocks the body finds in its input buffers, the contents
  it leaves in its output buffer as a function of those blocks, the body's triple, the pipeline's proof data, and the
  obligation the launch theorem asks of the body at every grid point.
-/
import proofs.«153172_j18399639896424_2_alg».proof.Proof.Gen.Kernel.Launch
import proofs.«153172_j18399639896424_2_alg».proof.Proof.Gen.Kernel.Skeleton
import proofs.«153172_j18399639896424_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 0: the node projections -/

/-- Window w's block at grid point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The feature window's staging buffer holds the point's block whenever the body runs. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The weight window's staging buffer holds the (one) weight block whenever the body runs: it is fetched at the first
    point and its block index never moves. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

abbrev r0_0 : Rect S10000x128 := Rect.unit (s := S10000x128) ![0, 0] S10000x128.size inb_S10000x128_S10000x128_0_0
abbrev r0_1 : Rect S128x3 := Rect.unit (s := S128x3) ![0, 0] S128x3.size inb_S128x3_S128x3_0_0
abbrev r0_2 : Rect S10000x3 := Rect.unit (s := S10000x3) ![0, 0] S10000x3.size inb_S10000x3_S10000x3_0_0

/-- What the body leaves in the output window's buffer: its one store, of the product of the two loaded blocks. -/
def out0_2 (x0 : Vec F S10000x128 .f32) (x1 : Vec F S128x3 .f32) : Vec F S10000x3 .f32 :=
  View.canon [⟨r0_2, k0_pay1 (View.ld x0 r0_0) (View.ld x1 r0_1)⟩]

/-- The one store covers the whole buffer. -/
theorem cover0_2 (p0 : Vec F S10000x3 .f32) (y : S10000x3.Idx) :
    ∃ pc ∈ ([⟨r0_2, p0⟩] : List (View.Piece (Elt F) S10000x3 .f32)), y ∈ pc.1.set :=
  View.cover_of_tiled [⟨r0_2, p0⟩] S10000x3.size (by rfl) y

set_option maxHeartbeats 1000000 in
/-- The projection body on whole staging buffers: the two inputs are left as found, the output ends at out0_2. -/
theorem sound_kernel0 (c : Dev nD) (E : Set ℕ) (i : grid0.Coords) (arg1 : Memref sig .tc .vmem S10000x128 .f32) (harg1 : arg1.IsWhole)
    (arg2 : Memref sig .tc .vmem S128x3 .f32) (harg2 : arg2.IsWhole) (arg3 : Memref sig .tc .vmem S10000x3 .f32) (harg3 : arg3.IsWhole)
    (x0 : Vec F S10000x128 .f32) (x1 : Vec F S128x3 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__proj_kernel i arg1 harg1 arg2 harg2 arg3 harg3) K := by
  simp only [cc0__proj_kernel_eq_skeleton]; unfold cc0__proj_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The proof data of pipeline 0 on core c. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation0 (c : Dev nD) : BodyObligation (dat0 (F := F) V c) (defs₀ (F := F)) Variants.none () Set.univ := fun t => by
  rw [bigSep_W0, bigSep_W0]
  exact sound_body0 V c t

/-! # Region 1: the normalisation -/

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

abbrev r1_0 : Rect S391x128 := Rect.unit (s := S391x128) ![0, 0] S391x128.size inb_S391x128_S391x128_0_0

/-- What the body leaves in the output window's buffer: its one store, of the normalised tile. -/
def out1_1 (x0 : Vec F S391x128 .f32) : Vec F S391x128 .f32 :=
  View.canon [⟨r1_0, k1_pay1 (View.ld x0 r1_0)⟩]

theorem cover1_1 (p0 : Vec F S391x128 .f32) (y : S391x128.Idx) :
    ∃ pc ∈ ([⟨r1_0, p0⟩] : List (View.Piece (Elt F) S391x128 .f32)), y ∈ pc.1.set :=
  View.cover_of_tiled [⟨r1_0, p0⟩] S391x128.size (by rfl) y

set_option maxHeartbeats 1000000 in
theorem sound_kernel1 (c : Dev nD) (E : Set ℕ) (i : grid1.Coords) (arg1 : Memref sig .tc .vmem S391x128 .f32) (harg1 : arg1.IsWhole)
    (arg2 : Memref sig .tc .vmem S391x128 .f32) (harg2 : arg2.IsWhole)
    (x0 : Vec F S391x128 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out1_1 x0)) -∗ K ⟨⟩))
      ⊢ wp frame (wpE (defs₀ (F := F)) Variants.none c none) E (cc1__softmax_kernel i arg1 harg1 arg2 harg2) K := by
  simp only [cc1__softmax_kernel_eq_skeleton]; unfold cc1__softmax_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover1_1 _)

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => out1_1 (iblk1 V c 0 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = out1_1 (iblk1 V c 0 t) := by dsimp only [dat1]

theorem before1_0 (c : Dev nD) (t : Fin cfg1.N) (d) : (dat1 V c).before 0 t d = iblk1 V c 0 t :=
  before1_0_of V (dat1 V c) (A_eq1 V c 0) (after1_0 V c) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0]
  rw [show (dat1 V c).Φ t.succ = (dat1 V c).Φ t.castSucc from rfl,
    show (dat1 V c).owesAt () t.succ = (dat1 V c).owesAt () t.castSucc from rfl,
    after1_0, after1_1]
  iintro ⟨HΦ, Ho, ⟨%d0, H0⟩, ⟨%d1, H1⟩⟩
  iapply (sound_kernel1 c Set.univ _ _ _ _ _ (iblk1 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.KRun.lean ====
/-
  The printed program's whole run (at any float instance): the contents of the TensorCore's buffers at each boundary between the items of
  @main, as a fold from the launch memory — a host stretch applies its operations; a launched kernel leaves in its
  output array what its grid points wrote back and every other buffer as it found it — and the theorem that every weakly
  fair execution terminates, faults nowhere and ends with every unscoped buffer at the last boundary's contents.
  From that one theorem come both the frame (no item writes an argument array, so each ends as launched) and the
  value of the result buffer.
-/
import proofs.«153172_j18399639896424_2_alg».proof.Proof.KRegions
import proofs.«153172_j18399639896424_2_alg».proof.Proof.Gen.Kernel.Regions

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- At launch. -/
abbrev W0 : Dev nD → Valuation τ sig (Elt F) := fun c b => (s₀ m ρ).mem ((c : Dev nD), b)
/-- After the first host stretch: the projection kernel's entry. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- After the projection kernel: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the three host stretches between the kernels: the normalisation kernel's entry. -/
abbrev W3 : Dev nD → Valuation τ sig (Elt F) := fun c => StableHlo.after hostOps1 (W2 m ρ c)
abbrev W4 : Dev nD → Valuation τ sig (Elt F) := fun c => StableHlo.after hostOps1_1 (W3 m ρ c)
abbrev W5 : Dev nD → Valuation τ sig (Elt F) := fun c => StableHlo.after hostOps1_2 (W4 m ρ c)
abbrev V5 : (c : Dev nD) → (b : Ref sig .tc) → Buf (Elt F) ((c : Thread nD τ).loc b) := fun c b => W5 m ρ c b
/-- After the normalisation kernel. -/
def W6 (c : Dev nD) : Valuation τ sig (Elt F) :=
  Pipeline.withArrays spec1 c (W5 m ρ c) fun w => (dat1 (V5 m ρ) c).arrAt w cfg1.N
theorem W6_arr (c : Dev nD) (w : Fin cfg1.W) :
    W6 m ρ c (Proc.devRef .tc (Pipeline.arrRef spec1 w)) = (dat1 (V5 m ρ) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m ρ c (Proc.devRef .tc b) = W5 m ρ c (Proc.devRef .tc b) := by
  unfold W6; exact Pipeline.withArrays_of_ne spec1 c _ _ b hb
abbrev V6 : (c : Dev nD) → (b : Ref sig .tc) → Buf (Elt F) ((c : Thread nD τ).loc b) := fun c b => W6 m ρ c b
theorem hF1 (c : Dev nD) (w : Fin cfg1.W) : (dat1 (V5 m ρ) c).arrAt w cfg1.N = V6 m ρ c (Pipeline.arrRef spec1 w) :=
  (W6_arr m ρ c w).symm
theorem hrest1 (c : Dev nD) : ∀ b, b ∉ Finset.univ.image (Pipeline.arrRef spec1) → V6 m ρ c b = V5 m ρ c b :=
  fun b hb => W6_of_ne m ρ c b fun w e => hb (Finset.mem_image.mpr ⟨w, Finset.mem_univ _, e⟩)
/-- After the last host stretch: the end. -/
abbrev W7 : Dev nD → Valuation τ sig (Elt F) := fun c => StableHlo.after hostOps2 (W6 m ρ c)

/-! ## A buffer that no item writes ends as launched -/

/-- A buffer written by no host operation and being neither kernel's output array holds its launch contents at the
    end (the feature matrix, the one such buffer that is a kernel's INPUT array, is read back through the pipeline's
    proof data separately below). -/
theorem W7_untouched (c : Dev nD) (r : Ref sig .tc) (h0 : r ∉ (hostOps0_W : List (Ref sig .tc))) (h1 : r ∉ (hostOps1_W : List (Ref sig .tc)))
    (h11 : r ∉ (hostOps1_1_W : List (Ref sig .tc))) (h12 : r ∉ (hostOps1_2_W : List (Ref sig .tc))) (h2 : r ∉ (hostOps2_W : List (Ref sig .tc)))
    (ha0 : ∀ w, Pipeline.arrRef spec0 w ≠ r) (ha1 : ∀ w, Pipeline.arrRef spec1 w ≠ r) :
    W7 m ρ c (Proc.devRef .tc r) = m ((c : Thread nD τ).loc r) :=
  calc W7 m ρ c (Proc.devRef .tc r)
    _ = W6 m ρ c (Proc.devRef .tc r) := StableHlo.after_of_writes_sub hostOps2 _ hostOps2_writes h2
    _ = W5 m ρ c (Proc.devRef .tc r) := W6_of_ne m ρ c r ha1
    _ = W4 m ρ c (Proc.devRef .tc r) := StableHlo.after_of_writes_sub hostOps1_2 _ hostOps1_2_writes h12
    _ = W3 m ρ c (Proc.devRef .tc r) := StableHlo.after_of_writes_sub hostOps1_1 _ hostOps1_1_writes h11
    _ = W2 m ρ c (Proc.devRef .tc r) := StableHlo.after_of_writes_sub hostOps1 _ hostOps1_writes h1
    _ = W1 m ρ c (Proc.devRef .tc r) := W2_of_ne m ρ c r ha0
    _ = W0 m ρ c (Proc.devRef .tc r) := StableHlo.after_of_writes_sub hostOps0 _ hostOps0_writes h0
    _ = m ((c : Thread nD τ).loc r) := rfl

theorem W7_main_arg0 (c : Dev nD) : W7 m ρ c (Proc.devRef .tc main_arg0) = m ((c : Thread nD τ).loc main_arg0) :=
  calc W7 m ρ c (Proc.devRef .tc main_arg0)
    _ = W6 m ρ c (Proc.devRef .tc main_arg0) := StableHlo.after_of_writes_sub hostOps2 _ hostOps2_writes (by decide)
    _ = W5 m ρ c (Proc.devRef .tc main_arg0) := W6_of_ne m ρ c main_arg0 (by decide)
    _ = W4 m ρ c (Proc.devRef .tc main_arg0) := StableHlo.after_of_writes_sub hostOps1_2 _ hostOps1_2_writes (by decide)
    _ = W3 m ρ c (Proc.devRef .tc main_arg0) := StableHlo.after_of_writes_sub hostOps1_1 _ hostOps1_1_writes (by decide)
    _ = W2 m ρ c (Proc.devRef .tc main_arg0) := StableHlo.after_of_writes_sub hostOps1 _ hostOps1_writes (by decide)
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := StableHlo.after_of_writes_sub hostOps0 _ hostOps0_writes (by decide)
    _ = m ((c : Thread nD τ).loc main_arg0) := rfl
theorem W7_main_arg1 (c : Dev nD) : W7 m ρ c (Proc.devRef .tc main_arg1) = m ((c : Thread nD τ).loc main_arg1) :=
  W7_untouched m ρ c main_arg1 (by decide) (by decide) (by decide) (by decide) (by decide) (by decide) (by decide)
theorem W7_main_arg2 (c : Dev nD) : W7 m ρ c (Proc.devRef .tc main_arg2) = m ((c : Thread nD τ).loc main_arg2) :=
  W7_untouched m ρ c main_arg2 (by decide) (by decide) (by decide) (by decide) (by decide) (by decide) (by decide)
theorem W7_main_arg3 (c : Dev nD) : W7 m ρ c (Proc.devRef .tc main_arg3) = m ((c : Thread nD τ).loc main_arg3) :=
  W7_untouched m ρ c main_arg3 (by decide) (by decide) (by decide) (by decide) (by decide) (by decide) (by decide)
theorem W7_main_arg4 (c : Dev nD) : W7 m ρ c (Proc.devRef .tc main_arg4) = m ((c : Thread nD τ).loc main_arg4) :=
  W7_untouched m ρ c main_arg4 (by decide) (by decide) (by decide) (by decide) (by decide) (by decide) (by decide)
theorem W7_main_arg5 (c : Dev nD) : W7 m ρ c (Proc.devRef .tc main_arg5) = m ((c : Thread nD τ).loc main_arg5) :=
  W7_untouched m ρ c main_arg5 (by decide) (by decide) (by decide) (by decide) (by decide) (by decide) (by decide)

/-! ## The proof data family and the thread state -/

abbrev adm : (p : Fin 2) → (pcfgs (F := F) p).Adm := fun p => (cfgs p).toPCfg_adm
/-- Each pipeline's proof data at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V5 m ρ) c
abbrev 𝒱₀ : Variants := Variants.none
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W7 m ρ c) ∗ ∃ r, prngReg c r)

/-! ## The kernels as segments -/

set_option backward.isDefEq.respectTransparency.types false in
/-- The projection kernel over the thread state: entered from every unscoped buffer at W1, left at W2. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The normalisation kernel over the thread state: entered from every unscoped buffer at W5, left at W6. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V5 m ρ) c).loose
  hwaits := Pipeline.hwaits_of_owed_zero _ _ _ _ L lv 1 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec1 c (V5 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V5 m ρ c) (V6 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .host (hseg hostOps1_1 hostOps1_1_sub hostOps1_1_fresh (W3 m ρ)),
    .host (hseg hostOps1_2 hostOps1_2_sub hostOps1_2_fresh (W4 m ρ)),
    .region (reg1 m ρ),
    .host (hseg hostOps2 hostOps2_sub hostOps2_fresh (W6 m ρ)) ]

theorem main_run (c : Dev nD) : main (F := F) c = Pipeline.Seg.run (segs m ρ) := (main_chain c).trans (by chain_rfl)

set_option backward.isDefEq.respectTransparency.types false in
/-- THE RUN: from any memory with zero counters every weakly fair execution of @main terminates, nothing faulting, and
    the final memory holds every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W7 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      show iprop(StableHlo.held (c : Thread nD τ) (Pipeline.ucRefs τ sig) (W7 m ρ c) ∗ R c)
        ⊢ iprop(Tₙ m ρ c ∗ ∃ W, owes (c.tc : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c => h c)

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨(h c _ (mem_uc main_arg0 (by decide))).trans (W7_main_arg0 m ρ c),
     (h c _ (mem_uc main_arg1 (by decide))).trans (W7_main_arg1 m ρ c),
     (h c _ (mem_uc main_arg2 (by decide))).trans (W7_main_arg2 m ρ c),
     (h c _ (mem_uc main_arg3 (by decide))).trans (W7_main_arg3 m ρ c),
     (h c _ (mem_uc main_arg4 (by decide))).trans (W7_main_arg4 m ρ c),
     (h c _ (mem_uc main_arg5 (by decide))).trans (W7_main_arg5 m ρ c)⟩) (run_all m ρ)

end Cert.Kernel.Hand

end
-- ==== Proof.KIRegions.lean ====
/-
  The two launched kernels of the idealized program, each taken by itself at an arbitrary valuation V of the
  TensorCore's buffers at the moment its region is entered.
  Region 0 (the node projections): at grid point t the body multiplies the point's 10000 x 128 block of the feature
  matrix by the whole 128 x 3 weight matrix and stores the 10000 x 3 product over its output block; nothing else is
  written. Region 1 (the normalisation): its single grid point reads the whole 391 x 128 score tile and stores the
  normalised tile over the whole output. For each region: the blocks the body finds in its input buffers, the contents
  it leaves in its output buffer as a function of those blocks, the body's triple, the pipeline's proof data, and the
  obligation the launch theorem asks of the body at every grid point.
-/
import proofs.«153172_j18399639896424_2_alg».proof.Proof.Gen.KernelIdeal.Launch
import proofs.«153172_j18399639896424_2_alg».proof.Proof.Gen.KernelIdeal.Skeleton
import proofs.«153172_j18399639896424_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 0: the node projections -/

/-- Window w's block at grid point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The feature window's staging buffer holds the point's block whenever the body runs. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The weight window's staging buffer holds the (one) weight block whenever the body runs: it is fetched at the first
    point and its block index never moves. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

abbrev r0_0 : Rect S10000x128 := Rect.unit (s := S10000x128) ![0, 0] S10000x128.size inb_S10000x128_S10000x128_0_0
abbrev r0_1 : Rect S128x3 := Rect.unit (s := S128x3) ![0, 0] S128x3.size inb_S128x3_S128x3_0_0
abbrev r0_2 : Rect S10000x3 := Rect.unit (s := S10000x3) ![0, 0] S10000x3.size inb_S10000x3_S10000x3_0_0

/-- What the body leaves in the output window's buffer: its one store, of the product of the two loaded blocks. -/
def out0_2 (x0 : Vec F S10000x128 .f32) (x1 : Vec F S128x3 .f32) : Vec F S10000x3 .f32 :=
  View.canon [⟨r0_2, k0_pay1 (View.ld x0 r0_0) (View.ld x1 r0_1)⟩]

/-- The one store covers the whole buffer. -/
theorem cover0_2 (p0 : Vec F S10000x3 .f32) (y : S10000x3.Idx) :
    ∃ pc ∈ ([⟨r0_2, p0⟩] : List (View.Piece (Elt F) S10000x3 .f32)), y ∈ pc.1.set :=
  View.cover_of_tiled [⟨r0_2, p0⟩] S10000x3.size (by rfl) y

set_option maxHeartbeats 1000000 in
/-- The projection body on whole staging buffers: the two inputs are left as found, the output ends at out0_2. -/
theorem sound_kernel0 (c : Dev nD) (E : Set ℕ) (i : grid0.Coords) (arg1 : Memref sig .tc .vmem S10000x128 .f32) (harg1 : arg1.IsWhole)
    (arg2 : Memref sig .tc .vmem S128x3 .f32) (harg2 : arg2.IsWhole) (arg3 : Memref sig .tc .vmem S10000x3 .f32) (harg3 : arg3.IsWhole)
    (x0 : Vec F S10000x128 .f32) (x1 : Vec F S128x3 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__proj_kernel i arg1 harg1 arg2 harg2 arg3 harg3) K := by
  simp only [cc0__proj_kernel_eq_skeleton]; unfold cc0__proj_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The proof data of pipeline 0 on core c. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation0 (c : Dev nD) : BodyObligation (dat0 (F := F) V c) (defs₀ (F := F)) Variants.none () Set.univ := fun t => by
  rw [bigSep_W0, bigSep_W0]
  exact sound_body0 V c t

/-! # Region 1: the normalisation -/

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

abbrev r1_0 : Rect S391x128 := Rect.unit (s := S391x128) ![0, 0] S391x128.size inb_S391x128_S391x128_0_0

/-- What the body leaves in the output window's buffer: its one store, of the normalised tile. -/
def out1_1 (x0 : Vec F S391x128 .f32) : Vec F S391x128 .f32 :=
  View.canon [⟨r1_0, k1_pay1 (View.ld x0 r1_0)⟩]

theorem cover1_1 (p0 : Vec F S391x128 .f32) (y : S391x128.Idx) :
    ∃ pc ∈ ([⟨r1_0, p0⟩] : List (View.Piece (Elt F) S391x128 .f32)), y ∈ pc.1.set :=
  View.cover_of_tiled [⟨r1_0, p0⟩] S391x128.size (by rfl) y

set_option maxHeartbeats 1000000 in
theorem sound_kernel1 (c : Dev nD) (E : Set ℕ) (i : grid1.Coords) (arg1 : Memref sig .tc .vmem S391x128 .f32) (harg1 : arg1.IsWhole)
    (arg2 : Memref sig .tc .vmem S391x128 .f32) (harg2 : arg2.IsWhole)
    (x0 : Vec F S391x128 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out1_1 x0)) -∗ K ⟨⟩))
      ⊢ wp frame (wpE (defs₀ (F := F)) Variants.none c none) E (cc1__softmax_kernel i arg1 harg1 arg2 harg2) K := by
  simp only [cc1__softmax_kernel_eq_skeleton]; unfold cc1__softmax_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover1_1 _)

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => out1_1 (iblk1 V c 0 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = out1_1 (iblk1 V c 0 t) := by dsimp only [dat1]

theorem before1_0 (c : Dev nD) (t : Fin cfg1.N) (d) : (dat1 V c).before 0 t d = iblk1 V c 0 t :=
  before1_0_of V (dat1 V c) (A_eq1 V c 0) (after1_0 V c) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0]
  rw [show (dat1 V c).Φ t.succ = (dat1 V c).Φ t.castSucc from rfl,
    show (dat1 V c).owesAt () t.succ = (dat1 V c).owesAt () t.castSucc from rfl,
    after1_0, after1_1]
  iintro ⟨HΦ, Ho, ⟨%d0, H0⟩, ⟨%d1, H1⟩⟩
  iapply (sound_kernel1 c Set.univ _ _ _ _ _ (iblk1 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KIRun.lean ====
/-
  The idealized program's whole run: the contents of the TensorCore's buffers at each boundary between the items of
  @main, as a fold from the launch memory — a host stretch applies its operations; a launched kernel leaves in its
  output array what its grid points wrote back and every other buffer as it found it — and the theorem that every weakly
  fair execution terminates, faults nowhere and ends with every unscoped buffer at the last boundary's contents.
  From that one theorem come both the frame (no item writes an argument array, so each ends as launched) and the
  value of the result buffer.
-/
import proofs.«153172_j18399639896424_2_alg».proof.Proof.KIRegions
import proofs.«153172_j18399639896424_2_alg».proof.Proof.Gen.KernelIdeal.Regions

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- At launch. -/
abbrev W0 : Dev nD → Valuation τ sig (Elt F) := fun c b => (s₀ m ρ).mem ((c : Dev nD), b)
/-- After the first host stretch: the projection kernel's entry. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- After the projection kernel: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the three host stretches between the kernels: the normalisation kernel's entry. -/
abbrev W3 : Dev nD → Valuation τ sig (Elt F) := fun c => StableHlo.after hostOps1 (W2 m ρ c)
abbrev W4 : Dev nD → Valuation τ sig (Elt F) := fun c => StableHlo.after hostOps1_1 (W3 m ρ c)
abbrev W5 : Dev nD → Valuation τ sig (Elt F) := fun c => StableHlo.after hostOps1_2 (W4 m ρ c)
abbrev V5 : (c : Dev nD) → (b : Ref sig .tc) → Buf (Elt F) ((c : Thread nD τ).loc b) := fun c b => W5 m ρ c b
/-- After the normalisation kernel. -/
def W6 (c : Dev nD) : Valuation τ sig (Elt F) :=
  Pipeline.withArrays spec1 c (W5 m ρ c) fun w => (dat1 (V5 m ρ) c).arrAt w cfg1.N
theorem W6_arr (c : Dev nD) (w : Fin cfg1.W) :
    W6 m ρ c (Proc.devRef .tc (Pipeline.arrRef spec1 w)) = (dat1 (V5 m ρ) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m ρ c (Proc.devRef .tc b) = W5 m ρ c (Proc.devRef .tc b) := by
  unfold W6; exact Pipeline.withArrays_of_ne spec1 c _ _ b hb
abbrev V6 : (c : Dev nD) → (b : Ref sig .tc) → Buf (Elt F) ((c : Thread nD τ).loc b) := fun c b => W6 m ρ c b
theorem hF1 (c : Dev nD) (w : Fin cfg1.W) : (dat1 (V5 m ρ) c).arrAt w cfg1.N = V6 m ρ c (Pipeline.arrRef spec1 w) :=
  (W6_arr m ρ c w).symm
theorem hrest1 (c : Dev nD) : ∀ b, b ∉ Finset.univ.image (Pipeline.arrRef spec1) → V6 m ρ c b = V5 m ρ c b :=
  fun b hb => W6_of_ne m ρ c b fun w e => hb (Finset.mem_image.mpr ⟨w, Finset.mem_univ _, e⟩)
/-- After the last host stretch: the end. -/
abbrev W7 : Dev nD → Valuation τ sig (Elt F) := fun c => StableHlo.after hostOps2 (W6 m ρ c)

/-! ## A buffer that no item writes ends as launched -/

/-- A buffer written by no host operation and being neither kernel's output array holds its launch contents at the
    end (the feature matrix, the one such buffer that is a kernel's INPUT array, is read back through the pipeline's
    proof data separately below). -/
theorem W7_untouched (c : Dev nD) (r : Ref sig .tc) (h0 : r ∉ (hostOps0_W : List (Ref sig .tc))) (h1 : r ∉ (hostOps1_W : List (Ref sig .tc)))
    (h11 : r ∉ (hostOps1_1_W : List (Ref sig .tc))) (h12 : r ∉ (hostOps1_2_W : List (Ref sig .tc))) (h2 : r ∉ (hostOps2_W : List (Ref sig .tc)))
    (ha0 : ∀ w, Pipeline.arrRef spec0 w ≠ r) (ha1 : ∀ w, Pipeline.arrRef spec1 w ≠ r) :
    W7 m ρ c (Proc.devRef .tc r) = m ((c : Thread nD τ).loc r) :=
  calc W7 m ρ c (Proc.devRef .tc r)
    _ = W6 m ρ c (Proc.devRef .tc r) := StableHlo.after_of_writes_sub hostOps2 _ hostOps2_writes h2
    _ = W5 m ρ c (Proc.devRef .tc r) := W6_of_ne m ρ c r ha1
    _ = W4 m ρ c (Proc.devRef .tc r) := StableHlo.after_of_writes_sub hostOps1_2 _ hostOps1_2_writes h12
    _ = W3 m ρ c (Proc.devRef .tc r) := StableHlo.after_of_writes_sub hostOps1_1 _ hostOps1_1_writes h11
    _ = W2 m ρ c (Proc.devRef .tc r) := StableHlo.after_of_writes_sub hostOps1 _ hostOps1_writes h1
    _ = W1 m ρ c (Proc.devRef .tc r) := W2_of_ne m ρ c r ha0
    _ = W0 m ρ c (Proc.devRef .tc r) := StableHlo.after_of_writes_sub hostOps0 _ hostOps0_writes h0
    _ = m ((c : Thread nD τ).loc r) := rfl

theorem W7_main_arg0 (c : Dev nD) : W7 m ρ c (Proc.devRef .tc main_arg0) = m ((c : Thread nD τ).loc main_arg0) :=
  calc W7 m ρ c (Proc.devRef .tc main_arg0)
    _ = W6 m ρ c (Proc.devRef .tc main_arg0) := StableHlo.after_of_writes_sub hostOps2 _ hostOps2_writes (by decide)
    _ = W5 m ρ c (Proc.devRef .tc main_arg0) := W6_of_ne m ρ c main_arg0 (by decide)
    _ = W4 m ρ c (Proc.devRef .tc main_arg0) := StableHlo.after_of_writes_sub hostOps1_2 _ hostOps1_2_writes (by decide)
    _ = W3 m ρ c (Proc.devRef .tc main_arg0) := StableHlo.after_of_writes_sub hostOps1_1 _ hostOps1_1_writes (by decide)
    _ = W2 m ρ c (Proc.devRef .tc main_arg0) := StableHlo.after_of_writes_sub hostOps1 _ hostOps1_writes (by decide)
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := StableHlo.after_of_writes_sub hostOps0 _ hostOps0_writes (by decide)
    _ = m ((c : Thread nD τ).loc main_arg0) := rfl
theorem W7_main_arg1 (c : Dev nD) : W7 m ρ c (Proc.devRef .tc main_arg1) = m ((c : Thread nD τ).loc main_arg1) :=
  W7_untouched m ρ c main_arg1 (by decide) (by decide) (by decide) (by decide) (by decide) (by decide) (by decide)
theorem W7_main_arg2 (c : Dev nD) : W7 m ρ c (Proc.devRef .tc main_arg2) = m ((c : Thread nD τ).loc main_arg2) :=
  W7_untouched m ρ c main_arg2 (by decide) (by decide) (by decide) (by decide) (by decide) (by decide) (by decide)
theorem W7_main_arg3 (c : Dev nD) : W7 m ρ c (Proc.devRef .tc main_arg3) = m ((c : Thread nD τ).loc main_arg3) :=
  W7_untouched m ρ c main_arg3 (by decide) (by decide) (by decide) (by decide) (by decide) (by decide) (by decide)
theorem W7_main_arg4 (c : Dev nD) : W7 m ρ c (Proc.devRef .tc main_arg4) = m ((c : Thread nD τ).loc main_arg4) :=
  W7_untouched m ρ c main_arg4 (by decide) (by decide) (by decide) (by decide) (by decide) (by decide) (by decide)
theorem W7_main_arg5 (c : Dev nD) : W7 m ρ c (Proc.devRef .tc main_arg5) = m ((c : Thread nD τ).loc main_arg5) :=
  W7_untouched m ρ c main_arg5 (by decide) (by decide) (by decide) (by decide) (by decide) (by decide) (by decide)

/-! ## The proof data family and the thread state -/

abbrev adm : (p : Fin 2) → (pcfgs (F := F) p).Adm := fun p => (cfgs p).toPCfg_adm
/-- Each pipeline's proof data at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V5 m ρ) c
abbrev 𝒱₀ : Variants := Variants.none
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W7 m ρ c) ∗ ∃ r, prngReg c r)

/-! ## The kernels as segments -/

set_option backward.isDefEq.respectTransparency.types false in
/-- The projection kernel over the thread state: entered from every unscoped buffer at W1, left at W2. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The normalisation kernel over the thread state: entered from every unscoped buffer at W5, left at W6. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V5 m ρ) c).loose
  hwaits := Pipeline.hwaits_of_owed_zero _ _ _ _ L lv 1 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec1 c (V5 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V5 m ρ c) (V6 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .host (hseg hostOps1_1 hostOps1_1_sub hostOps1_1_fresh (W3 m ρ)),
    .host (hseg hostOps1_2 hostOps1_2_sub hostOps1_2_fresh (W4 m ρ)),
    .region (reg1 m ρ),
    .host (hseg hostOps2 hostOps2_sub hostOps2_fresh (W6 m ρ)) ]

theorem main_run (c : Dev nD) : main (F := F) c = Pipeline.Seg.run (segs m ρ) := (main_chain c).trans (by chain_rfl)

set_option backward.isDefEq.respectTransparency.types false in
/-- THE RUN: from any memory with zero counters every weakly fair execution of @main terminates, nothing faulting, and
    the final memory holds every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W7 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      show iprop(StableHlo.held (c : Thread nD τ) (Pipeline.ucRefs τ sig) (W7 m ρ c) ∗ R c)
        ⊢ iprop(Tₙ m ρ c ∗ ∃ W, owes (c.tc : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c => h c)

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨(h c _ (mem_uc main_arg0 (by decide))).trans (W7_main_arg0 m ρ c),
     (h c _ (mem_uc main_arg1 (by decide))).trans (W7_main_arg1 m ρ c),
     (h c _ (mem_uc main_arg2 (by decide))).trans (W7_main_arg2 m ρ c),
     (h c _ (mem_uc main_arg3 (by decide))).trans (W7_main_arg3 m ρ c),
     (h c _ (mem_uc main_arg4 (by decide))).trans (W7_main_arg4 m ρ c),
     (h c _ (mem_uc main_arg5 (by decide))).trans (W7_main_arg5 m ρ c)⟩) (run_all m ρ)

end Cert.KernelIdeal.Hand

end
-- ==== Proof.LibPlainDot.lean ====
/-
  A plain matrix product's contraction as a sum over one natural coordinate.

  For the dimension numbers of an M×K by K×N product with no batch axis (the left operand contracted on its columns,
  the right on its rows), the contraction index has one axis of extent K, the left operand is read at (row of the
  output, k) and the right at (k, column of the output). So the sum over the contraction index of the products is

      Σ over k < K of  l(r, k) · r(k, c)

  at output index (r, c): the form in which a kernel's block product and a whole-array product are compared.
-/
import Idealize.ShloMosaic.Lib.ValueIdx
import Idealize.ShloMosaic.PureOps.Ideal.Laws

noncomputable section

namespace Cert.LibPlainDot

open Idealize.ShloMosaic Idealize.ShloMosaic.ValueIdx

/-- The contraction of a plain M×K by K×N product at output index j, as a sum over the K positions. -/
theorem plain_contr_sum (M K N : Nat) (l : (⟨2, ![M, K]⟩ : Shape).Idx → EReal) (r : (⟨2, ![K, N]⟩ : Shape).Idx → EReal)
    (j : (⟨2, ![M, N]⟩ : Shape).Idx) :
    ∑ k : (DotDims.plain M K N).contr.Idx, l ((DotDims.plain M K N).lhsIdx j k) * r ((DotDims.plain M K N).rhsIdx j k)
      = ∑ k : Fin K, l (ix2 (j 0) k) * r (ix2 k (j 1)) := by
  have hr : (DotDims.plain M K N).contr.rank = 1 := rfl
  have hs : (DotDims.plain M K N).contr.size ⟨0, by omega⟩ = K := rfl
  rw [← Equiv.sum_comp (contrEquiv1 (DotDims.plain M K N) K hr hs).symm]
  refine Finset.sum_congr rfl fun k _ => ?_
  have hk := contrEquiv1_symm_val (DotDims.plain M K N) K hr hs k
  have el : (DotDims.plain M K N).lhsIdx j ((contrEquiv1 (DotDims.plain M K N) K hr hs).symm k) = ix2 (j 0) k := by
    funext a; apply Fin.ext
    match a with
    | ⟨0, _⟩ => rfl
    | ⟨1, _⟩ => exact ((DotDims.plain M K N).lhsIdx_val_of_single rfl j _).trans hk
  have er : (DotDims.plain M K N).rhsIdx j ((contrEquiv1 (DotDims.plain M K N) K hr hs).symm k) = ix2 k (j 1) := by
    funext a; apply Fin.ext
    match a with
    | ⟨0, _⟩ => exact ((DotDims.plain M K N).rhsIdx_val_of_single rfl j _).trans hk
    | ⟨1, _⟩ => rfl
  exact congrArg₂ (· * ·) (congrArg l el) (congrArg r er)

/-- A tpu.matmul into the zero accumulator with plain dimension numbers, read at an output index. -/
theorem matmul_zero_plain {φ₁ φ₂ : FTy} (M K N : Nat) (prec : Option ContractPrecision)
    (l : FVec Ideal ⟨2, ![M, K]⟩ φ₁) (r : FVec Ideal ⟨2, ![K, N]⟩ φ₂) (j : (⟨2, ![M, N]⟩ : Shape).Idx) :
    FloatOps.matmul (DotDims.plain M K N) prec l r (constant ⟨2, ![M, N]⟩ .f32 0x00000000#32) j
      = ∑ k : Fin K, l (ix2 (j 0) k) * r (ix2 k (j 1)) :=
  (Ideal.matmul_constant_zero_apply _ prec l r j).trans (plain_contr_sum M K N l r j)

/-- The host's dot_general with plain dimension numbers, read at an output index. -/
theorem dotGeneral_plain {φ₁ φ₂ : FTy} (M K N : Nat) (prec : Option ContractPrecision) (sched : HostSchedule)
    (l : FVec Ideal ⟨2, ![M, K]⟩ φ₁) (r : FVec Ideal ⟨2, ![K, N]⟩ φ₂) (j : (⟨2, ![M, N]⟩ : Shape).Idx) :
    FloatOps.dotGeneral (DotDims.plain M K N) prec sched l r j = ∑ k : Fin K, l (ix2 (j 0) k) * r (ix2 k (j 1)) :=
  (Ideal.dotGeneral_apply _ prec sched l r j).trans (plain_contr_sum M K N l r j)

end Cert.LibPlainDot

end
-- ==== Proof.KIForms.lean ====
/-
  The host side of the idealized program as three pure functions of arrays, in the program's own operations:
  * w3of: the 128 x 3 weight matrix whose columns are the two halves of the edge scorer's weight column and the node
    scorer's weight column;
  * mid: from the 50000 x 3 table of projected scores, the two rows of the edge list and the two biases, the combined
    score of every node — the source-side scores gathered along the edges and added into their destination nodes, plus
    (the number of edges into the node) x (the node's destination-side score + the edge bias), plus the node's own
    score and the node bias;
  * outK: a score vector padded with -inf to 391 x 128, normalised by the second kernel's arithmetic, flattened and cut
    back to its first 50000 entries.
-/
import proofs.«153172_j18399639896424_2_alg».proof.Proof.Gen.KernelIdeal.Skeleton
import Idealize.ShloMosaic.PureOps.Ideal
import Idealize.ShloMosaic.Lib.ValueIdx

noncomputable section

namespace Cert.KernelIdeal.Hand

open Idealize.ShloMosaic Idealize.ShloMosaic.ValueIdx
open Cert.KernelIdeal Cert.KernelIdeal.Gen

/-- The full product of a 50000 x 128 matrix with a 128 x 3 matrix: the table of projected scores. -/
def G7 (hh : S50000x128.Idx → EReal) (w3 : S128x3.Idx → EReal) : S50000x3.Idx → EReal :=
  fun i => ∑ k : Fin 128, hh (ix2 (⟨(i 0).val, (i 0).isLt⟩ : Fin 50000) k) * w3 (ix2 k (⟨(i 1).val, (i 1).isLt⟩ : Fin 3))

/-- The three weight columns side by side. -/
def w3of (a2 : S256x1.Idx → EReal) (a4 : S128x1.Idx → EReal) : S128x3.Idx → EReal :=
  concatenate S128x3 1 [⟨S128x1, extractStridedSlice S128x1 ![0, 0] a2 slices_S256x1_S128x1_0_0⟩,
    ⟨S128x1, extractStridedSlice S128x1 ![128, 0] a2 slices_S256x1_S128x1_128_0⟩, ⟨S128x1, a4⟩]
    concatenates_S128x1_S128x1_S128x1_S128x3_d1

/-- Row r of the edge list as a vector of 1600000 indices. -/
def edgeRow0 (a1 : S2x1600000.Idx → BitVec 32) : S1600000.Idx → BitVec 32 :=
  shapeCast S1600000 (extractStridedSlice S1x1600000 ![0, 0] a1 slices_S2x1600000_S1x1600000_0_0) shapeCasts_S1x1600000_S1600000
def edgeRow1 (a1 : S2x1600000.Idx → BitVec 32) : S1600000.Idx → BitVec 32 :=
  shapeCast S1600000 (extractStridedSlice S1x1600000 ![1, 0] a1 slices_S2x1600000_S1x1600000_1_0) shapeCasts_S1x1600000_S1600000

/-- Column j of the projected table as a vector. -/
def col0 (v7 : S50000x3.Idx → EReal) : S50000.Idx → EReal :=
  shapeCast S50000 (extractStridedSlice S50000x1 ![0, 0] v7 slices_S50000x3_S50000x1_0_0) shapeCasts_S50000x1_S50000
def col1 (v7 : S50000x3.Idx → EReal) : S50000.Idx → EReal :=
  shapeCast S50000 (extractStridedSlice S50000x1 ![0, 1] v7 slices_S50000x3_S50000x1_0_1) shapeCasts_S50000x1_S50000
def col2 (v7 : S50000x3.Idx → EReal) : S50000.Idx → EReal :=
  shapeCast S50000 (extractStridedSlice S50000x1 ![0, 2] v7 slices_S50000x3_S50000x1_0_2) shapeCasts_S50000x1_S50000

/-- The source indices with a negative one raised by the number of nodes, as an index column. -/
def srcCol (v1 : S1600000.Idx → BitVec 32) : S1600000x1.Idx → BitVec 32 :=
  broadcastInDim S1600000x1 ![0] bcast_S1600000_S1600000x1_0
    (select (cmpi CmpIPredicate.slt v1 (broadcastInDim S1600000 ![] bcast_S_S1600000 (constantI S_ 32 0#32)))
      (addi v1 (broadcastInDim S1600000 ![] bcast_S_S1600000 (constantI S_ 32 50000#32))) v1)
/-- The destination indices as an index column. -/
def dstCol (v3 : S1600000.Idx → BitVec 32) : S1600000x1.Idx → BitVec 32 :=
  broadcastInDim S1600000x1 ![0] bcast_S1600000_S1600000x1_0 v3

/-- The combined score of every node, in the kernel program's arrangement. -/
def mid (v7 : S50000x3.Idx → EReal) (v1 v3 : S1600000.Idx → BitVec 32) (a3 a5 : S1.Idx → EReal) : S50000.Idx → EReal :=
  addf (F := Ideal)
    (addf (F := Ideal)
      (Host.scatterAdd (F := Ideal) scatter_S50000_S1600000x1_S1600000_n_0_0_1
        (broadcastInDim S50000 ![] bcast_S_S50000 (constant (F := Ideal) S_ FTy.f32 0x00000000#32)) (dstCol v3)
        (Host.gather gather_S50000_S1600000x1_S1600000_n_0_n_n_0_1_1 (col0 v7) (srcCol v1)))
      (mulf (F := Ideal)
        (Host.scatterAdd (F := Ideal) scatter_S50000_S1600000x1_S1600000_n_0_0_1
          (broadcastInDim S50000 ![] bcast_S_S50000 (constant (F := Ideal) S_ FTy.f32 0x00000000#32)) (dstCol v3)
          (broadcastInDim S1600000 ![] bcast_S_S1600000 (constant (F := Ideal) S_ FTy.f32 0x3F800000#32)))
        (addf (F := Ideal) (col1 v7) (broadcastInDim S50000 ![] bcast_S_S50000 (shapeCast S_ a3 shapeCasts_S1_S_)))))
    (addf (F := Ideal) (col2 v7) (broadcastInDim S50000 ![] bcast_S_S50000 (shapeCast S_ a5 shapeCasts_S1_S_)))

/-- A score vector padded with -inf and laid out as the 391 x 128 tile the second kernel reads. -/
def padTile (x36 : S50000.Idx → EReal) : S391x128.Idx → EReal :=
  shapeCast S391x128 (pad S50048 ![0] ![48] ![0] x36 (id (constant (F := Ideal) S_ FTy.f32 0xFF800000#32)) pads_S50000_S50048_0480 h_S_)
    shapeCasts_S50048_S391x128

/-- The normalised tile flattened and cut back to the 50000 nodes. -/
def cutTile (y : S391x128.Idx → EReal) : S50000.Idx → EReal :=
  extractStridedSlice S50000 ![0] (shapeCast S50048 y shapeCasts_S391x128_S50048) slices_S50048_S50000_0

/-- The whole tail: pad, normalise, cut. -/
def outK (x36 : S50000.Idx → EReal) : S50000.Idx → EReal := cutTile (k1_pay1 (F := Ideal) (padTile x36))

end Cert.KernelIdeal.Hand

end
-- ==== Proof.KIBlocks.lean ====
/-
  What each launched kernel leaves in its output array, as one function of the arrays it found (at the exact values).

  The projection kernel: grid point t multiplies rows 10000 t .. 10000 t + 9999 of the feature matrix by the whole
  128 x 3 weight matrix, and writes the product over the same rows of the 50000 x 3 output; the five points' row blocks
  tile the output. So the output array ends as the full product: entry (r, j) is the sum over k < 128 of
  feature (r, k) x weight (k, j).

  The normalisation kernel has one grid point whose blocks are the whole arrays, so its output array ends as the body's
  arithmetic applied to the whole input tile.
-/
import proofs.«153172_j18399639896424_2_alg».proof.Proof.KIRegions
import proofs.«153172_j18399639896424_2_alg».proof.Proof.LibPlainDot
import proofs.«153172_j18399639896424_2_alg».proof.Proof.KIForms
import Idealize.ShloMosaic.Lib.Pipeline.Value
import Idealize.ShloMosaic.Lib.ValueIdx
import Idealize.ShloMosaic.PureOps.Ideal.Laws

set_option maxRecDepth 16384

noncomputable section

namespace Cert.KernelIdeal.Hand

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-! ## The projection kernel -/

/-- The body's arithmetic at entry (p, q) of its block: row p of the feature block times column q of the weights. -/
theorem pay0_apply (x0 : FVec Ideal S10000x128 .f32) (x1 : FVec Ideal S128x3 .f32) (p : Fin 10000) (q : Fin 3) :
    k0_pay1 (F := Ideal) x0 x1 (ix2 p q) = ∑ k : Fin 128, x0 (ix2 p k) * x1 (ix2 k q) := by
  unfold k0_pay1
  rw [shapeCast_self]
  exact Cert.LibPlainDot.matmul_zero_plain 10000 128 3 (some .fp32) x0 x1 (ix2 p q)

/-- The printed index maps over the grid: the feature window and the output window are at row block t, the weight
    window never moves. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point t writes back is block t of the full product of the arrays the region found. -/
theorem flushed0_eq (c : Dev nD) (t : Fin cfg0.N) :
    (dat0 V c).flushed 2 t = ((cfg0.win 2).blk t).view.read (Elt Ideal) (G7 (V c main_arg0) (V c main_v6)) := by
  show (cfg0.win 2).cut (grid0.coords t) ((dat0 V c).after 2 t) = _
  rw [after0_2]
  unfold out0_2
  rw [View.canon_unit_zero hz]
  simp only [View.ld_unit_zero (S := S10000x128) hz, View.ld_unit_zero (S := S128x3) hz]
  obtain ⟨e0, e1, e2, e3, e4, e5⟩ := idx_facts0 t
  funext j
  obtain ⟨p, q, rfl⟩ : ∃ (p : Fin 10000) (q : Fin 3), j = ix2 p q := ⟨j 0, j 1, eq_ix2 j⟩
  refine (pay0_apply (iblk0 V c 0 t) (iblk0 V c 1 t) p q).trans ?_
  have key : ∀ (A : S50000x128.Idx → EReal) (B : S128x3.Idx → EReal),
      (∑ k : Fin 128, A (((cfg0.win 0).blk t).view.emb (ix2 p k)) * B (((cfg0.win 1).blk t).view.emb (ix2 k q)))
        = G7 A B (((cfg0.win 2).blk t).view.emb (ix2 p q)) := by
    intro A B
    unfold G7
    refine Finset.sum_congr rfl fun k _ => ?_
    have h0 : ((cfg0.win 0).blk t).view.emb (ix2 p k)
        = ix2 (⟨((((cfg0.win 2).blk t).view.emb (ix2 p q)) 0).val, ((((cfg0.win 2).blk t).view.emb (ix2 p q)) 0).isLt⟩ : Fin 50000) k := by
      funext a; apply Fin.ext
      match a with
      | ⟨0, _⟩ => show win0_0.index t (0 : Fin 2) * 10000 + 1 * p.val = win0_2.index t (0 : Fin 2) * 10000 + 1 * p.val; omega
      | ⟨1, _⟩ => show win0_0.index t (1 : Fin 2) * 128 + 1 * k.val = k.val; omega
    have h1 : ((cfg0.win 1).blk t).view.emb (ix2 k q)
        = ix2 k (⟨((((cfg0.win 2).blk t).view.emb (ix2 p q)) 1).val, ((((cfg0.win 2).blk t).view.emb (ix2 p q)) 1).isLt⟩ : Fin 3) := by
      funext a; apply Fin.ext
      match a with
      | ⟨0, _⟩ => show win0_1.index t (0 : Fin 2) * 128 + 1 * k.val = k.val; omega
      | ⟨1, _⟩ => show win0_1.index t (1 : Fin 2) * 3 + 1 * q.val = win0_2.index t (1 : Fin 2) * 3 + 1 * q.val; omega
    rw [h0, h1]
  exact key (V c main_arg0) (V c main_v6)

/-- An index of the output array is in point t's block iff its row is among the block's rows. -/
theorem mem_blk0 (t : Fin cfg0.N) (i : S50000x3.Idx) :
    i ∈ ((cfg0.win 2).blk t).view.set ↔ ∀ a : Fin 2, win0_2.index t a * S10000x3.size a ≤ (i a).val ∧ (i a).val < win0_2.index t a * S10000x3.size a + S10000x3.size a := by
  show i ∈ ((View.whole main_v7).slice (win0_2.rect t)).set ↔ _
  rw [View.set_slice_whole, Rect.mem_set_unit]
  exact Iff.rfl

/-- The five row blocks cover the output array. -/
theorem cover0 (i : S50000x3.Idx) : ∃ t : Fin cfg0.N, (cfg0.win 2).flush t = true ∧ i ∈ ((cfg0.win 2).blk t).view.set := by
  have hi0 : (i 0).val < 50000 := (i 0).isLt
  have hi1 : (i 1).val < 3 := (i 1).isLt
  have hN : cfg0.N = 5 := N_0
  let t : Fin cfg0.N := ⟨(i 0).val / 10000, by rw [hN]; omega⟩
  obtain ⟨e0, e1, e2, e3, e4, e5⟩ := idx_facts0 t
  have ht : t.val = (i 0).val / 10000 := rfl
  refine ⟨t, flush0_2 t, ?_⟩
  rw [mem_blk0]
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 3 ≤ (i 1).val ∧ (i 1).val < win0_2.index t (1 : Fin 2) * 3 + 3; omega

/-- The projection kernel's output array ends as the full product. -/
theorem final0 (c : Dev nD) : (dat0 V c).arrAt 2 cfg0.N = G7 (V c main_arg0) (V c main_v6) :=
  (dat0 V c).arrAt_eq_of_cover 2 (G7 (V c main_arg0) (V c main_v6)) (fun t _ => flushed0_eq V c t) (cover0)

/-! ## The normalisation kernel -/

theorem idx_facts1 : ∀ t : Fin cfg1.N, win1_0.index t (0 : Fin 2) = 0 ∧ win1_0.index t (1 : Fin 2) = 0
    ∧ win1_1.index t (0 : Fin 2) = 0 ∧ win1_1.index t (1 : Fin 2) = 0 :=
  (by decide +kernel : ∀ t : Fin grid1.N, _)

/-- The input block at the one grid point is the whole input array. -/
theorem iblk1_whole (c : Dev nD) (t : Fin cfg1.N) : iblk1 V c 0 t = V c main_v38 := by
  obtain ⟨e0, e1, e2, e3⟩ := idx_facts1 t
  funext y
  show V c main_v38 (((cfg1.win 0).blk t).view.emb y) = V c main_v38 y
  refine congrArg (V c main_v38) ?_
  funext a; apply Fin.ext
  match a with
  | ⟨0, _⟩ => show win1_0.index t (0 : Fin 2) * 391 + 1 * (y 0).val = (y 0).val; omega
  | ⟨1, _⟩ => show win1_0.index t (1 : Fin 2) * 128 + 1 * (y 1).val = (y 1).val; omega

/-- What the one point writes back is the body's arithmetic of the whole input tile. -/
theorem flushed1_eq (c : Dev nD) (t : Fin cfg1.N) :
    (dat1 V c).flushed 1 t = ((cfg1.win 1).blk t).view.read (Elt Ideal) (k1_pay1 (F := Ideal) (V c main_v38)) := by
  show (cfg1.win 1).cut (grid1.coords t) ((dat1 V c).after 1 t) = _
  rw [after1_1]
  unfold out1_1
  rw [View.canon_unit_zero hz]
  simp only [View.ld_unit_zero (S := S391x128) hz]
  rw [iblk1_whole]
  obtain ⟨e0, e1, e2, e3⟩ := idx_facts1 t
  generalize k1_pay1 (F := Ideal) (V c main_v38) = Y
  funext j
  show Y j = Y (((cfg1.win 1).blk t).view.emb j)
  refine congrArg Y ?_
  funext a; apply Fin.ext
  match a with
  | ⟨0, _⟩ => show (j 0).val = win1_1.index t (0 : Fin 2) * 391 + 1 * (j 0).val; omega
  | ⟨1, _⟩ => show (j 1).val = win1_1.index t (1 : Fin 2) * 128 + 1 * (j 1).val; omega

theorem mem_blk1 (t : Fin cfg1.N) (i : S391x128.Idx) :
    i ∈ ((cfg1.win 1).blk t).view.set ↔ ∀ a : Fin 2, win1_1.index t a * S391x128.size a ≤ (i a).val ∧ (i a).val < win1_1.index t a * S391x128.size a + S391x128.size a := by
  show i ∈ ((View.whole main_v39).slice (win1_1.rect t)).set ↔ _
  rw [View.set_slice_whole, Rect.mem_set_unit]
  exact Iff.rfl

theorem cover1 (i : S391x128.Idx) : ∃ t : Fin cfg1.N, (cfg1.win 1).flush t = true ∧ i ∈ ((cfg1.win 1).blk t).view.set := by
  have hi0 : (i 0).val < 391 := (i 0).isLt
  have hi1 : (i 1).val < 128 := (i 1).isLt
  obtain ⟨e0, e1, e2, e3⟩ := idx_facts1 t1_0
  refine ⟨t1_0, flush1_1 t1_0, ?_⟩
  rw [mem_blk1]
  intro a
  match a with
  | ⟨0, _⟩ => show win1_1.index t1_0 (0 : Fin 2) * 391 ≤ (i 0).val ∧ (i 0).val < win1_1.index t1_0 (0 : Fin 2) * 391 + 391; omega
  | ⟨1, _⟩ => show win1_1.index t1_0 (1 : Fin 2) * 128 ≤ (i 1).val ∧ (i 1).val < win1_1.index t1_0 (1 : Fin 2) * 128 + 128; omega

/-- The normalisation kernel's output array ends as the body's arithmetic of the whole input tile. -/
theorem final1 (c : Dev nD) : (dat1 V c).arrAt 1 cfg1.N = k1_pay1 (F := Ideal) (V c main_v38) :=
  (dat1 V c).arrAt_eq_of_cover 1 (k1_pay1 (F := Ideal) (V c main_v38)) (fun t _ => flushed1_eq V c t) (cover1)

end Cert.KernelIdeal.Hand

end
-- ==== Proof.KIHost.lean ====
/-
  The contents of the idealized program's buffers at the boundaries of its run, read back as values: the weight
  matrix and the edge rows the first host stretch makes; the projected table the first kernel leaves (the full
  product); the combined scores the middle host stretch makes of it; the padded tile; the normalised tile the second
  kernel leaves; and the result buffer, as one composition of pure functions of the argument arrays.
-/
import proofs.«153172_j18399639896424_2_alg».proof.Proof.KIRun
import proofs.«153172_j18399639896424_2_alg».proof.Proof.KIBlocks
import proofs.«153172_j18399639896424_2_alg».proof.Proof.KIForms
import Idealize.ShloMosaic.Lib.StableHlo.Run

set_option maxRecDepth 16384

noncomputable section

namespace Cert.KernelIdeal.Hand

open Idealize.ShloMosaic Idealize.ShloMosaic.TcCoe Idealize.ShloMosaic.StableHlo
open Idealize.SL Idealize.SL.Sem
open Cert.KernelIdeal Cert.KernelIdeal.Gen

/-- A three-operand host operation's result with each operand's contents at its own reference. -/
theorem nary3_result {Val : EltTy → Type} {x a b y : Ref sig .tc}
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl

variable (m : (ℓ : Loc nD τ sig) → Buf (Elt Ideal) ℓ) (ρ : Dev nD → PrngReg)

/-! ## After the first host stretch -/

/-- The weight matrix the first host stretch makes, from any contents of the buffers before it. -/
theorem w3_stage (X : Valuation τ sig (Elt Ideal)) :
    (StableHlo.after hostOps0 X (Proc.devRef .tc main_v6) : S128x3.Idx → EReal)
      = w3of (X (Proc.devRef .tc main_arg2)) (X (Proc.devRef .tc main_arg4)) := by
  simp only [after_cons, after_nil]
  rw [nary3_result]
  repeat (first
    | rw [unary_result] | rw [reshape_result]
    | (rw [unary_result_ne]; rotate_left; decide)
    | (rw [reshape_result_ne]; rotate_left; decide))
  rfl

theorem W1_v6 (c : Dev nD) : (W1 m ρ c (Proc.devRef .tc main_v6) : S128x3.Idx → EReal)
    = w3of (m ((c : Thread nD τ).loc main_arg2)) (m ((c : Thread nD τ).loc main_arg4)) :=
  w3_stage (W0 m ρ c)

theorem row0_stage (X : Valuation τ sig (Elt Ideal)) :
    (StableHlo.after hostOps0 X (Proc.devRef .tc main_v1) : S1600000.Idx → BitVec 32) = edgeRow0 (X (Proc.devRef .tc main_arg1)) := by
  after_results
  rfl
theorem row1_stage (X : Valuation τ sig (Elt Ideal)) :
    (StableHlo.after hostOps0 X (Proc.devRef .tc main_v3) : S1600000.Idx → BitVec 32) = edgeRow1 (X (Proc.devRef .tc main_arg1)) := by
  after_results
  rfl

theorem W1_v1 (c : Dev nD) : (W1 m ρ c (Proc.devRef .tc main_v1) : S1600000.Idx → BitVec 32)
    = edgeRow0 (m ((c : Thread nD τ).loc main_arg1)) := row0_stage (W0 m ρ c)

theorem W1_v3 (c : Dev nD) : (W1 m ρ c (Proc.devRef .tc main_v3) : S1600000.Idx → BitVec 32)
    = edgeRow1 (m ((c : Thread nD τ).loc main_arg1)) := row1_stage (W0 m ρ c)

theorem W1_keep (c : Dev nD) (r : Ref sig .tc) (h0 : r ∉ (hostOps0_W : List (Ref sig .tc))) :
    W1 m ρ c (Proc.devRef .tc r) = m ((c : Thread nD τ).loc r) :=
  StableHlo.after_of_writes_sub hostOps0 _ hostOps0_writes h0

/-! ## After the projection kernel -/

theorem W2_v7 (c : Dev nD) : (W2 m ρ c (Proc.devRef .tc main_v7) : S50000x3.Idx → EReal)
    = G7 (m ((c : Thread nD τ).loc main_arg0)) (w3of (m ((c : Thread nD τ).loc main_arg2)) (m ((c : Thread nD τ).loc main_arg4))) := by
  refine (W2_arr m ρ c 2).trans ((final0 (V1 m ρ) c).trans ?_)
  have e0 : (V1 m ρ c main_arg0 : S50000x128.Idx → EReal) = m ((c : Thread nD τ).loc main_arg0) := W1_keep m ρ c main_arg0 (by decide)
  have e6 : (V1 m ρ c main_v6 : S128x3.Idx → EReal) = w3of (m ((c : Thread nD τ).loc main_arg2)) (m ((c : Thread nD τ).loc main_arg4)) := W1_v6 m ρ c
  rw [e0, e6]

theorem W2_v1 (c : Dev nD) : (W2 m ρ c (Proc.devRef .tc main_v1) : S1600000.Idx → BitVec 32) = edgeRow0 (m ((c : Thread nD τ).loc main_arg1)) :=
  (W2_of_ne m ρ c main_v1 (by decide)).trans (W1_v1 m ρ c)
theorem W2_v3 (c : Dev nD) : (W2 m ρ c (Proc.devRef .tc main_v3) : S1600000.Idx → BitVec 32) = edgeRow1 (m ((c : Thread nD τ).loc main_arg1)) :=
  (W2_of_ne m ρ c main_v3 (by decide)).trans (W1_v3 m ρ c)
theorem W2_arg3 (c : Dev nD) : W2 m ρ c (Proc.devRef .tc main_arg3) = m ((c : Thread nD τ).loc main_arg3) :=
  (W2_of_ne m ρ c main_arg3 (by decide)).trans (W1_keep m ρ c main_arg3 (by decide))
theorem W2_arg5 (c : Dev nD) : W2 m ρ c (Proc.devRef .tc main_arg5) = m ((c : Thread nD τ).loc main_arg5) :=
  (W2_of_ne m ρ c main_arg5 (by decide)).trans (W1_keep m ρ c main_arg5 (by decide))

/-! ## After the host stretches between the kernels -/

set_option maxHeartbeats 4000000 in
theorem W3_v36 (c : Dev nD) : (W3 m ρ c (Proc.devRef .tc main_v36) : S50000.Idx → EReal)
    = mid (W2 m ρ c (Proc.devRef .tc main_v7)) (W2 m ρ c (Proc.devRef .tc main_v1)) (W2 m ρ c (Proc.devRef .tc main_v3))
        (W2 m ρ c (Proc.devRef .tc main_arg3)) (W2 m ρ c (Proc.devRef .tc main_arg5)) := by
  show StableHlo.after hostOps1 (W2 m ρ c) (Proc.devRef .tc main_v36) = _
  after_results_simp
  rfl

set_option maxHeartbeats 4000000 in
theorem W3_cst3 (c : Dev nD) : (W3 m ρ c (Proc.devRef .tc main_cst_3) : S_.Idx → EReal) = constant (F := Ideal) S_ FTy.f32 0xFF800000#32 := by
  show StableHlo.after hostOps1 (W2 m ρ c) (Proc.devRef .tc main_cst_3) = _
  after_results_simp

/-- The padded tile the two short host stretches make, from any contents of the buffers before them. -/
theorem pad_stage (X : Valuation τ sig (Elt Ideal)) :
    (StableHlo.after hostOps1_2 (StableHlo.after hostOps1_1 X) (Proc.devRef .tc main_v38) : S391x128.Idx → EReal)
      = shapeCast S391x128 (pad S50048 ![0] ![48] ![0] (X (Proc.devRef .tc main_v36)) (id (X (Proc.devRef .tc main_cst_3)))
          pads_S50000_S50048_0480 h_S_) shapeCasts_S50048_S391x128 := by
  after_results
  rfl

theorem W5_v38 (c : Dev nD) : (W5 m ρ c (Proc.devRef .tc main_v38) : S391x128.Idx → EReal)
    = padTile (W3 m ρ c (Proc.devRef .tc main_v36)) := by
  refine (pad_stage (W3 m ρ c)).trans ?_
  rw [W3_cst3]
  rfl

/-! ## After the normalisation kernel, and the end -/

theorem W6_v39 (c : Dev nD) : (W6 m ρ c (Proc.devRef .tc main_v39) : S391x128.Idx → EReal)
    = k1_pay1 (F := Ideal) (W5 m ρ c (Proc.devRef .tc main_v38)) :=
  (W6_arr m ρ c 1).trans (final1 (V5 m ρ) c)

/-- The result the last host stretch makes, from any contents of the buffers before it. -/
theorem cut_stage (X : Valuation τ sig (Elt Ideal)) :
    (StableHlo.after hostOps2 X (Proc.devRef .tc main_v41) : S50000.Idx → EReal) = cutTile (X (Proc.devRef .tc main_v39)) := by
  after_results
  rfl

theorem W7_v41 (c : Dev nD) : (W7 m ρ c (Proc.devRef .tc main_v41) : S50000.Idx → EReal)
    = cutTile (W6 m ρ c (Proc.devRef .tc main_v39)) :=
  cut_stage (W6 m ρ c)

/-- THE RESULT BUFFER at the end of the run, as one composition of pure functions of the argument arrays. -/
theorem W7_v41_eq (c : Dev nD) : (W7 m ρ c (Proc.devRef .tc main_v41) : S50000.Idx → EReal)
    = outK (mid (G7 (m ((c : Thread nD τ).loc main_arg0)) (w3of (m ((c : Thread nD τ).loc main_arg2)) (m ((c : Thread nD τ).loc main_arg4))))
        (edgeRow0 (m ((c : Thread nD τ).loc main_arg1))) (edgeRow1 (m ((c : Thread nD τ).loc main_arg1)))
        (m ((c : Thread nD τ).loc main_arg3)) (m ((c : Thread nD τ).loc main_arg5))) := by
  rw [W7_v41, W6_v39, W5_v38, W3_v36, W2_v7, W2_v1, W2_v3, W2_arg3, W2_arg5]
  rfl

end Cert.KernelIdeal.Hand

end
-- ==== Proof.Spec.lean ====
/-
  The two closed forms this certificate joins, written once over the argument arrays alone: node features h
  (50000 x 128), the edge list (2 x 1600000: row 0 the source node of each edge, row 1 its destination), the edge
  scorer's weights (256 x 1: the first 128 act on the source's features, the last 128 on the destination's) and bias,
  the node scorer's weights (128 x 1) and bias.

  Every node v has three scores: sSrc v, sDst v, sSelf v, the products of its feature row with the three weight
  columns. An edge e is added into node v exactly when its destination index, read as a signed integer, is v (an edge
  whose destination is outside [0, 50000) is added nowhere). What edge e reads on its source side is sSrc at the row its
  source index selects: a negative index is first raised by 50000, and the result is clamped into [0, 49999].

  combinedR v adds, over the edges landing on v, the whole edge score (source side + destination side + bias), then the
  node's own score. combinedK v adds the source sides only and accounts for the rest as (number of edges landing on
  v) x (sDst v + bias). The two agree when every number involved is real; softmax is applied to either.
-/
import Idealize.ShloMosaic.Lib.ValueIdx
import Idealize.ShloMosaic.PureOps.Ideal

noncomputable section

namespace Cert.Spec

open Idealize.ShloMosaic Idealize.ShloMosaic.ValueIdx
open scoped BigOperators

variable (h : (⟨2, ![50000, 128]⟩ : Shape).Idx → EReal) (ei : (⟨2, ![2, 1600000]⟩ : Shape).Idx → BitVec 32)
  (we : (⟨2, ![256, 1]⟩ : Shape).Idx → EReal) (be : (⟨1, ![1]⟩ : Shape).Idx → EReal)
  (wn : (⟨2, ![128, 1]⟩ : Shape).Idx → EReal) (bn : (⟨1, ![1]⟩ : Shape).Idx → EReal)

/-- Node v's score under the source half of the edge scorer's weights. -/
def sSrc (v : Fin 50000) : EReal :=
  ∑ k : Fin 128, h (ix2 v k) * we (ix2 (⟨k.val, by have := k.isLt; omega⟩ : Fin 256) (0 : Fin 1))
/-- Node v's score under the destination half of the edge scorer's weights. -/
def sDst (v : Fin 50000) : EReal :=
  ∑ k : Fin 128, h (ix2 v k) * we (ix2 (⟨128 + k.val, by have := k.isLt; omega⟩ : Fin 256) (0 : Fin 1))
/-- Node v's score under the node scorer's weights. -/
def sSelf (v : Fin 50000) : EReal := ∑ k : Fin 128, h (ix2 v k) * wn (ix2 k (0 : Fin 1))

/-- Edge e's source index and destination index, as stored. -/
def src (e : Fin 1600000) : BitVec 32 := ei (ix2 (0 : Fin 2) e)
def dst (e : Fin 1600000) : BitVec 32 := ei (ix2 (1 : Fin 2) e)

/-- A negative index raised by the number of nodes; any other index unchanged. -/
def wrap (b : BitVec 32) : BitVec 32 := Scalar.select (IntOp.cmpi .slt b 0#32) (IntOp.addi b 50000#32) b
/-- The row an index selects when rows are read: the index as a signed integer, clamped into [0, 49999]. -/
def clampRow (b : BitVec 32) : Fin 50000 := ⟨min b.toInt.toNat 49999, by omega⟩

/-- The reference's combined score of node v. -/
def combinedR (v : Fin 50000) : EReal :=
  (0 + ∑ e : Fin 1600000, if (dst ei e).toInt = (v.val : Int)
      then ((sSrc h we (clampRow (wrap (src ei e))) + sDst h we (clampRow (wrap (dst ei e)))) + be (ix1 (0 : Fin 1))) else 0)
    + (sSelf h wn v + bn (ix1 (0 : Fin 1)))

/-- The kernel's combined score of node v. -/
def combinedK (v : Fin 50000) : EReal :=
  ((0 + ∑ e : Fin 1600000, if (dst ei e).toInt = (v.val : Int) then sSrc h we (clampRow (wrap (src ei e))) else 0)
      + (0 + ∑ e : Fin 1600000, if (dst ei e).toInt = (v.val : Int) then (1 : EReal) else 0) * (sDst h we v + be (ix1 (0 : Fin 1))))
    + (sSelf h wn v + bn (ix1 (0 : Fin 1)))

/-- The softmax of a score vector over the 50000 nodes, as both programs compute it: shifted by the largest score. -/
def softmax (x : Fin 50000 → EReal) (i : Fin 50000) : EReal :=
  Ideal.div (Ideal.exp (x i - (Finset.univ : Finset (Fin 50000)).fold max ⊥ x))
    (0 + ∑ j : Fin 50000, Ideal.exp (x j - (Finset.univ : Finset (Fin 50000)).fold max ⊥ x))

end Cert.Spec

end
-- ==== Proof.LibEdgeVec.lean ====
/-
  A vector gathered by an index column, and a vector of updates added into a vector at an index column, read at an
  entry: a general module. The lemmas are general in the two extents and, for the gather, in the element type.

  The vector has length N, the index column is E × 1 and the values handed around form a vector of length E.

  • Gather (what reading a flat array at an array of indices lowers to): entry e of the result is the vector's entry at
    index e, the index read as a signed integer and clamped into [0, N − 1] (`gather_vec_apply`).
  • Scatter-add (what a segment sum of scalars lowers to): update e lands on the entry that index e names, read as a
    signed integer and NOT clamped; an update whose index is outside [0, N) is dropped. So update e lands on entry n
    exactly when idx e = n (`vec_land_iff`), and over the extended reals entry n of the result is the vector's entry
    plus the sum, over the updates e whose index is n, of update e (`scatterAdd_vec_apply`).
  • A sum over a rank-1 index set is the sum over its one coordinate (`sum_idx1`).
-/
import Idealize.ShloMosaic.Lib.ValueIdx
import Idealize.ShloMosaic.PureOps.Ideal.Laws

noncomputable section

namespace Cert.LibEdgeVec

open Idealize.ShloMosaic Idealize.ShloMosaic.ValueIdx
open scoped BigOperators

/-! ## Sums over a rank-1 index set -/

/-- A rank-1 index set is its one coordinate range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-! ## Entries gathered -/

/-- The dimension numbers of a gather of single entries: the result has no offset axis, the vector's one axis is
    collapsed and indexed by the one component of each start index. -/
abbrev vecGatherDims (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- THE GATHER READ AT e: the vector at index e, read signed and clamped into [0, N − 1]. -/
theorem gather_vec_apply {α : Type} {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (vecGatherDims N E wf) x idx (ix1 e)
      = x (ix1 (⟨min (idx (ix2 e (0 : Fin 1))).toInt.toNat (N - 1), by omega⟩ : Fin N)) := by
  unfold Host.gather
  congr 1
  funext a
  obtain rfl : a = 0 := Subsingleton.elim _ _
  refine Fin.ext ?_
  show (vecGatherDims N E wf).start (ix1 e) idx 0 + (vecGatherDims N E wf).batchCoord (ix1 e) 0
    + (vecGatherDims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGatherDims N E wf).startIndexMap from List.mem_singleton.mpr rfl)]
  have hsi : (vecGatherDims N E wf).siIdx (ix1 e) ⟨List.idxOf (0 : Fin 1) (vecGatherDims N E wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

/-! ## Entries added in -/

/-- The dimension numbers of a scatter of single entries: the updates have no window axis, the vector's one axis is
    the inserted one, indexed by the one component of each scatter index. -/
abbrev vecScatterDims (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

section Scatter
variable {N E w : Nat} (wf : ScatterDims.WF ⟨1, ![N]⟩ ⟨2, ![E, 1]⟩ ⟨1, ![E]⟩ [] [0] [0] 1)
  (idx : IVec ⟨2, ![E, 1]⟩ w) (e : Fin E)

theorem start_vec_zero : (vecScatterDims N E wf).start (ix1 e) idx 0 = (idx (ix2 e (0 : Fin 1))).toInt := by
  unfold ScatterDims.start
  rw [dif_pos (show (0 : Fin 1) ∈ (vecScatterDims N E wf).scatterDimsToOperandDims from List.mem_singleton.mpr rfl)]
  have hsi : (vecScatterDims N E wf).siIdx (ix1 e) ⟨List.idxOf (0 : Fin 1) (vecScatterDims N E wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

theorem window_vec_zero : (vecScatterDims N E wf).window (ix1 e) 0 = 0 := by
  unfold ScatterDims.window
  rw [dif_neg (by show ¬ (0 : Fin 1) ∈ (List.finRange 1).filter (fun a => a ∉ ([0] : List (Fin 1))); decide)]

/-- Update e lands on entry n exactly when index e, read signed, is n. -/
theorem vec_land_iff (n : Fin N) :
    (vecScatterDims N E wf).resultIdx? (ix1 e) idx = some (ix1 n)
      ↔ (idx (ix2 e (0 : Fin 1))).toInt = (n.val : Int) := by
  unfold ScatterDims.resultIdx?
  split
  · rename_i h
    rw [Option.some.injEq]
    constructor
    · intro hf
      have h0 := congrArg (fun f => (f 0).val) hf
      simp only [start_vec_zero, window_vec_zero] at h0
      have g0 := (h 0).1
      rw [start_vec_zero, window_vec_zero] at g0
      have : ((idx (ix2 e (0 : Fin 1))).toInt + ((0 : Nat) : Int)).toNat = n.val := h0
      omega
    · intro hn
      funext a
      obtain rfl : a = 0 := Subsingleton.elim _ _
      refine Fin.ext ?_
      show ((vecScatterDims N E wf).start (ix1 e) idx 0 + ((vecScatterDims N E wf).window (ix1 e) 0 : Int)).toNat = n.val
      rw [start_vec_zero, window_vec_zero, hn]; omega
  · rename_i h
    constructor
    · intro hf; exact absurd hf (by simp)
    · intro hn
      exfalso
      apply h
      intro a
      obtain rfl : a = 0 := Subsingleton.elim _ _
      show 0 ≤ (vecScatterDims N E wf).start (ix1 e) idx 0 + ((vecScatterDims N E wf).window (ix1 e) 0 : Int)
        ∧ (vecScatterDims N E wf).start (ix1 e) idx 0 + ((vecScatterDims N E wf).window (ix1 e) 0 : Int) < (N : Int)
      rw [start_vec_zero, window_vec_zero, hn]
      have := n.isLt
      omega

/-- THE SCATTER-ADD READ AT n, over the extended reals: the vector's entry plus the sum, over the updates whose index
    is n, of those updates. -/
theorem scatterAdd_vec_apply (x : (⟨1, ![N]⟩ : Shape).Idx → EReal) (upd : (⟨1, ![E]⟩ : Shape).Idx → EReal)
    (n : Fin N) :
    Ideal.hostScatterAdd (vecScatterDims N E wf) x idx upd (ix1 n)
      = x (ix1 n) + ∑ e : Fin E, if (idx (ix2 e (0 : Fin 1))).toInt = (n.val : Int) then upd (ix1 e) else 0 := by
  unfold Ideal.hostScatterAdd
  congr 1
  rw [Finset.sum_filter, sum_idx1]
  refine Finset.sum_congr rfl fun e _ => ?_
  simp only [vec_land_iff]

end Scatter

end Cert.LibEdgeVec

end
-- ==== Proof.LibConcatThree.lean ====
/-
  Three arrays of a rows and n columns put side by side along the columns make one array of a rows and
  N = n + n + n columns. Reading the joined array at row i and column j gives: the first array at (i, q) when
  j = q, the second at (i, q) when j = n + q, the third at (i, q) when j = n + n + q, for q below n. The column
  picks the piece by its quotient by n and the place inside the piece by its remainder, so the three statements
  are one fact about division with remainder, read at the three quotients 0, 1 and 2.
-/
import Idealize.ShloMosaic.Lib.Pipeline.Value
import Idealize.ShloMosaic.Lib.ValueIdx

namespace Cert.LibConcatThree

open Idealize.ShloMosaic Idealize.ShloMosaic.ValueIdx

variable {α : Type}

/-- The joined array at column `m * n + q` (`m` one of 0, 1, 2 and `q` below `n`) is piece `m` at column `q`. -/
theorem concat3_at (a n N : Nat) (X0 X1 X2 : (⟨2, ![a, n]⟩ : Shape).Idx → α)
    (h : Shape.Concatenates ([(⟨⟨2, ![a, n]⟩, X0⟩ : (s : Shape) × (s.Idx → α)), ⟨⟨2, ![a, n]⟩, X1⟩,
      ⟨⟨2, ![a, n]⟩, X2⟩].map (·.1)) ⟨2, ![a, N]⟩ 1)
    (i : Fin a) (j : Fin N) (m : Fin 3) (q : Fin n) (hj : j.val = m.val * n + q.val) :
    concatenate ⟨2, ![a, N]⟩ 1 [(⟨⟨2, ![a, n]⟩, X0⟩ : (s : Shape) × (s.Idx → α)), ⟨⟨2, ![a, n]⟩, X1⟩,
      ⟨⟨2, ![a, n]⟩, X2⟩] h (ix2 i j) = (![X0, X1, X2] : Fin 3 → ((⟨2, ![a, n]⟩ : Shape).Idx → α)) m (ix2 i q) := by
  have hn0 : 0 < n := Nat.lt_of_le_of_lt (Nat.zero_le _) q.isLt
  have hdiv : j.val / n = m.val := by
    rw [hj, Nat.add_comm, Nat.add_mul_div_right _ _ hn0, Nat.div_eq_of_lt q.isLt, Nat.zero_add]
  have hmod : q.val = j.val % n := by
    rw [hj, Nat.add_comm, Nat.add_mul_mod_self_right, Nat.mod_eq_of_lt q.isLt]
  exact concatenate_ofFn_apply (t := ⟨2, ![a, N]⟩) (s₁ := ⟨2, ![a, n]⟩) (1 : Fin 2) (N := 3)
    (![X0, X1, X2] : Fin 3 → ((⟨2, ![a, n]⟩ : Shape).Idx → α)) h rfl n rfl (ix2 i j) m hdiv (ix2 i q) hmod
    (fun b hb => by
      match b with
      | ⟨0, _⟩ => rfl
      | ⟨1, _⟩ => exact absurd rfl hb)

/-- A column among the first `n` reads the first piece. -/
theorem concat3_first (a n N : Nat) (X0 X1 X2 : (⟨2, ![a, n]⟩ : Shape).Idx → α)
    (h : Shape.Concatenates ([(⟨⟨2, ![a, n]⟩, X0⟩ : (s : Shape) × (s.Idx → α)), ⟨⟨2, ![a, n]⟩, X1⟩,
      ⟨⟨2, ![a, n]⟩, X2⟩].map (·.1)) ⟨2, ![a, N]⟩ 1)
    (i : Fin a) (j : Fin N) (q : Fin n) (hj : j.val = q.val) :
    concatenate ⟨2, ![a, N]⟩ 1 [(⟨⟨2, ![a, n]⟩, X0⟩ : (s : Shape) × (s.Idx → α)), ⟨⟨2, ![a, n]⟩, X1⟩,
      ⟨⟨2, ![a, n]⟩, X2⟩] h (ix2 i j) = X0 (ix2 i q) :=
  concat3_at a n N X0 X1 X2 h i j 0 q (by rw [hj]; show q.val = 0 * n + q.val; omega)

/-- A column among the next `n` reads the second piece. -/
theorem concat3_second (a n N : Nat) (X0 X1 X2 : (⟨2, ![a, n]⟩ : Shape).Idx → α)
    (h : Shape.Concatenates ([(⟨⟨2, ![a, n]⟩, X0⟩ : (s : Shape) × (s.Idx → α)), ⟨⟨2, ![a, n]⟩, X1⟩,
      ⟨⟨2, ![a, n]⟩, X2⟩].map (·.1)) ⟨2, ![a, N]⟩ 1)
    (i : Fin a) (j : Fin N) (q : Fin n) (hj : j.val = n + q.val) :
    concatenate ⟨2, ![a, N]⟩ 1 [(⟨⟨2, ![a, n]⟩, X0⟩ : (s : Shape) × (s.Idx → α)), ⟨⟨2, ![a, n]⟩, X1⟩,
      ⟨⟨2, ![a, n]⟩, X2⟩] h (ix2 i j) = X1 (ix2 i q) :=
  concat3_at a n N X0 X1 X2 h i j 1 q (by rw [hj]; show n + q.val = 1 * n + q.val; omega)

/-- A column among the last `n` reads the third piece. -/
theorem concat3_third (a n N : Nat) (X0 X1 X2 : (⟨2, ![a, n]⟩ : Shape).Idx → α)
    (h : Shape.Concatenates ([(⟨⟨2, ![a, n]⟩, X0⟩ : (s : Shape) × (s.Idx → α)), ⟨⟨2, ![a, n]⟩, X1⟩,
      ⟨⟨2, ![a, n]⟩, X2⟩].map (·.1)) ⟨2, ![a, N]⟩ 1)
    (i : Fin a) (j : Fin N) (q : Fin n) (hj : j.val = n + n + q.val) :
    concatenate ⟨2, ![a, N]⟩ 1 [(⟨⟨2, ![a, n]⟩, X0⟩ : (s : Shape) × (s.Idx → α)), ⟨⟨2, ![a, n]⟩, X1⟩,
      ⟨⟨2, ![a, n]⟩, X2⟩] h (ix2 i j) = X2 (ix2 i q) :=
  concat3_at a n N X0 X1 X2 h i j 2 q (by rw [hj]; show n + n + q.val = 2 * n + q.val; omega)

end Cert.LibConcatThree
-- ==== Proof.KIMid.lean ====
/-
  The combined score the kernel program computes, read at a node: from the program's layout operations to the closed
  form. The weight matrix's column j is the j-th weight column (source half, destination half, node scorer); column j
  of the full product at node v is therefore v's score under that column; an edge's gathered value is the source-side
  score at the row its (once raised, then clamped) source index selects; an update lands on node v exactly when the
  edge's destination index, read as a signed integer, is v; and the count of such edges is carried as a sum of ones.
-/
import proofs.«153172_j18399639896424_2_alg».proof.Proof.KIForms
import proofs.«153172_j18399639896424_2_alg».proof.Proof.Spec
import proofs.«153172_j18399639896424_2_alg».proof.Proof.LibEdgeVec
import proofs.«153172_j18399639896424_2_alg».proof.Proof.LibConcatThree
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Idealize.ShloMosaic Idealize.ShloMosaic.ValueIdx
open Cert.KernelIdeal Cert.KernelIdeal.Gen

variable (h : S50000x128.Idx → EReal) (ei : S2x1600000.Idx → BitVec 32) (we : S256x1.Idx → EReal) (be : S1.Idx → EReal)
  (wn : S128x1.Idx → EReal) (bn : S1.Idx → EReal)

/-! ## The weight matrix's columns -/

theorem w3of_col0 (k : Fin 128) : w3of we wn (ix2 k (0 : Fin 3)) = we (ix2 (⟨k.val, by have := k.isLt; omega⟩ : Fin 256) (0 : Fin 1)) := by
  unfold w3of
  refine (Cert.LibConcatThree.concat3_first 128 1 3 _ _ _ _ k (0 : Fin 3) (0 : Fin 1) rfl).trans ?_
  exact extractStridedSlice_apply ![0, 0] we slices_S256x1_S128x1_0_0 (ix2 k (0 : Fin 1)) (ix2 (⟨k.val, by have := k.isLt; omega⟩ : Fin 256) (0 : Fin 1))
    (fun a => match a with
      | ⟨0, _⟩ => by show k.val = 0 + k.val; omega
      | ⟨1, _⟩ => by show (0 : ℕ) = 0 + 0; rfl)

theorem w3of_col1 (k : Fin 128) : w3of we wn (ix2 k (1 : Fin 3)) = we (ix2 (⟨128 + k.val, by have := k.isLt; omega⟩ : Fin 256) (0 : Fin 1)) := by
  unfold w3of
  refine (Cert.LibConcatThree.concat3_second 128 1 3 _ _ _ _ k (1 : Fin 3) (0 : Fin 1) rfl).trans ?_
  exact extractStridedSlice_apply ![128, 0] we slices_S256x1_S128x1_128_0 (ix2 k (0 : Fin 1)) (ix2 (⟨128 + k.val, by have := k.isLt; omega⟩ : Fin 256) (0 : Fin 1))
    (fun a => match a with
      | ⟨0, _⟩ => by show 128 + k.val = 128 + k.val; rfl
      | ⟨1, _⟩ => by show (0 : ℕ) = 0 + 0; rfl)

theorem w3of_col2 (k : Fin 128) : w3of we wn (ix2 k (2 : Fin 3)) = wn (ix2 k (0 : Fin 1)) := by
  unfold w3of
  exact Cert.LibConcatThree.concat3_third 128 1 3 _ _ _ _ k (2 : Fin 3) (0 : Fin 1) rfl

/-! ## The projected table's columns are the three scores -/

theorem col0_apply (v7 : S50000x3.Idx → EReal) (v : Fin 50000) : col0 v7 (ix1 v) = v7 (ix2 v (0 : Fin 3)) := by
  unfold col0
  refine (shapeCast_apply _ shapeCasts_S50000x1_S50000 (ix1 v) (ix2 v (0 : Fin 1)) ?_).trans ?_
  · rw [Shape.rowMajor_val_two, Shape.rowMajor_val_one]; show v.val * 1 + 0 = v.val; omega
  · exact extractStridedSlice_apply ![0, 0] v7 slices_S50000x3_S50000x1_0_0 (ix2 v (0 : Fin 1)) (ix2 v (0 : Fin 3))
      (fun a => match a with
        | ⟨0, _⟩ => by show v.val = 0 + v.val; omega
        | ⟨1, _⟩ => by show (0 : ℕ) = 0 + 0; rfl)

theorem col1_apply (v7 : S50000x3.Idx → EReal) (v : Fin 50000) : col1 v7 (ix1 v) = v7 (ix2 v (1 : Fin 3)) := by
  unfold col1
  refine (shapeCast_apply _ shapeCasts_S50000x1_S50000 (ix1 v) (ix2 v (0 : Fin 1)) ?_).trans ?_
  · rw [Shape.rowMajor_val_two, Shape.rowMajor_val_one]; show v.val * 1 + 0 = v.val; omega
  · exact extractStridedSlice_apply ![0, 1] v7 slices_S50000x3_S50000x1_0_1 (ix2 v (0 : Fin 1)) (ix2 v (1 : Fin 3))
      (fun a => match a with
        | ⟨0, _⟩ => by show v.val = 0 + v.val; omega
        | ⟨1, _⟩ => by show (1 : ℕ) = 1 + 0; rfl)

theorem col2_apply (v7 : S50000x3.Idx → EReal) (v : Fin 50000) : col2 v7 (ix1 v) = v7 (ix2 v (2 : Fin 3)) := by
  unfold col2
  refine (shapeCast_apply _ shapeCasts_S50000x1_S50000 (ix1 v) (ix2 v (0 : Fin 1)) ?_).trans ?_
  · rw [Shape.rowMajor_val_two, Shape.rowMajor_val_one]; show v.val * 1 + 0 = v.val; omega
  · exact extractStridedSlice_apply ![0, 2] v7 slices_S50000x3_S50000x1_0_2 (ix2 v (0 : Fin 1)) (ix2 v (2 : Fin 3))
      (fun a => match a with
        | ⟨0, _⟩ => by show v.val = 0 + v.val; omega
        | ⟨1, _⟩ => by show (2 : ℕ) = 2 + 0; rfl)

theorem G7_apply (w3 : S128x3.Idx → EReal) (v : Fin 50000) (j : Fin 3) :
    G7 h w3 (ix2 v j) = ∑ k : Fin 128, h (ix2 v k) * w3 (ix2 k j) := rfl

theorem score_src (v : Fin 50000) : col0 (G7 h (w3of we wn)) (ix1 v) = Cert.Spec.sSrc h we v := by
  rw [col0_apply, G7_apply]
  unfold Cert.Spec.sSrc
  exact Finset.sum_congr rfl fun k _ => by rw [w3of_col0]
theorem score_dst (v : Fin 50000) : col1 (G7 h (w3of we wn)) (ix1 v) = Cert.Spec.sDst h we v := by
  rw [col1_apply, G7_apply]
  unfold Cert.Spec.sDst
  exact Finset.sum_congr rfl fun k _ => by rw [w3of_col1]
theorem score_self (v : Fin 50000) : col2 (G7 h (w3of we wn)) (ix1 v) = Cert.Spec.sSelf h wn v := by
  rw [col2_apply, G7_apply]
  unfold Cert.Spec.sSelf
  exact Finset.sum_congr rfl fun k _ => by rw [w3of_col2]

/-! ## The edge list's rows and the index columns -/

theorem edgeRow0_apply (e : Fin 1600000) : edgeRow0 ei (ix1 e) = Cert.Spec.src ei e := by
  unfold edgeRow0 Cert.Spec.src
  refine (shapeCast_apply _ shapeCasts_S1x1600000_S1600000 (ix1 e) (ix2 (0 : Fin 1) e) ?_).trans ?_
  · rw [Shape.rowMajor_val_two, Shape.rowMajor_val_one]; show 0 * 1600000 + e.val = e.val; omega
  · exact extractStridedSlice_apply ![0, 0] ei slices_S2x1600000_S1x1600000_0_0 (ix2 (0 : Fin 1) e) (ix2 (0 : Fin 2) e)
      (fun a => match a with
        | ⟨0, _⟩ => by show (0 : ℕ) = 0 + 0; rfl
        | ⟨1, _⟩ => by show e.val = 0 + e.val; omega)

theorem edgeRow1_apply (e : Fin 1600000) : edgeRow1 ei (ix1 e) = Cert.Spec.dst ei e := by
  unfold edgeRow1 Cert.Spec.dst
  refine (shapeCast_apply _ shapeCasts_S1x1600000_S1600000 (ix1 e) (ix2 (0 : Fin 1) e) ?_).trans ?_
  · rw [Shape.rowMajor_val_two, Shape.rowMajor_val_one]; show 0 * 1600000 + e.val = e.val; omega
  · exact extractStridedSlice_apply ![1, 0] ei slices_S2x1600000_S1x1600000_1_0 (ix2 (0 : Fin 1) e) (ix2 (1 : Fin 2) e)
      (fun a => match a with
        | ⟨0, _⟩ => by show (1 : ℕ) = 1 + 0; rfl
        | ⟨1, _⟩ => by show e.val = 0 + e.val; omega)

theorem col_of_vec (x : S1600000.Idx → BitVec 32) (e : Fin 1600000) :
    broadcastInDim S1600000x1 ![0] bcast_S1600000_S1600000x1_0 x (ix2 e (0 : Fin 1)) = x (ix1 e) :=
  broadcastInDim_apply ![0] bcast_S1600000_S1600000x1_0 x (ix2 e (0 : Fin 1)) (ix1 e) (fun a => match a with
    | ⟨0, _⟩ => by show e.val = if (1600000 : ℕ) = 1 then 0 else e.val; rw [if_neg (by decide)])

theorem dstCol_apply (e : Fin 1600000) : dstCol (edgeRow1 ei) (ix2 e (0 : Fin 1)) = Cert.Spec.dst ei e := by
  unfold dstCol
  rw [col_of_vec, edgeRow1_apply]

theorem srcCol_apply (e : Fin 1600000) : srcCol (edgeRow0 ei) (ix2 e (0 : Fin 1)) = Cert.Spec.wrap (Cert.Spec.src ei e) := by
  unfold srcCol
  rw [col_of_vec]
  show Scalar.select (IntOp.cmpi CmpIPredicate.slt (edgeRow0 ei (ix1 e)) 0#32) (IntOp.addi (edgeRow0 ei (ix1 e)) 50000#32) (edgeRow0 ei (ix1 e)) = _
  rw [edgeRow0_apply]
  rfl

/-! ## Broadcast scalars -/

theorem zeros_apply (v : Fin 50000) :
    broadcastInDim S50000 ![] bcast_S_S50000 (constant (F := Ideal) S_ FTy.f32 0x00000000#32) (ix1 v) = (0 : EReal) := by
  refine (broadcastInDim_apply ![] bcast_S_S50000 _ (ix1 v) ix0 (fun a => a.elim0)).trans ?_
  exact Ideal.ofBits_zero_f32

theorem one_word : Ideal.ofBits .f32 0x3F800000#32 = (1 : EReal) := by
  simp [Ideal.ofBits, Ideal.ieee]
  norm_cast
  norm_num

theorem ones_apply (e : Fin 1600000) :
    broadcastInDim S1600000 ![] bcast_S_S1600000 (constant (F := Ideal) S_ FTy.f32 0x3F800000#32) (ix1 e) = (1 : EReal) := by
  refine (broadcastInDim_apply ![] bcast_S_S1600000 _ (ix1 e) ix0 (fun a => a.elim0)).trans ?_
  exact one_word

theorem bias_apply (a3 : S1.Idx → EReal) (v : Fin 50000) :
    broadcastInDim S50000 ![] bcast_S_S50000 (shapeCast S_ a3 shapeCasts_S1_S_) (ix1 v) = a3 (ix1 (0 : Fin 1)) := by
  refine (broadcastInDim_apply ![] bcast_S_S50000 _ (ix1 v) ix0 (fun a => a.elim0)).trans ?_
  exact shapeCast_apply a3 shapeCasts_S1_S_ ix0 (ix1 (0 : Fin 1)) (by
    have h1 : (S1.rowMajor (ix1 (0 : Fin 1))).val < 1 := (S1.rowMajor (ix1 (0 : Fin 1))).isLt
    have h2 : (S_.rowMajor ix0).val < 1 := (S_.rowMajor ix0).isLt
    omega)

/-! ## The two accumulations into the nodes -/

theorem scatter_eq : scatter_S50000_S1600000x1_S1600000_n_0_0_1
    = Cert.LibEdgeVec.vecScatterDims 50000 1600000 scatter_S50000_S1600000x1_S1600000_n_0_0_1_wf := rfl
theorem gather_eq : gather_S50000_S1600000x1_S1600000_n_0_n_n_0_1_1
    = Cert.LibEdgeVec.vecGatherDims 50000 1600000 gather_S50000_S1600000x1_S1600000_n_0_n_n_0_1_1_wf := rfl

/-- At the exact values the host's accumulating scatter is the exact one. -/
theorem scatterAdd_exact {s si u : Shape} {w : Nat} (d : ScatterDims s si u) (x : FVec Ideal s .f32) (idx : IVec si w)
    (upd : FVec Ideal u .f32) : Host.scatterAdd d x idx upd = Ideal.hostScatterAdd d x idx upd := rfl

theorem gathered_apply (e : Fin 1600000) :
    Host.gather gather_S50000_S1600000x1_S1600000_n_0_n_n_0_1_1 (col0 (G7 h (w3of we wn))) (srcCol (edgeRow0 ei)) (ix1 e)
      = Cert.Spec.sSrc h we (Cert.Spec.clampRow (Cert.Spec.wrap (Cert.Spec.src ei e))) := by
  rw [gather_eq]
  refine (Cert.LibEdgeVec.gather_vec_apply (by decide : 0 < 50000) _ _ _ e).trans ?_
  refine (congrArg (fun r : Fin 50000 => col0 (G7 h (w3of we wn)) (ix1 r))
    (Fin.ext ?_ : _ = Cert.Spec.clampRow (Cert.Spec.wrap (Cert.Spec.src ei e)))).trans (score_src h we wn _)
  show min (srcCol (edgeRow0 ei) (ix2 e (0 : Fin 1))).toInt.toNat (50000 - 1) = min (Cert.Spec.wrap (Cert.Spec.src ei e)).toInt.toNat 49999
  rw [srcCol_apply]

theorem scatter_apply (upd : S1600000.Idx → EReal) (v : Fin 50000) :
    (Host.scatterAdd (F := Ideal) (φ := FTy.f32) scatter_S50000_S1600000x1_S1600000_n_0_0_1
        (broadcastInDim S50000 ![] bcast_S_S50000 (constant (F := Ideal) S_ FTy.f32 0x00000000#32)) (dstCol (edgeRow1 ei)) upd (ix1 v) : EReal)
      = ((0 : EReal) + ∑ e : Fin 1600000, if (Cert.Spec.dst ei e).toInt = (v.val : Int) then upd (ix1 e) else (0 : EReal)) := by
  rw [scatterAdd_exact, scatter_eq, Cert.LibEdgeVec.scatterAdd_vec_apply, zeros_apply]
  refine congrArg (fun z : EReal => (0 : EReal) + z) (Finset.sum_congr rfl fun e _ => ?_)
  rw [dstCol_apply]

/-- THE COMBINED SCORE the kernel program computes at node v is the closed form. -/
theorem mid_apply (v : Fin 50000) :
    mid (G7 h (w3of we wn)) (edgeRow0 ei) (edgeRow1 ei) be bn (ix1 v) = Cert.Spec.combinedK h ei we be wn bn v := by
  unfold mid Cert.Spec.combinedK
  rw [addf_apply, addf_apply, mulf_apply, addf_apply, addf_apply, scatter_apply, scatter_apply, bias_apply, bias_apply,
    score_dst, score_self]
  simp only [gathered_apply]
  have hones : (∑ e : Fin 1600000, if (Cert.Spec.dst ei e).toInt = (v.val : Int)
        then broadcastInDim S1600000 ![] bcast_S_S1600000 (constant (F := Ideal) S_ FTy.f32 0x3F800000#32) (ix1 e) else (0 : EReal))
      = ∑ e : Fin 1600000, if (Cert.Spec.dst ei e).toInt = (v.val : Int) then (1 : EReal) else 0 :=
    Finset.sum_congr rfl fun e _ => by rw [ones_apply]
  rw [hones]

end Cert.KernelIdeal.Hand

end
-- ==== Proof.LibSoftmaxPad.lean ====
/-
Three general facts about extended reals, used for a softmax-style reduction over a padded tile.

(1) If every `a e`, `d`, `b` is a real number and `dd e = d` wherever `P e` holds, then the sum over
    the `e` satisfying `P` of `a e + d + b` equals the sum of the `a e` plus the number of such `e`
    (written as a sum of ones) times `d + b`.  Over the reals this is distributivity; the extended-real
    statement follows by writing every quantity as the image of a real number.

(2) A tile of `R` rows and `C` columns holds the `n ≤ R * C` entries of `x` in row-major order and the
    bottom element in the remaining places.  Its largest entry (rows first, then the row maxima) is the
    largest entry of `x`: every entry of the tile is an entry of `x` or bottom, and entry `i` of `x`
    sits at row `i / C`, column `i % C`.

(3) For the same tile and any `g` with `g ⊥ = 0`, summing `g` over the tile equals summing `g` over `x`:
    the padded places contribute zero and the others are in bijection with the indices below `n` through
    `(r, l) ↦ r * C + l`.
-/
import Mathlib.Data.EReal.Inv
import Mathlib.Data.Finset.Fold
import Mathlib.Algebra.BigOperators.Group.Finset.Basic
import Mathlib.Algebra.BigOperators.Fin
import Mathlib.Algebra.BigOperators.Intervals
import Mathlib.Data.Fintype.BigOperators
import Mathlib.Tactic

namespace Cert.LibSoftmaxPad

open scoped BigOperators

/-- The image of a finite real sum in the extended reals is the sum of the images. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- (1) edges regrouped -/
theorem edge_regroup {ι : Type*} [Fintype ι] (P : ι → Prop) [DecidablePred P] (a dd : ι → EReal) (d b : EReal)
    (ha : ∀ e, ∃ r : ℝ, a e = (r : EReal)) (hd : ∃ r : ℝ, d = (r : EReal)) (hb : ∃ r : ℝ, b = (r : EReal))
    (hdd : ∀ e, P e → dd e = d) :
    (0 : EReal) + ∑ e, (if P e then ((a e + dd e) + b) else 0)
      = ((0 : EReal) + ∑ e, (if P e then a e else 0)) + ((0 : EReal) + ∑ e, (if P e then (1 : EReal) else 0)) * (d + b) := by
  choose ra hra using ha
  obtain ⟨rd, rfl⟩ := hd
  obtain ⟨rb, rfl⟩ := hb
  -- every summand is the image of a real number
  have h1 : ∀ e, (if P e then ((a e + dd e) + (rb : EReal)) else 0)
      = (((if P e then ra e + rd + rb else 0 : ℝ)) : EReal) := by
    intro e
    by_cases h : P e
    · simp only [if_pos h, hdd e h, hra e, EReal.coe_add]
    · simp only [if_neg h, EReal.coe_zero]
  have h2 : ∀ e, (if P e then a e else 0) = (((if P e then ra e else 0 : ℝ)) : EReal) := by
    intro e
    by_cases h : P e
    · simp only [if_pos h, hra e]
    · simp only [if_neg h, EReal.coe_zero]
  have h3 : ∀ e, (if P e then (1 : EReal) else 0) = (((if P e then 1 else 0 : ℝ)) : EReal) := by
    intro e
    by_cases h : P e
    · simp only [if_pos h, EReal.coe_one]
    · simp only [if_neg h, EReal.coe_zero]
  -- the identity over the reals: distributivity
  have key : (0 : ℝ) + ∑ e, (if P e then ra e + rd + rb else 0)
      = ((0 : ℝ) + ∑ e, (if P e then ra e else 0)) + ((0 : ℝ) + ∑ e, (if P e then (1 : ℝ) else 0)) * (rd + rb) := by
    simp only [zero_add]
    rw [Finset.sum_mul, ← Finset.sum_add_distrib]
    refine Finset.sum_congr rfl ?_
    intro e _
    by_cases h : P e
    · simp only [if_pos h]; ring
    · simp only [if_neg h]; ring
  have key' := congrArg (fun r : ℝ => (r : EReal)) key
  simp only [EReal.coe_add, EReal.coe_mul, EReal.coe_zero, coe_sum] at key'
  rw [Finset.sum_congr rfl (fun e _ => h1 e), Finset.sum_congr rfl (fun e _ => h2 e),
    Finset.sum_congr rfl (fun e _ => h3 e)]
  exact key'

/-- (2) the largest entry of a padded tile -/
theorem fold_max_padded {n R C : ℕ} (hle : n ≤ R * C) (x : Fin n → EReal) (xp : Fin R → Fin C → EReal)
    (hxp : ∀ r l, xp r l = if h : r.val * C + l.val < n then x ⟨r.val * C + l.val, h⟩ else ⊥) :
    (Finset.univ : Finset (Fin R)).fold max ⊥ (fun r => (Finset.univ : Finset (Fin C)).fold max ⊥ (fun l => xp r l))
      = (Finset.univ : Finset (Fin n)).fold max ⊥ x := by
  apply le_antisymm
  · -- every entry of the tile is an entry of `x` or bottom
    rw [Finset.fold_max_le]
    refine ⟨bot_le, fun r _ => ?_⟩
    rw [Finset.fold_max_le]
    refine ⟨bot_le, fun l _ => ?_⟩
    rw [hxp r l]
    by_cases h : r.val * C + l.val < n
    · rw [dif_pos h, Finset.le_fold_max]
      exact Or.inr ⟨⟨r.val * C + l.val, h⟩, Finset.mem_univ _, le_rfl⟩
    · rw [dif_neg h]
      exact bot_le
  · -- entry `i` of `x` sits at row `i / C`, column `i % C`
    rw [Finset.fold_max_le]
    refine ⟨bot_le, fun i _ => ?_⟩
    have hi : i.val < R * C := lt_of_lt_of_le i.isLt hle
    have hC : 0 < C := by
      rcases Nat.eq_zero_or_pos C with h0 | h0
      · rw [h0, Nat.mul_zero] at hi
        exact absurd hi (Nat.not_lt_zero _)
      · exact h0
    have hr : i.val / C < R := (Nat.div_lt_iff_lt_mul hC).mpr hi
    have hl : i.val % C < C := Nat.mod_lt _ hC
    have hsum : i.val / C * C + i.val % C = i.val := Nat.div_add_mod' _ _
    rw [Finset.le_fold_max]
    refine Or.inr ⟨⟨i.val / C, hr⟩, Finset.mem_univ _, ?_⟩
    rw [Finset.le_fold_max]
    refine Or.inr ⟨⟨i.val % C, hl⟩, Finset.mem_univ _, ?_⟩
    rw [hxp]
    have hlt : (⟨i.val / C, hr⟩ : Fin R).val * C + (⟨i.val % C, hl⟩ : Fin C).val < n := by
      show i.val / C * C + i.val % C < n
      rw [hsum]; exact i.isLt
    rw [dif_pos hlt]
    have : (⟨(⟨i.val / C, hr⟩ : Fin R).val * C + (⟨i.val % C, hl⟩ : Fin C).val, hlt⟩ : Fin n) = i :=
      Fin.ext hsum
    rw [this]

/-- (3) a sum over a padded tile -/
theorem sum_padded {n R C : ℕ} (hle : n ≤ R * C) (x : Fin n → EReal) (xp : Fin R → Fin C → EReal)
    (hxp : ∀ r l, xp r l = if h : r.val * C + l.val < n then x ⟨r.val * C + l.val, h⟩ else ⊥)
    (g : EReal → EReal) (hg : g ⊥ = 0) :
    ∑ r : Fin R, ∑ l : Fin C, g (xp r l) = ∑ i : Fin n, g (x i) := by
  -- the summand as a function of the flat position, zero at and after `n`
  let F : ℕ → EReal := fun k => if h : k < n then g (x ⟨k, h⟩) else 0
  have hF : ∀ r : Fin R, ∀ l : Fin C, g (xp r l) = F (r.val * C + l.val) := by
    intro r l
    rw [hxp r l]
    by_cases h : r.val * C + l.val < n
    · simp only [F, dif_pos h]
    · simp only [F, dif_neg h, hg]
  have hFx : ∀ i : Fin n, g (x i) = F i.val := by
    intro i
    simp only [F, dif_pos i.isLt]
  -- the tile is in bijection with the positions below `R * C`
  have hflat : ∑ r : Fin R, ∑ l : Fin C, F (r.val * C + l.val) = ∑ k ∈ Finset.range (R * C), F k := by
    rw [← Fin.sum_univ_eq_sum_range, ← Fintype.sum_prod_type']
    refine Fintype.sum_equiv finProdFinEquiv _ _ ?_
    intro p
    simp only [finProdFinEquiv_apply_val]
    congr 1
    rw [Nat.mul_comm, Nat.add_comm]
  -- positions at and after `n` contribute zero
  have hcut : ∑ k ∈ Finset.range n, F k = ∑ k ∈ Finset.range (R * C), F k := by
    refine Finset.sum_subset ?_ ?_
    · intro k hk
      rw [Finset.mem_range] at hk ⊢
      exact lt_of_lt_of_le hk hle
    · intro k _ hk
      rw [Finset.mem_range] at hk
      simp only [F, dif_neg hk]
  rw [Finset.sum_congr rfl (fun r _ => Finset.sum_congr rfl (fun l _ => hF r l)), hflat, ← hcut,
    Finset.sum_congr rfl (fun i _ => hFx i), Fin.sum_univ_eq_sum_range]

end Cert.LibSoftmaxPad
-- ==== Proof.LibKeepdims.lean ====
/-
  Layout steps and single-axis reductions of small-rank arrays read at an index given by coordinates — a general
  module: every lemma is general in the extents, and the layout lemmas in the element type.
  Layout:
  • `shapeCast_a_a1_apply`: a vector recast as a column, `[a] → [a, 1]`, at `(i, u)` is the vector at `i`;
  • `broadcastTo_a1_ab_apply`: a column broadcast across the lanes, `[a, 1] → [a, b]`, at `(i, j)` is the column at `(i, 0)`;
  • `broadcastTo_11_ab_apply`: a one-entry matrix broadcast to `[a, b]` reads its one entry everywhere;
  • `shapeCast_ab_a1b_apply`: a matrix given a middle unit axis, `[a, b] → [a, 1, b]`, at `(i, u, k)` is the matrix at `(i, k)`;
  • `broadcastTo_a1c_abc_apply`: `[a, 1, c] → [a, b, c]` at `(i, j, k)` is the operand at `(i, 0, k)`.
  Reductions over one axis, at the exact values: the source index over a result index with coordinate `k` on the reduced
  axis (`lift_last_ab`, `lift_last_abc`, `lift_mid_abc`), and with them
  • `multiReduction_add_last_ab`, `multiReduction_add_last_abc`, `multiReduction_add_mid_abc`: an add reduction read as the
    sum over the reduced coordinate;
  • `multiReduction_max_last_abc`: a maximum reduction along the last axis read as the fold of `max` from the accumulator.
-/
import Idealize.ShloMosaic.Lib.Pipeline.Value
import Idealize.ShloMosaic.Lib.ValueIdx
import Idealize.ShloMosaic.Lib.ValueLayout
import Idealize.ShloMosaic.PureOps.Reduce
import Idealize.ShloMosaic.PureOps.Ideal.Laws

namespace Cert.LibKeepdims

open Idealize.ShloMosaic Idealize.ShloMosaic.ValueIdx

section Layout
variable {α : Type}

/-- A vector recast as a column reads, at `(i, u)`, its entry `i`: the unit axis contributes nothing to the row-major position. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column broadcast across the lanes reads, at `(i, j)`, the column's entry `(i, 0)`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ =>
    show (0 : ℕ) = if (1 : ℕ) = 1 then 0 else j.val
    rw [if_pos rfl]

/-- A one-entry matrix broadcast to `[a, b]` reads its one entry at every index. -/
theorem broadcastTo_11_ab_apply {a b : ℕ} (v : (⟨2, ![1, 1]⟩ : Shape).Idx → α) (h : (⟨2, ![1, 1]⟩ : Shape).Broadcasts ⟨2, ![a, b]⟩)
    (i : Fin a) (j : Fin b) : broadcastTo ⟨2, ![a, b]⟩ v h (ix2 i j) = v (ix2 (0 : Fin 1) (0 : Fin 1)) := by
  refine broadcastTo_apply v h (ix2 i j) (ix2 (0 : Fin 1) (0 : Fin 1)) fun ax => ?_
  match ax with
  | ⟨0, _⟩ =>
    show (0 : ℕ) = if (1 : ℕ) = 1 then 0 else i.val
    rw [if_pos rfl]
  | ⟨1, _⟩ =>
    show (0 : ℕ) = if (1 : ℕ) = 1 then 0 else j.val
    rw [if_pos rfl]

/-- A matrix given a middle unit axis reads, at `(i, u, k)`, the matrix at `(i, k)`. -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (k : Fin b) :
    shapeCast ⟨3, ![a, 1, b]⟩ x h (ix3 i u k) = x (ix2 i k) :=
  shapeCast_apply x h _ _ (by
    have hu : u.val = 0 := by omega
    rw [Shape.rowMajor_val_three, Shape.rowMajor_val_two]
    show i.val * b + k.val = (i.val * 1 + u.val) * b + k.val
    rw [hu, Nat.mul_one, Nat.add_zero])

/-- An `[a, 1, c]` array broadcast to `[a, b, c]` reads, at `(i, j, k)`, the operand at `(i, 0, k)`. -/
theorem broadcastTo_a1c_abc_apply {a b c : ℕ} (v : (⟨3, ![a, 1, c]⟩ : Shape).Idx → α)
    (h : (⟨3, ![a, 1, c]⟩ : Shape).Broadcasts ⟨3, ![a, b, c]⟩) (i : Fin a) (j : Fin b) (k : Fin c) :
    broadcastTo ⟨3, ![a, b, c]⟩ v h (ix3 i j k) = v (ix3 i (0 : Fin 1) k) := by
  refine broadcastTo_apply v h (ix3 i j k) (ix3 i (0 : Fin 1) k) fun ax => ?_
  match ax with
  | ⟨0, _⟩ =>
    show i.val = if a = 1 then 0 else i.val
    split
    · have := i.isLt; omega
    · rfl
  | ⟨1, _⟩ =>
    show (0 : ℕ) = if (1 : ℕ) = 1 then 0 else j.val
    rw [if_pos rfl]
  | ⟨2, _⟩ =>
    show k.val = if c = 1 then 0 else k.val
    split
    · have := k.isLt; omega
    · rfl

end Layout

section Lift

/-- Reducing `[a, b]` over its last axis: over the result index `i`, coordinate `k` on the reduced axis is `(i, k)`. -/
theorem lift_last_ab {a b : ℕ} (h : (⟨2, ![a, b]⟩ : Shape).Reduces [1] ⟨1, ![a]⟩) (i : Fin a) (k : Fin b) :
    h.lift (ix1 i) k = ix2 i k := by
  funext ax
  apply Fin.ext
  match ax with
  | ⟨0, _⟩ => rfl
  | ⟨1, _⟩ => rfl

/-- Reducing `[a, b, c]` over its last axis: over `(i, j)`, coordinate `k` on the reduced axis is `(i, j, k)`. -/
theorem lift_last_abc {a b c : ℕ} (h : (⟨3, ![a, b, c]⟩ : Shape).Reduces [2] ⟨2, ![a, b]⟩) (i : Fin a) (j : Fin b) (k : Fin c) :
    h.lift (ix2 i j) k = ix3 i j k := by
  funext ax
  apply Fin.ext
  match ax with
  | ⟨0, _⟩ => rfl
  | ⟨1, _⟩ => rfl
  | ⟨2, _⟩ => rfl

/-- Reducing `[a, b, c]` over its middle axis: over `(i, k)`, coordinate `j` on the reduced axis is `(i, j, k)`. -/
theorem lift_mid_abc {a b c : ℕ} (h : (⟨3, ![a, b, c]⟩ : Shape).Reduces [1] ⟨2, ![a, c]⟩) (i : Fin a) (k : Fin c) (j : Fin b) :
    h.lift (ix2 i k) j = ix3 i j k := by
  funext ax
  apply Fin.ext
  match ax with
  | ⟨0, _⟩ => rfl
  | ⟨1, _⟩ => rfl
  | ⟨2, _⟩ => rfl

end Lift

section Reductions
variable {φ : FTy}

/-- An add reduction of `[a, b]` along its last axis, at the exact values, read at `i`: the row's sum. -/
theorem multiReduction_add_last_ab {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (i : Fin a) :
    multiReduction .add [1] ⟨1, ![a]⟩ src acc h hφ hacc (ix1 i) = ∑ k : Fin b, src (ix2 i k) :=
  (Ideal.multiReduction_add_single src acc h hφ hacc (ix1 i)).trans
    (Finset.sum_congr rfl fun k _ => congrArg src (lift_last_ab h i k))

/-- An add reduction of `[a, b, c]` along its last axis, at the exact values, read at `(i, j)`. -/
theorem multiReduction_add_last_abc {a b c : ℕ} (src : FVec Ideal ⟨3, ![a, b, c]⟩ φ) (acc : BitVec φ.bits)
    (h : (⟨3, ![a, b, c]⟩ : Shape).Reduces [2] ⟨2, ![a, b]⟩) (hφ : FKind.Formats φ) (hacc : acc = FKind.add.neutral φ hφ)
    (i : Fin a) (j : Fin b) :
    multiReduction .add [2] ⟨2, ![a, b]⟩ src acc h hφ hacc (ix2 i j) = ∑ k : Fin c, src (ix3 i j k) :=
  (Ideal.multiReduction_add_single src acc h hφ hacc (ix2 i j)).trans
    (Finset.sum_congr rfl fun k _ => congrArg src (lift_last_abc h i j k))

/-- An add reduction of `[a, b, c]` along its middle axis, at the exact values, read at `(i, k)`. -/
theorem multiReduction_add_mid_abc {a b c : ℕ} (src : FVec Ideal ⟨3, ![a, b, c]⟩ φ) (acc : BitVec φ.bits)
    (h : (⟨3, ![a, b, c]⟩ : Shape).Reduces [1] ⟨2, ![a, c]⟩) (hφ : FKind.Formats φ) (hacc : acc = FKind.add.neutral φ hφ)
    (i : Fin a) (k : Fin c) :
    multiReduction .add [1] ⟨2, ![a, c]⟩ src acc h hφ hacc (ix2 i k) = ∑ j : Fin b, src (ix3 i j k) :=
  (Ideal.multiReduction_add_single src acc h hφ hacc (ix2 i k)).trans
    (Finset.sum_congr rfl fun j _ => congrArg src (lift_mid_abc h i k j))

/-- A maximum reduction of `[a, b, c]` along its last axis, at the exact values, read at `(i, j)`: the fold of `max` from
    the accumulator's value over the row. -/
theorem multiReduction_max_last_abc {a b c : ℕ} (src : FVec Ideal ⟨3, ![a, b, c]⟩ φ) (acc : BitVec φ.bits)
    (h : (⟨3, ![a, b, c]⟩ : Shape).Reduces [2] ⟨2, ![a, b]⟩) (hφ : FKind.Formats φ) (hacc : acc = FKind.maximumf.neutral φ hφ)
    (i : Fin a) (j : Fin b) :
    multiReduction .maximumf [2] ⟨2, ![a, b]⟩ src acc h hφ hacc (ix2 i j)
      = (Finset.univ : Finset (Fin c)).fold max (Ideal.ofBits φ acc) (fun k => src (ix3 i j k)) :=
  (Ideal.multiReduction_maximumf_single src acc h hφ hacc (ix2 i j)).trans
    (congrArg (fun f => (Finset.univ : Finset (Fin c)).fold max (Ideal.ofBits φ acc) f)
      (funext fun k => congrArg src (lift_last_abc h i j k)))

end Reductions

end Cert.LibKeepdims
-- ==== Proof.LibTileSum.lean ====
/-
  The total of an `[a, b]` tile taken in two keepdims steps, read at the exact values — a general module: every lemma
  is general in the extents, and the layout lemmas in the element type.
  • `shapeCast_ab1_ab_apply`: an `[a, b, 1]` array recast to `[a, b]`, at `(i, j)`, is the array at `(i, j, 0)`;
  • `lift_first_a1`, `multiReduction_add_first_a1`: an add reduction of a column `[a, 1]` along its first axis is the
    sum of the column's entries;
  • `col_total`: a vector `[a]` recast as a column, the column summed, the result recast to `[1, 1]`: its one entry is
    the sum of the vector's entries;
  • `tile_total`: the lanes summed row by row (`[a, b] → [a]`), the row sums recast as a column (`[a] → [a, 1]`),
    the column summed (`[a, 1] → [1]`) and the result recast to `[1, 1]`: its one entry is `∑ i, ∑ j` of the tile.
-/
import proofs.«153172_j18399639896424_2_alg».proof.Proof.LibKeepdims

namespace Cert.LibTileSum

open Idealize.ShloMosaic Idealize.ShloMosaic.ValueIdx

section Layout
variable {α : Type}

/-- An `[a, b, 1]` array recast to `[a, b]` reads, at `(i, j)`, the array at `(i, j, 0)`: the unit axis contributes
    nothing to the row-major position. -/
theorem shapeCast_ab1_ab_apply {a b : ℕ} (x : (⟨3, ![a, b, 1]⟩ : Shape).Idx → α)
    (h : (⟨3, ![a, b, 1]⟩ : Shape).ShapeCasts ⟨2, ![a, b]⟩) (i : Fin a) (j : Fin b) :
    shapeCast ⟨2, ![a, b]⟩ x h (ix2 i j) = x (ix3 i j (0 : Fin 1)) :=
  shapeCast_apply x h _ _ (by
    rw [Shape.rowMajor_val_three, Shape.rowMajor_val_two]
    show (i.val * b + j.val) * 1 + 0 = i.val * b + j.val
    rw [Nat.mul_one, Nat.add_zero])

end Layout

section Reductions
variable {φ : FTy}

/-- Reducing a column `[a, 1]` over its first axis: over the one result index, coordinate `k` on the reduced axis is
    `(k, 0)`. -/
theorem lift_first_a1 {a : ℕ} (h : (⟨2, ![a, 1]⟩ : Shape).Reduces [0] ⟨1, ![1]⟩) (u : Fin 1) (k : Fin a) :
    h.lift (ix1 u) k = ix2 k u := by
  funext ax
  apply Fin.ext
  match ax with
  | ⟨0, _⟩ => rfl
  | ⟨1, _⟩ => rfl

/-- An add reduction of a column `[a, 1]` along its first axis, at the exact values: the sum of its entries. -/
theorem multiReduction_add_first_a1 {a : ℕ} (src : FVec Ideal ⟨2, ![a, 1]⟩ φ) (acc : BitVec φ.bits)
    (h : (⟨2, ![a, 1]⟩ : Shape).Reduces [0] ⟨1, ![1]⟩) (hφ : FKind.Formats φ) (hacc : acc = FKind.add.neutral φ hφ) (u : Fin 1) :
    multiReduction .add [0] ⟨1, ![1]⟩ src acc h hφ hacc (ix1 u) = ∑ k : Fin a, src (ix2 k u) :=
  (Ideal.multiReduction_add_single src acc h hφ hacc (ix1 u)).trans
    (Finset.sum_congr rfl fun k _ => congrArg src (lift_first_a1 h u k))

/-- A vector recast as a column, the column summed along its first axis, the result recast to `[1, 1]`: the one entry is
    the sum of the vector's entries. -/
theorem col_total {a : ℕ} (v : FVec Ideal ⟨1, ![a]⟩ φ) (acc : BitVec φ.bits)
    (hc1 : (⟨1, ![a]⟩ : Shape).ShapeCasts ⟨2, ![a, 1]⟩)
    (h2 : (⟨2, ![a, 1]⟩ : Shape).Reduces [0] ⟨1, ![1]⟩) (hc2 : (⟨1, ![1]⟩ : Shape).ShapeCasts ⟨2, ![1, 1]⟩)
    (hφ : FKind.Formats φ) (hacc : acc = FKind.add.neutral φ hφ) (u w : Fin 1) :
    shapeCast ⟨2, ![1, 1]⟩ (multiReduction .add [0] ⟨1, ![1]⟩ (shapeCast ⟨2, ![a, 1]⟩ v hc1) acc h2 hφ hacc) hc2 (ix2 u w)
      = ∑ i : Fin a, v (ix1 i) := by
  rw [Cert.LibKeepdims.shapeCast_a_a1_apply, multiReduction_add_first_a1]
  refine Finset.sum_congr rfl fun i _ => ?_
  rw [Cert.LibKeepdims.shapeCast_a_a1_apply]

/-- The total of a tile in two keepdims steps — each row's lanes summed, the row sums as a column, the column summed,
    the result as a `[1, 1]` array — is, at its one entry, the sum over the rows of the sums over the lanes. -/
theorem tile_total {a b : ℕ} (v : FVec Ideal ⟨2, ![a, b]⟩ φ) (acc1 acc2 : BitVec φ.bits)
    (h1 : (⟨2, ![a, b]⟩ : Shape).Reduces [1] ⟨1, ![a]⟩) (hc1 : (⟨1, ![a]⟩ : Shape).ShapeCasts ⟨2, ![a, 1]⟩)
    (h2 : (⟨2, ![a, 1]⟩ : Shape).Reduces [0] ⟨1, ![1]⟩) (hc2 : (⟨1, ![1]⟩ : Shape).ShapeCasts ⟨2, ![1, 1]⟩)
    (hφ : FKind.Formats φ) (hacc1 : acc1 = FKind.add.neutral φ hφ) (hacc2 : acc2 = FKind.add.neutral φ hφ) (u w : Fin 1) :
    shapeCast ⟨2, ![1, 1]⟩
        (multiReduction .add [0] ⟨1, ![1]⟩
          (shapeCast ⟨2, ![a, 1]⟩ (multiReduction .add [1] ⟨1, ![a]⟩ v acc1 h1 hφ hacc1) hc1) acc2 h2 hφ hacc2) hc2 (ix2 u w)
      = ∑ i : Fin a, ∑ j : Fin b, v (ix2 i j) := by
  rw [Cert.LibKeepdims.shapeCast_a_a1_apply, multiReduction_add_first_a1]
  refine Finset.sum_congr rfl fun i _ => ?_
  rw [Cert.LibKeepdims.shapeCast_a_a1_apply, Cert.LibKeepdims.multiReduction_add_last_ab]

end Reductions

end Cert.LibTileSum
-- ==== Proof.LibAxisReads.lean ====
/-
  Reductions of a matrix along one axis, and a column laid across the lanes, read at an index — general in the
  extents.
  At the exact values a maximum reduction of an [a, b] array along its second axis, started from the pattern of -∞, is at
  row p the fold of `max` from the bottom element over the row's entries (`rowMax_apply`); along its first axis it is
  at column q the fold over the column's entries (`colMax_apply`); an add reduction along the first axis is at column q
  the sum of the column's entries (`colSum_apply`). An [a, 1] column broadcast to [a, b] reads, at (p, c), the
  column's entry p (`broadcastTo_a1_ab_apply`).
-/
import Idealize.ShloMosaic.Lib.ValueIdx
import Idealize.ShloMosaic.Lib.Pipeline.Value
import Idealize.ShloMosaic.PureOps.Ideal.Laws

namespace Cert.LibAxisReads

open Idealize.ShloMosaic Idealize.ShloMosaic.ValueIdx
open scoped BigOperators

/-- The f32 pattern of -∞ is the bottom element of the extended reals. -/
theorem ofBits_negInf_f32 : Ideal.ofBits .f32 0xFF800000#32 = (⊥ : EReal) := by simp [Ideal.ofBits, Ideal.ieee]

/-- An [a, 1] column broadcast to [a, b] reads, at (p, c), the column's entry p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The source index a reduction along the second axis inserts over row p at coordinate n is (p, n). -/
theorem lift_row {a b : ℕ} (h : (⟨2, ![a, b]⟩ : Shape).Reduces [1] ⟨1, ![a]⟩) (p : Fin a) (n : Fin b) :
    h.lift (ix1 p) n = ix2 p n :=
  funext fun c => Fin.ext (by match c with | ⟨0, _⟩ => rfl | ⟨1, _⟩ => rfl)

/-- The source index a reduction along the first axis inserts over column q at coordinate n is (n, q). -/
theorem lift_col {a b : ℕ} (h : (⟨2, ![a, b]⟩ : Shape).Reduces [0] ⟨1, ![b]⟩) (q : Fin b) (n : Fin a) :
    h.lift (ix1 q) n = ix2 n q :=
  funext fun c => Fin.ext (by match c with | ⟨0, _⟩ => rfl | ⟨1, _⟩ => rfl)

/-- A maximum reduction along the second axis from -∞, at row p: the fold of `max` over the row's entries. -/
theorem rowMax_apply {a b : ℕ} (X : FVec Ideal ⟨2, ![a, b]⟩ .f32) (h : (⟨2, ![a, b]⟩ : Shape).Reduces [1] ⟨1, ![a]⟩)
    (hφ : FKind.Formats .f32) (hacc : (0xFF800000#32 : BitVec 32) = FKind.maximumf.neutral .f32 hφ) (p : Fin a) :
    multiReduction .maximumf [1] ⟨1, ![a]⟩ X 0xFF800000#32 h hφ hacc (ix1 p)
      = (Finset.univ : Finset (Fin b)).fold max (⊥ : EReal) (fun n => X (ix2 p n)) := by
  refine (Ideal.multiReduction_maximumf_single X _ h hφ hacc (ix1 p)).trans ?_
  show (Finset.univ : Finset (Fin b)).fold max (Ideal.ofBits .f32 0xFF800000#32) (fun n => X (h.lift (ix1 p) n)) = _
  rw [ofBits_negInf_f32]
  exact congrArg (fun f => Finset.fold max (⊥ : EReal) f (Finset.univ : Finset (Fin b)))
    (funext fun n => congrArg X (lift_row h p n))

/-- A maximum reduction along the first axis from -∞, at column q: the fold of `max` over the column's entries. -/
theorem colMax_apply {a b : ℕ} (X : FVec Ideal ⟨2, ![a, b]⟩ .f32) (h : (⟨2, ![a, b]⟩ : Shape).Reduces [0] ⟨1, ![b]⟩)
    (hφ : FKind.Formats .f32) (hacc : (0xFF800000#32 : BitVec 32) = FKind.maximumf.neutral .f32 hφ) (q : Fin b) :
    multiReduction .maximumf [0] ⟨1, ![b]⟩ X 0xFF800000#32 h hφ hacc (ix1 q)
      = (Finset.univ : Finset (Fin a)).fold max (⊥ : EReal) (fun n => X (ix2 n q)) := by
  refine (Ideal.multiReduction_maximumf_single X _ h hφ hacc (ix1 q)).trans ?_
  show (Finset.univ : Finset (Fin a)).fold max (Ideal.ofBits .f32 0xFF800000#32) (fun n => X (h.lift (ix1 q) n)) = _
  rw [ofBits_negInf_f32]
  exact congrArg (fun f => Finset.fold max (⊥ : EReal) f (Finset.univ : Finset (Fin a)))
    (funext fun n => congrArg X (lift_col h q n))

/-- An add reduction along the first axis, at column q: the sum of the column's entries. -/
theorem colSum_apply {a b : ℕ} (X : FVec Ideal ⟨2, ![a, b]⟩ .f32) (h : (⟨2, ![a, b]⟩ : Shape).Reduces [0] ⟨1, ![b]⟩)
    (hφ : FKind.Formats .f32) (hacc : (0x00000000#32 : BitVec 32) = FKind.add.neutral .f32 hφ) (q : Fin b) :
    multiReduction .add [0] ⟨1, ![b]⟩ X 0x00000000#32 h hφ hacc (ix1 q) = ∑ n : Fin a, X (ix2 n q) := by
  refine (Ideal.multiReduction_add_single X _ h hφ hacc (ix1 q)).trans ?_
  show ∑ n : Fin a, X (h.lift (ix1 q) n) = _
  exact Finset.sum_congr rfl fun n _ => congrArg X (lift_col h q n)

end Cert.LibAxisReads
-- ==== Proof.KISoft.lean ====
/-
  The second kernel's arithmetic on a 391 x 128 tile, and the padded tail of the host program, read entry by entry.

  (1) The payload of the kernel takes the tile's largest entry M in two steps (the largest of each row, then the largest
      of those), subtracts it everywhere, exponentiates, totals the result in two steps (each row's sum, then the sum
      of those) and divides: entry (r, l) is exp (x (r, l) − M) / ∑ over the tile of exp (x (i, j) − M).
  (2) A vector of 50000 scores padded with −∞ to 50048 entries and laid out as 391 rows of 128 holds, at (r, l), score
      number r·128 + l when that is below 50000, and −∞ (the bottom element) otherwise.
  (3) Flattening the normalised tile and keeping its first 50000 entries reads entry i at (i / 128, i % 128). Since
      the padding entries are bottom, they change neither the largest entry nor — exp (⊥ − M) being 0 — the total; so
      the result at i is exp (s i − max s) / ∑ v, exp (s v − max s): the softmax of the score vector.
-/
import proofs.«153172_j18399639896424_2_alg».proof.Proof.KIForms
import proofs.«153172_j18399639896424_2_alg».proof.Proof.Spec
import proofs.«153172_j18399639896424_2_alg».proof.Proof.LibSoftmaxPad
import proofs.«153172_j18399639896424_2_alg».proof.Proof.LibKeepdims
import proofs.«153172_j18399639896424_2_alg».proof.Proof.LibTileSum
import proofs.«153172_j18399639896424_2_alg».proof.Proof.LibAxisReads
import Idealize.ShloMosaic.Lib.Pipeline.Value
import Idealize.ShloMosaic.Lib.ValueIdx
import Idealize.ShloMosaic.Lib.ValueLayout
import Idealize.ShloMosaic.Lib.KernelVsHost
import Idealize.ShloMosaic.PureOps.Ideal.Laws

noncomputable section

namespace Cert.KernelIdeal.Hand

open Idealize.ShloMosaic Idealize.ShloMosaic.ValueIdx
open Cert.KernelIdeal Cert.KernelIdeal.Gen
open scoped BigOperators

/-- The largest entry of a 391 x 128 tile: the largest of the rows' largest entries. -/
def tileMax (x0 : S391x128.Idx → EReal) : EReal :=
  (Finset.univ : Finset (Fin 391)).fold max ⊥ (fun n => (Finset.univ : Finset (Fin 128)).fold max ⊥ (fun k => x0 (ix2 n k)))

/-! ### (1) the payload, step by step -/

/-- The tile's largest entry as the payload takes it: row maxima, recast as a column, the column's maximum, recast as
    a one-entry matrix. -/
def maxAll (v1 : FVec Ideal S391x128 .f32) : FVec Ideal S1x1 .f32 :=
  shapeCast S1x1
    (multiReduction .maximumf [0] S1
      (shapeCast S391x1 (multiReduction .maximumf [1] S391 v1 0xFF800000#32 reduces_S391x128_S391 (.inl rfl) rfl)
        shapeCasts_S391_S391x1)
      0xFF800000#32 reduces_S391x1_S1 (.inl rfl) rfl)
    shapeCasts_S1_S1x1

/-- The tile shifted by its largest entry and exponentiated. -/
def expTile (v1 : FVec Ideal S391x128 .f32) : FVec Ideal S391x128 .f32 :=
  exp (subf v1 (broadcastTo S391x128 (maxAll v1) broadcasts_S1x1_S391x128))

/-- A tile's total as the payload takes it: row sums, recast as a column, the column's sum, recast as a one-entry
    matrix. -/
def sumAll (v8 : FVec Ideal S391x128 .f32) : FVec Ideal S1x1 .f32 :=
  shapeCast S1x1
    (multiReduction .add [0] S1
      (shapeCast S391x1 (multiReduction .add [1] S391 v8 0x00000000#32 reduces_S391x128_S391 (.inl rfl) rfl)
        shapeCasts_S391_S391x1)
      0x00000000#32 reduces_S391x1_S1 (.inl rfl) rfl)
    shapeCasts_S1_S1x1

/-- The payload is these steps, after its identity recast. -/
theorem pay1_eq (x0 : FVec Ideal S391x128 .f32) :
    k1_pay1 (F := Ideal) x0
      = divf (expTile (shapeCast S391x128 x0 shapeCasts_S391x128_S391x128))
          (broadcastTo S391x128 (sumAll (expTile (shapeCast S391x128 x0 shapeCasts_S391x128_S391x128)))
            broadcasts_S1x1_S391x128) := rfl

/-- The one entry of `maxAll` is the tile's largest entry. -/
theorem maxAll_apply (v1 : FVec Ideal S391x128 .f32) (u w : Fin 1) : maxAll v1 (ix2 u w) = tileMax v1 := by
  unfold maxAll tileMax
  refine (Cert.LibKeepdims.shapeCast_a_a1_apply _ _ u w).trans ?_
  refine (Cert.LibAxisReads.colMax_apply _ _ _ _ u).trans ?_
  refine congrArg (fun f => Finset.fold max (⊥ : EReal) f (Finset.univ : Finset (Fin 391))) (funext fun n => ?_)
  refine (Cert.LibKeepdims.shapeCast_a_a1_apply _ _ n u).trans ?_
  exact Cert.LibAxisReads.rowMax_apply _ _ _ _ n

/-- An entry of the shifted, exponentiated tile. -/
theorem expTile_apply (v1 : FVec Ideal S391x128 .f32) (i : Fin 391) (j : Fin 128) :
    expTile v1 (ix2 i j) = Ideal.exp (v1 (ix2 i j) - tileMax v1) := by
  show Ideal.exp (v1 (ix2 i j) - broadcastTo S391x128 (maxAll v1) broadcasts_S1x1_S391x128 (ix2 i j)) = _
  rw [Cert.LibKeepdims.broadcastTo_11_ab_apply, maxAll_apply]

/-- The one entry of `sumAll` is the tile's total. -/
theorem sumAll_apply (v8 : FVec Ideal S391x128 .f32) (u w : Fin 1) :
    sumAll v8 (ix2 u w) = ∑ i : Fin 391, ∑ j : Fin 128, v8 (ix2 i j) :=
  Cert.LibTileSum.tile_total v8 _ _ _ _ _ _ _ _ _ u w

/-- (1) an entry of the payload -/
theorem pay1_apply (x0 : FVec Ideal S391x128 .f32) (r : Fin 391) (l : Fin 128) :
    k1_pay1 (F := Ideal) x0 (ix2 r l)
      = Ideal.div (Ideal.exp (x0 (ix2 r l) - tileMax x0))
          (∑ i : Fin 391, ∑ j : Fin 128, Ideal.exp (x0 (ix2 i j) - tileMax x0)) := by
  rw [pay1_eq, shapeCast_self]
  show Ideal.div (expTile x0 (ix2 r l))
      (broadcastTo S391x128 (sumAll (expTile x0)) broadcasts_S1x1_S391x128 (ix2 r l)) = _
  rw [Cert.LibKeepdims.broadcastTo_11_ab_apply, sumAll_apply, expTile_apply]
  refine congrArg (Ideal.div _) ?_
  exact Finset.sum_congr rfl fun i _ => Finset.sum_congr rfl fun j _ => expTile_apply x0 i j

/-! ### (2) the padded tile -/

/-- (2) an entry of the padded tile -/
theorem padTile_apply (x36 : S50000.Idx → EReal) (r : Fin 391) (l : Fin 128) :
    padTile x36 (ix2 r l)
      = if h : r.val * 128 + l.val < 50000 then x36 (ix1 (⟨r.val * 128 + l.val, h⟩ : Fin 50000)) else ⊥ := by
  have hlt : r.val * 128 + l.val < 50048 := by
    have := r.isLt
    have := l.isLt
    omega
  unfold padTile
  refine (shapeCast_apply _ _ (ix2 r l) (ix1 (⟨r.val * 128 + l.val, hlt⟩ : Fin 50048)) ?_).trans ?_
  · rw [Shape.rowMajor_val_one, Shape.rowMajor_val_two]
    rfl
  · by_cases h : r.val * 128 + l.val < 50000
    · rw [dif_pos h]
      refine pad_apply_of_inside _ _ _ _ _ _ _ _ (ix1 (⟨r.val * 128 + l.val, h⟩ : Fin 50000)) (fun a => ?_)
      match a with
      | ⟨0, _⟩ =>
        show r.val * 128 + l.val = 0 + (r.val * 128 + l.val) * (0 + 1)
        omega
    · rw [dif_neg h]
      refine (pad_apply_of_not_inside _ _ _ _ _ _ _ _ (0 : Fin 1) ?_).trans ?_
      · intro hin
        have h3 : (r.val * 128 + l.val - 0) / (0 + 1) < 50000 := hin.2.2
        omega
      · exact Cert.LibAxisReads.ofBits_negInf_f32

/-! ### (3) the whole tail -/

/-- (3) the tail is the softmax of the score vector -/
theorem outK_apply (x36 : S50000.Idx → EReal) (i : Fin 50000) :
    outK x36 (ix1 i) = Cert.Spec.softmax (fun v => x36 (ix1 v)) i := by
  have hi := i.isLt
  have hr : i.val / 128 < 391 := by omega
  have hl : i.val % 128 < 128 := Nat.mod_lt _ (by norm_num)
  have hi48 : i.val < 50048 := by omega
  -- entry i of the flattened, cut tile is entry (i / 128, i % 128) of the tile
  have hcut : ∀ y : S391x128.Idx → EReal,
      cutTile y (ix1 i) = y (ix2 (⟨i.val / 128, hr⟩ : Fin 391) (⟨i.val % 128, hl⟩ : Fin 128)) := by
    intro y
    unfold cutTile
    refine (extractStridedSlice_apply _ _ _ (ix1 i) (ix1 (⟨i.val, hi48⟩ : Fin 50048)) (fun a => ?_)).trans ?_
    · match a with
      | ⟨0, _⟩ =>
        show i.val = 0 + i.val
        omega
    · refine shapeCast_apply _ _ _ _ ?_
      rw [Shape.rowMajor_val_one, Shape.rowMajor_val_two]
      show i.val / 128 * 128 + i.val % 128 = i.val
      exact Nat.div_add_mod' _ _
  -- the padding changes neither the largest entry nor the total
  have hM : tileMax (padTile x36) = (Finset.univ : Finset (Fin 50000)).fold max ⊥ (fun v => x36 (ix1 v)) :=
    Cert.LibSoftmaxPad.fold_max_padded (n := 50000) (R := 391) (C := 128) (by norm_num) (fun v => x36 (ix1 v))
      (fun r l => padTile x36 (ix2 r l)) (fun r l => padTile_apply x36 r l)
  have hS : ∑ a : Fin 391, ∑ b : Fin 128, Ideal.exp (padTile x36 (ix2 a b) - tileMax (padTile x36))
      = ∑ v : Fin 50000, Ideal.exp (x36 (ix1 v) - tileMax (padTile x36)) :=
    Cert.LibSoftmaxPad.sum_padded (n := 50000) (R := 391) (C := 128) (by norm_num) (fun v => x36 (ix1 v))
      (fun r l => padTile x36 (ix2 r l)) (fun r l => padTile_apply x36 r l)
      (fun y => Ideal.exp (y - tileMax (padTile x36)))
      (by
        show Ideal.exp (⊥ - tileMax (padTile x36)) = 0
        rw [EReal.bot_sub, Ideal.exp_bot])
  -- the tile's entry at (i / 128, i % 128) is score i
  have hx : padTile x36 (ix2 (⟨i.val / 128, hr⟩ : Fin 391) (⟨i.val % 128, hl⟩ : Fin 128)) = x36 (ix1 i) := by
    rw [padTile_apply]
    have hsum : i.val / 128 * 128 + i.val % 128 = i.val := Nat.div_add_mod' _ _
    have hlt : (⟨i.val / 128, hr⟩ : Fin 391).val * 128 + (⟨i.val % 128, hl⟩ : Fin 128).val < 50000 := by
      show i.val / 128 * 128 + i.val % 128 < 50000
      omega
    rw [dif_pos hlt]
    exact congrArg (fun v => x36 (ix1 v)) (Fin.ext hsum)
  unfold outK
  rw [hcut, pay1_apply, hS, hx, hM]
  unfold Cert.Spec.softmax
  rw [zero_add]

end Cert.KernelIdeal.Hand

end
-- ==== Proof.LibRealFold.lean ====
/-
  Extended reals that are real numbers, and folds of `max` over a nonempty finite set — a general module: it depends
  on Mathlib only.
  An extended real "is real" when it is the image of a real number. Products, sums and finite sums of such are such
  (`isReal_mul`, `isReal_add`, `isReal_sum`), and so is the fold of `max` from the bottom element over a nonempty
  finite family of them (`fold_max_isReal`).
  A monotone map commutes with the fold of `max` from the bottom element over a nonempty finite family
  (`fold_max_map`): the largest image is the image of the largest.
-/
import Mathlib.Data.EReal.Inv
import Mathlib.Data.Finset.Fold
import Mathlib.Algebra.BigOperators.Group.Finset.Basic

namespace Cert.RealFold

open scoped BigOperators

/-- The product of two real numbers, read in the extended reals, is a real number. -/
theorem isReal_mul {a b : EReal} (ha : ∃ r : ℝ, a = (r : EReal)) (hb : ∃ r : ℝ, b = (r : EReal)) :
    ∃ r : ℝ, a * b = (r : EReal) := by
  obtain ⟨r, rfl⟩ := ha
  obtain ⟨q, rfl⟩ := hb
  exact ⟨r * q, (EReal.coe_mul r q).symm⟩

/-- The sum of two real numbers, read in the extended reals, is a real number. -/
theorem isReal_add {a b : EReal} (ha : ∃ r : ℝ, a = (r : EReal)) (hb : ∃ r : ℝ, b = (r : EReal)) :
    ∃ r : ℝ, a + b = (r : EReal) := by
  obtain ⟨r, rfl⟩ := ha
  obtain ⟨q, rfl⟩ := hb
  exact ⟨r + q, (EReal.coe_add r q).symm⟩

/-- A finite sum of real numbers, read in the extended reals, is a real number. -/
theorem isReal_sum {ι : Type*} (s : Finset ι) (f : ι → EReal) (hf : ∀ j ∈ s, ∃ r : ℝ, f j = (r : EReal)) :
    ∃ r : ℝ, ∑ j ∈ s, f j = (r : EReal) :=
  Finset.sum_induction f (fun z => ∃ r : ℝ, z = (r : EReal)) (fun _ _ => isReal_add) ⟨0, EReal.coe_zero.symm⟩ hf

/-- A monotone map commutes with the fold of `max` from the bottom element over a nonempty finite family: the
    largest of the images is the image of the largest. (Over the empty family the two sides are `⊥` and the image of
    `⊥`, which need not agree.) -/
theorem fold_max_map {ι : Type*} {g : EReal → EReal} (hg : Monotone g) (f : ι → EReal) {s : Finset ι}
    (hs : s.Nonempty) : s.fold max ⊥ (fun j => g (f j)) = g (s.fold max ⊥ f) := by
  induction hs using Finset.Nonempty.cons_induction with
  | singleton a => rw [Finset.fold_singleton, Finset.fold_singleton, max_bot_right, max_bot_right]
  | cons a s ha hs ih => rw [Finset.fold_cons, Finset.fold_cons, ih, hg.map_max]

/-- The fold of `max` from the bottom element over a nonempty finite family of real numbers is a real number. -/
theorem fold_max_isReal {ι : Type*} (f : ι → EReal) {s : Finset ι} (hs : s.Nonempty)
    (hf : ∀ j ∈ s, ∃ r : ℝ, f j = (r : EReal)) : ∃ r : ℝ, s.fold max ⊥ f = (r : EReal) := by
  induction hs using Finset.Nonempty.cons_induction with
  | singleton a =>
    obtain ⟨r, hr⟩ := hf a (Finset.mem_singleton_self a)
    exact ⟨r, by rw [Finset.fold_singleton, max_bot_right, hr]⟩
  | cons a s ha hs ih =>
    obtain ⟨r, hr⟩ := hf a (Finset.mem_cons_self a s)
    obtain ⟨q, hq⟩ := ih fun j hj => hf j (Finset.mem_cons.mpr (Or.inr hj))
    refine ⟨max r q, ?_⟩
    rw [Finset.fold_cons, hr, hq]
    exact (EReal.coe_strictMono.monotone.map_max).symm

end Cert.RealFold
-- ==== Proof.Bridge.lean ====
/-
  Small facts joining the two closed forms of the combined node score.

  (a) An index whose signed value is a node number `v` (so it lies in [0, 50000)) is not negative, hence is not
      raised, and clamping it into [0, 49999] leaves `v`.
  (b) When the features and the weights are real numbers, each of the three scores of a node is a real number: it is
      a finite sum of products of real numbers.
  (c) With real features, real edge-scorer weights and a real edge bias, the two closed forms of the combined score
      agree. They share the node's own score; for the rest, every edge landing on `v` has destination row `v` by
      (a), so its destination side is `sDst v`, and the sum over those edges of
      (source side + `sDst v` + bias) is the sum of the source sides plus (number of such edges) x (`sDst v` + bias).
  (d) The softmax of two score vectors that agree entry by entry is the same.
-/
import proofs.«153172_j18399639896424_2_alg».proof.Proof.Spec
import proofs.«153172_j18399639896424_2_alg».proof.Proof.LibSoftmaxPad
import proofs.«153172_j18399639896424_2_alg».proof.Proof.LibRealFold

namespace Cert.Bridge

open Idealize.ShloMosaic Idealize.ShloMosaic.ValueIdx
open scoped BigOperators

/-- (a) an index that lands on node `v` selects row `v` -/
theorem clampRow_wrap_of_lands (b : BitVec 32) (v : Fin 50000) (hb : b.toInt = (v.val : Int)) :
    Cert.Spec.clampRow (Cert.Spec.wrap b) = v := by
  have hv := v.isLt
  -- the index is not negative
  have hslt : b.slt 0#32 = false := by
    simp only [BitVec.slt, BitVec.toInt_zero, hb, decide_eq_false_iff_not, not_lt]
    exact Int.natCast_nonneg _
  -- so it is not raised
  have hw : Cert.Spec.wrap b = b := by
    unfold Cert.Spec.wrap Scalar.select IntOp.cmpi
    simp [hslt]
  rw [hw]
  apply Fin.ext
  show min b.toInt.toNat 49999 = v.val
  rw [hb]
  omega

variable (h : (⟨2, ![50000, 128]⟩ : Shape).Idx → EReal) (ei : (⟨2, ![2, 1600000]⟩ : Shape).Idx → BitVec 32)
  (we : (⟨2, ![256, 1]⟩ : Shape).Idx → EReal) (be : (⟨1, ![1]⟩ : Shape).Idx → EReal)
  (wn : (⟨2, ![128, 1]⟩ : Shape).Idx → EReal) (bn : (⟨1, ![1]⟩ : Shape).Idx → EReal)

/-- (b) the source-side score of a node is a real number -/
theorem sSrc_real (hh : ∀ i, ∃ r : ℝ, h i = (r : EReal)) (hwe : ∀ i, ∃ r : ℝ, we i = (r : EReal)) :
    ∀ v, ∃ r : ℝ, Cert.Spec.sSrc h we v = (r : EReal) := by
  intro v
  unfold Cert.Spec.sSrc
  exact Cert.RealFold.isReal_sum _ _ (fun k _ => Cert.RealFold.isReal_mul (hh _) (hwe _))

/-- (b) the destination-side score of a node is a real number -/
theorem sDst_real (hh : ∀ i, ∃ r : ℝ, h i = (r : EReal)) (hwe : ∀ i, ∃ r : ℝ, we i = (r : EReal)) :
    ∀ v, ∃ r : ℝ, Cert.Spec.sDst h we v = (r : EReal) := by
  intro v
  unfold Cert.Spec.sDst
  exact Cert.RealFold.isReal_sum _ _ (fun k _ => Cert.RealFold.isReal_mul (hh _) (hwe _))

/-- (b) the node's own score is a real number -/
theorem sSelf_real (hh : ∀ i, ∃ r : ℝ, h i = (r : EReal)) (hwn : ∀ i, ∃ r : ℝ, wn i = (r : EReal)) :
    ∀ v, ∃ r : ℝ, Cert.Spec.sSelf h wn v = (r : EReal) := by
  intro v
  unfold Cert.Spec.sSelf
  exact Cert.RealFold.isReal_sum _ _ (fun k _ => Cert.RealFold.isReal_mul (hh _) (hwn _))

/-- (c) the two closed forms of the combined score agree -/
theorem combined_eq (hh : ∀ i, ∃ r : ℝ, h i = (r : EReal)) (hwe : ∀ i, ∃ r : ℝ, we i = (r : EReal))
    (hbe : ∀ i, ∃ r : ℝ, be i = (r : EReal)) (v : Fin 50000) :
    Cert.Spec.combinedK h ei we be wn bn v = Cert.Spec.combinedR h ei we be wn bn v := by
  unfold Cert.Spec.combinedK Cert.Spec.combinedR
  refine congrArg (fun z => z + (Cert.Spec.sSelf h wn v + bn (ix1 (0 : Fin 1)))) ?_
  exact (Cert.LibSoftmaxPad.edge_regroup
    (fun e : Fin 1600000 => (Cert.Spec.dst ei e).toInt = (v.val : Int))
    (fun e => Cert.Spec.sSrc h we (Cert.Spec.clampRow (Cert.Spec.wrap (Cert.Spec.src ei e))))
    (fun e => Cert.Spec.sDst h we (Cert.Spec.clampRow (Cert.Spec.wrap (Cert.Spec.dst ei e))))
    (Cert.Spec.sDst h we v) (be (ix1 (0 : Fin 1)))
    (fun e => sSrc_real h we hh hwe _) (sDst_real h we hh hwe v) (hbe _)
    (fun e he => congrArg (Cert.Spec.sDst h we) (clampRow_wrap_of_lands _ v he))).symm

/-- (d) softmax of entrywise equal score vectors -/
theorem softmax_congr {x y : Fin 50000 → EReal} (hxy : ∀ v, x v = y v) :
    Cert.Spec.softmax x = Cert.Spec.softmax y := by
  have hfun : x = y := funext hxy
  rw [hfun]

end Cert.Bridge
-- ==== Proof.KIValue.lean ====
/-
  The idealized kernel program's result: at the end of every weakly fair execution the result buffer holds, at node
  i, the softmax over the 50000 nodes of the combined scores in the kernel's arrangement (Spec.combinedK), and every
  argument array is as launched. The run and the buffers' contents are the run module's; the composition of pure
  functions the result buffer holds is read at an index by the two read modules (the combined score; the padded tile
  normalised and cut back).
-/
import proofs.«153172_j18399639896424_2_alg».proof.Proof.KIHost
import proofs.«153172_j18399639896424_2_alg».proof.Proof.KIMid
import proofs.«153172_j18399639896424_2_alg».proof.Proof.KISoft
import proofs.«153172_j18399639896424_2_alg».proof.Proof.Bridge

set_option maxRecDepth 16384

noncomputable section

namespace Cert.KernelIdeal.Hand

open Idealize.ShloMosaic Idealize.ShloMosaic.TcCoe Idealize.ShloMosaic.ValueIdx
open Idealize.SL Idealize.SL.Sem
open Cert.KernelIdeal Cert.KernelIdeal.Gen

/-- A function of the node read as a vector over the result buffer's indices. -/
def asVec (f : Fin 50000 → EReal) : S50000.Idx → EReal := fun j => f ⟨(j 0).val, (j 0).isLt⟩

variable (m : (ℓ : Loc nD τ sig) → Buf (Elt Ideal) ℓ) (ρ : Dev nD → PrngReg)

/-- The result buffer at the end of the run is the softmax of the kernel's combined scores. -/
theorem W7_v41_closed (c : Dev nD) : (W7 m ρ c (Proc.devRef .tc main_v41) : S50000.Idx → EReal)
    = asVec (Cert.Spec.softmax (Cert.Spec.combinedK (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)))) := by
  rw [W7_v41_eq]
  funext j
  obtain ⟨i, rfl⟩ : ∃ i : Fin 50000, j = ix1 i := ⟨j 0, eq_ix1 j⟩
  rw [outK_apply]
  show _ = Cert.Spec.softmax _ i
  refine congrFun (Cert.Bridge.softmax_congr fun v => ?_) i
  exact mid_apply _ _ _ _ _ _ v

/-- THE VALUE RUN: the result buffer and the arguments at the end of every weakly fair execution. -/
theorem run_value : θ_run defs (onTc (τ := τ) (main (F := Ideal))) ⟨m, fun _ => 0, ρ⟩ (fun r => ∀ c : Dev nD,
      r.2.mem ((c.tc : Thread nD τ).loc main_v41)
        = asVec (Cert.Spec.softmax (Cert.Spec.combinedK (m ((c : Thread nD τ).loc main_arg0)) (m ((c : Thread nD τ).loc main_arg1))
            (m ((c : Thread nD τ).loc main_arg2)) (m ((c : Thread nD τ).loc main_arg3)) (m ((c : Thread nD τ).loc main_arg4))
            (m ((c : Thread nD τ).loc main_arg5))))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨(h c _ (mem_uc main_v41 (by decide))).trans (W7_v41_closed m ρ c),
     (h c _ (mem_uc main_arg0 (by decide))).trans (W7_main_arg0 m ρ c),
     (h c _ (mem_uc main_arg1 (by decide))).trans (W7_main_arg1 m ρ c),
     (h c _ (mem_uc main_arg2 (by decide))).trans (W7_main_arg2 m ρ c),
     (h c _ (mem_uc main_arg3 (by decide))).trans (W7_main_arg3 m ρ c),
     (h c _ (mem_uc main_arg4 (by decide))).trans (W7_main_arg4 m ρ c),
     (h c _ (mem_uc main_arg5 (by decide))).trans (W7_main_arg5 m ρ c)⟩) (run_all m ρ)

end Cert.KernelIdeal.Hand

end
-- ==== Proof.RefForm.lean ====
import proofs.«153172_j18399639896424_2_alg».proof.Proof.Gen.ReferenceIdeal.Read
import proofs.«153172_j18399639896424_2_alg».proof.Proof.Gen.ReferenceIdeal.Run
import proofs.«153172_j18399639896424_2_alg».proof.Proof.Spec
import proofs.«153172_j18399639896424_2_alg».proof.Proof.LibEdgeVec
import Idealize.ShloMosaic.Lib.ValueIdx
import Idealize.ShloMosaic.Lib.Pipeline.Value
import Idealize.ShloMosaic.PureOps.Ideal.Laws
import Idealize.ShloMosaic.PureOps.Reduce
/-
  The reference program's result, read at a node, in closed form: entry i of what the reference returns is the softmax,
  over the 50000 nodes, of the reference's combined score (`ref_form`).

  The program is read one operation at a time, innermost values first.
  • The three matrix-vector products, at node v, are the node's three scores sSrc v, sDst v, sSelf v: each is a sum
    over the 128 features, and the two halves of the edge scorer's weight column are its rows 0..127 and 128..255.
  • Row 0 and row 1 of the edge list, at edge e, are the edge's source and destination index; each is then wrapped
    (a negative index raised by 50000) and laid out as a column.
  • Gathering the source scores (the destination scores) at the wrapped column reads, at edge e, the score at the row
    the wrapped index selects once clamped into [0, 49999].
  • The edge score is (source side + destination side) + bias; adding the edge scores into a zero vector at the
    unwrapped destination column gives, at node v, 0 + the sum over the edges whose destination index is v.
  • Adding the node's own score and bias gives the combined score of Spec.lean, summand for summand.
  • The maximum over all nodes, started from −∞, is the fold of max from ⊥; taking its maximum with −∞ once more
    changes nothing. The exponentials of the shifted scores are summed from 0, and each is divided by that sum.
-/

noncomputable section

namespace Cert.RefForm

open Cert.ReferenceIdeal Cert.ReferenceIdeal.Gen Cert.ReferenceIdeal.Read Idealize.ShloMosaic Idealize.ShloMosaic.ValueIdx
open Cert.Spec Cert.LibEdgeVec
open scoped BigOperators

variable (x0 : (⟨S50000x128, .f32⟩ : BufTy).Contents (Elt Ideal)) (x1 : (⟨S2x1600000, .i32⟩ : BufTy).Contents (Elt Ideal))
  (x2 : (⟨S256x1, .f32⟩ : BufTy).Contents (Elt Ideal)) (x3 : (⟨S1, .f32⟩ : BufTy).Contents (Elt Ideal))
  (x4 : (⟨S128x1, .f32⟩ : BufTy).Contents (Elt Ideal)) (x5 : (⟨S1, .f32⟩ : BufTy).Contents (Elt Ideal))

/-! ## The three products -/

theorem v7_at (v : Fin 50000) : val_main_v7 (F := Ideal) x0 x2 (ix1 v) = sSrc x0 x2 v := by
  rw [val_main_v7_apply, val_main_v6_apply]
  unfold sSrc
  refine Finset.sum_congr rfl fun k _ => ?_
  rw [val_main_v4_apply]
  have e1 : lidx_main_v6 (idx_main_v7 (ix1 v)) k = ix2 v k := by
    funext a; refine Fin.ext ?_
    match a with
    | ⟨0, _⟩ => exact Nat.div_one _
    | ⟨1, _⟩ => rfl
  have e2 : idx_main_v4 (ridx_main_v6 (idx_main_v7 (ix1 v)) k)
      = ix2 (⟨k.val, by have := k.isLt; omega⟩ : Fin 256) (0 : Fin 1) := by
    funext a; refine Fin.ext ?_
    match a with
    | ⟨0, _⟩ => rfl
    | ⟨1, _⟩ => rfl
  rw [e1, e2]

theorem v9_at (v : Fin 50000) : val_main_v9 (F := Ideal) x0 x2 (ix1 v) = sDst x0 x2 v := by
  rw [val_main_v9_apply, val_main_v8_apply]
  unfold sDst
  refine Finset.sum_congr rfl fun k _ => ?_
  rw [val_main_v5_apply]
  have e1 : lidx_main_v8 (idx_main_v9 (ix1 v)) k = ix2 v k := by
    funext a; refine Fin.ext ?_
    match a with
    | ⟨0, _⟩ => exact Nat.div_one _
    | ⟨1, _⟩ => rfl
  have e2 : idx_main_v5 (ridx_main_v8 (idx_main_v9 (ix1 v)) k)
      = ix2 (⟨128 + k.val, by have := k.isLt; omega⟩ : Fin 256) (0 : Fin 1) := by
    funext a; refine Fin.ext ?_
    match a with
    | ⟨0, _⟩ => rfl
    | ⟨1, _⟩ => rfl
  rw [e1, e2]

theorem v32_at (v : Fin 50000) : val_main_v32 (F := Ideal) x0 x4 (ix1 v) = sSelf x0 x4 v := by
  rw [val_main_v32_apply, val_main_v31_apply]
  unfold sSelf
  refine Finset.sum_congr rfl fun k _ => ?_
  have e1 : lidx_main_v31 (idx_main_v32 (ix1 v)) k = ix2 v k := by
    funext a; refine Fin.ext ?_
    match a with
    | ⟨0, _⟩ => exact Nat.div_one _
    | ⟨1, _⟩ => rfl
  have e2 : ridx_main_v31 (idx_main_v32 (ix1 v)) k = ix2 k (0 : Fin 1) := by
    funext a; refine Fin.ext ?_
    match a with
    | ⟨0, _⟩ => rfl
    | ⟨1, _⟩ => rfl
  rw [e1, e2]

/-! ## The index vectors -/

theorem v1_at (e : Fin 1600000) : val_main_v1 (F := Ideal) x1 (ix1 e) = src x1 e := by
  rw [val_main_v1_apply, val_main_v0_apply]
  unfold src
  congr 1
  funext a; refine Fin.ext ?_
  match a with
  | ⟨0, _⟩ => rfl
  | ⟨1, _⟩ => exact Nat.mod_eq_of_lt e.isLt

theorem v3_at (e : Fin 1600000) : val_main_v3 (F := Ideal) x1 (ix1 e) = dst x1 e := by
  rw [val_main_v3_apply, val_main_v2_apply]
  unfold dst
  congr 1
  funext a; refine Fin.ext ?_
  match a with
  | ⟨0, _⟩ => rfl
  | ⟨1, _⟩ => exact Nat.mod_eq_of_lt e.isLt

theorem v14_at (e : Fin 1600000) : val_main_v14 (F := Ideal) x1 (ix1 e) = wrap (src x1 e) := by
  rw [val_main_v14_apply, val_main_v11_apply, val_main_v13_apply, val_main_v10_apply, val_main_c_apply,
    val_main_v12_apply, val_main_c_0_apply, v1_at]
  rfl

theorem v21_at (e : Fin 1600000) : val_main_v21 (F := Ideal) x1 (ix1 e) = wrap (dst x1 e) := by
  rw [val_main_v21_apply, val_main_v18_apply, val_main_v20_apply, val_main_v17_apply, val_main_c_1_apply,
    val_main_v19_apply, val_main_c_2_apply, v3_at]
  rfl

theorem col_eq (e : Fin 1600000) : idx_main_v15 (ix2 e (0 : Fin 1)) = ix1 e := by
  funext a
  match a with
  | ⟨0, _⟩ => rfl

theorem v15_at (e : Fin 1600000) : val_main_v15 (F := Ideal) x1 (ix2 e (0 : Fin 1)) = wrap (src x1 e) := by
  rw [val_main_v15_apply, col_eq, v14_at]

theorem v22_at (e : Fin 1600000) : val_main_v22 (F := Ideal) x1 (ix2 e (0 : Fin 1)) = wrap (dst x1 e) := by
  rw [val_main_v22_apply]
  rw [show idx_main_v22 (ix2 e (0 : Fin 1)) = ix1 e from col_eq e, v21_at]

theorem v29_at (e : Fin 1600000) : val_main_v29 (F := Ideal) x1 (ix2 e (0 : Fin 1)) = dst x1 e := by
  rw [val_main_v29_apply]
  rw [show idx_main_v29 (ix2 e (0 : Fin 1)) = ix1 e from col_eq e, v3_at]

/-! ## Reshapes to rank 0 -/

theorem v25_at (j : S_.Idx) : val_main_v25 (F := Ideal) x3 j = x3 (ix1 (0 : Fin 1)) := by
  unfold val_main_v25
  exact shapeCast_apply x3 shapeCasts_S1_S_ j (ix1 (0 : Fin 1)) (by
    rw [Shape.rowMajor_val_one]
    exact (Shape.rowMajorPi_zero _ _).symm)

theorem v33_at (j : S_.Idx) : val_main_v33 (F := Ideal) x5 j = x5 (ix1 (0 : Fin 1)) := by
  unfold val_main_v33
  exact shapeCast_apply x5 shapeCasts_S1_S_ j (ix1 (0 : Fin 1)) (by
    rw [Shape.rowMajor_val_one]
    exact (Shape.rowMajorPi_zero _ _).symm)

/-! ## The two gathers -/

theorem gatherDims_eq : gather_S50000_S1600000x1_S1600000_n_0_n_n_0_1_1
    = vecGatherDims 50000 1600000 Facts₀.gather_S50000_S1600000x1_S1600000_n_0_n_n_0_1_1_wf := rfl

theorem v16_at (e : Fin 1600000) :
    val_main_v16 (F := Ideal) x0 x1 x2 (ix1 e) = sSrc x0 x2 (clampRow (wrap (src x1 e))) := by
  unfold val_main_v16
  rw [gatherDims_eq, gather_vec_apply (by decide), v7_at]
  refine congrArg (sSrc x0 x2) (Fin.ext ?_)
  show min (val_main_v15 (F := Ideal) x1 (ix2 e (0 : Fin 1))).toInt.toNat (50000 - 1) = min (wrap (src x1 e)).toInt.toNat 49999
  rw [v15_at]

theorem v23_at (e : Fin 1600000) :
    val_main_v23 (F := Ideal) x0 x1 x2 (ix1 e) = sDst x0 x2 (clampRow (wrap (dst x1 e))) := by
  unfold val_main_v23
  rw [gatherDims_eq, gather_vec_apply (by decide), v9_at]
  refine congrArg (sDst x0 x2) (Fin.ext ?_)
  show min (val_main_v22 (F := Ideal) x1 (ix2 e (0 : Fin 1))).toInt.toNat (50000 - 1) = min (wrap (dst x1 e)).toInt.toNat 49999
  rw [v22_at]

/-! ## The edge scores and their sum into the nodes -/

theorem v27_at (e : Fin 1600000) : val_main_v27 (F := Ideal) x0 x1 x2 x3 (ix1 e)
    = (sSrc x0 x2 (clampRow (wrap (src x1 e))) + sDst x0 x2 (clampRow (wrap (dst x1 e)))) + x3 (ix1 (0 : Fin 1)) := by
  rw [val_main_v27_apply, val_main_v24_apply, v16_at, v23_at, val_main_v26_apply, v25_at]
  rfl

theorem v28_at (v : Fin 50000) : val_main_v28 (F := Ideal) (ix1 v) = 0 := by
  rw [val_main_v28_apply, val_main_cst_apply]
  exact Ideal.ofBits_zero_f32

theorem scatterDims_eq : scatter_S50000_S1600000x1_S1600000_n_0_0_1
    = vecScatterDims 50000 1600000 Facts₀.scatter_S50000_S1600000x1_S1600000_n_0_0_1_wf := rfl

/-- At the ideal instance the host's scatter-add is the exact one. -/
theorem scatterAdd_ideal {s si u : Shape} {w : Nat} (d : ScatterDims s si u) (x : FVec Ideal s .f32) (idx : IVec si w)
    (upd : FVec Ideal u .f32) : Host.scatterAdd d x idx upd = Ideal.hostScatterAdd d x idx upd := rfl

theorem v30_at (v : Fin 50000) : val_main_v30 (F := Ideal) x0 x1 x2 x3 (ix1 v)
    = 0 + ∑ e : Fin 1600000, if (dst x1 e).toInt = (v.val : Int)
        then ((sSrc x0 x2 (clampRow (wrap (src x1 e))) + sDst x0 x2 (clampRow (wrap (dst x1 e)))) + x3 (ix1 (0 : Fin 1)))
        else 0 := by
  unfold val_main_v30
  rw [scatterAdd_ideal, scatterDims_eq, scatterAdd_vec_apply, v28_at]
  refine congrArg (fun t : EReal => 0 + t) (Finset.sum_congr rfl fun e _ => ?_)
  rw [v29_at, v27_at]

/-! ## The combined score -/

theorem v36_at (v : Fin 50000) :
    val_main_v36 (F := Ideal) x0 x1 x2 x3 x4 x5 (ix1 v) = combinedR x0 x1 x2 x3 x4 x5 v := by
  rw [val_main_v36_apply, v30_at, val_main_v35_apply, v32_at, val_main_v34_apply, v33_at]
  rfl

/-! ## The largest score -/

instance maxComm : Std.Commutative (FloatOps.maximumf (F := Ideal) (φ := FTy.f32)) := ⟨fun a b => max_comm a b⟩
instance maxAssoc : Std.Associative (FloatOps.maximumf (F := Ideal) (φ := FTy.f32)) := ⟨fun a b c => max_assoc a b c⟩

/-- The word of the reduction's initial value is −∞. -/
theorem negInf_word : Ideal.ofBits .f32 0xFF800000#32 = ⊥ := by simp [Ideal.ofBits, Ideal.ieee]

/-- A fold over a rank-1 index set is the fold over its one coordinate. -/
theorem fold_idx1 {β : Type} (op : β → β → β) [Std.Commutative op] [Std.Associative op] {n : Nat} (b : β)
    (f : (⟨1, ![n]⟩ : Shape).Idx → β) :
    (Finset.univ : Finset (⟨1, ![n]⟩ : Shape).Idx).fold op b f
      = (Finset.univ : Finset (Fin n)).fold op b (fun a => f (ix1 a)) := by
  rw [← Finset.map_univ_equiv (idxEquiv1 (n := n)).symm, Finset.fold_map]
  rfl

/-- At the ideal instance a fold of the float maximum is a fold of the order's maximum. -/
theorem fold_maximumf {ι : Type} (s : Finset ι) (b : EReal) (f : ι → EReal) :
    s.fold (FloatOps.maximumf (F := Ideal) (φ := FTy.f32)) b f = s.fold max b f := rfl

theorem v37_at (j : S_.Idx) : val_main_v37 (F := Ideal) x0 x1 x2 x3 x4 x5 j
    = (Finset.univ : Finset (Fin 50000)).fold max ⊥ (combinedR x0 x1 x2 x3 x4 x5) := by
  unfold val_main_v37
  rw [Host.reduce_eq_fold FloatOps.maximumf _ _ reducesTo_S50000_S_d0 h_S_ j, val_main_cst_3_apply,
    Finset.filter_true_of_mem (fun i _ => Subsingleton.elim _ _), fold_idx1, fold_maximumf, Ideal.ofBits_def, negInf_word]
  refine congrArg (fun g : Fin 50000 → EReal => (Finset.univ : Finset (Fin 50000)).fold max ⊥ g) ?_
  funext v
  exact v36_at x0 x1 x2 x3 x4 x5 v

theorem v38_at (j : S_.Idx) : val_main_v38 (F := Ideal) x0 x1 x2 x3 x4 x5 j
    = (Finset.univ : Finset (Fin 50000)).fold max ⊥ (combinedR x0 x1 x2 x3 x4 x5) := by
  rw [val_main_v38_apply, val_main_cst_4_apply, v37_at, Ideal.maximumf_def, Ideal.ofBits_def, negInf_word, max_bot_left]

theorem v40_at (v : Fin 50000) : val_main_v40 (F := Ideal) x0 x1 x2 x3 x4 x5 (ix1 v)
    = (Finset.univ : Finset (Fin 50000)).fold max ⊥ (combinedR x0 x1 x2 x3 x4 x5) := by
  rw [val_main_v40_apply, val_main_v39_apply, v38_at]

/-! ## The exponentials, their sum, the quotient -/

theorem v42_at (v : Fin 50000) : val_main_v42 (F := Ideal) x0 x1 x2 x3 x4 x5 (ix1 v)
    = Ideal.exp (combinedR x0 x1 x2 x3 x4 x5 v
        - (Finset.univ : Finset (Fin 50000)).fold max ⊥ (combinedR x0 x1 x2 x3 x4 x5)) := by
  rw [val_main_v42_apply, val_main_v41_apply, v36_at, v40_at, Ideal.hostUnary_exp_def, Ideal.subf_def]

theorem v43_at (j : S_.Idx) : val_main_v43 (F := Ideal) x0 x1 x2 x3 x4 x5 j
    = 0 + ∑ v : Fin 50000, Ideal.exp (combinedR x0 x1 x2 x3 x4 x5 v
        - (Finset.univ : Finset (Fin 50000)).fold max ⊥ (combinedR x0 x1 x2 x3 x4 x5)) := by
  rw [val_main_v43_apply, val_main_cst_5_apply, Ideal.ofBits_def, Ideal.ofBits_zero_f32, sum_idx1]
  exact congrArg (fun t : EReal => 0 + t) (Finset.sum_congr rfl fun v _ => v42_at x0 x1 x2 x3 x4 x5 v)

/-- THE REFERENCE'S RESULT AT NODE i: the softmax of the reference's combined scores. -/
theorem ref_form (i : Fin 50000) :
    val_main_v46 (F := Ideal) x0 x1 x2 x3 x4 x5 (ix1 i) = softmax (combinedR x0 x1 x2 x3 x4 x5) i := by
  unfold softmax
  rw [val_main_v46_apply, v42_at, val_main_v45_apply, val_main_v44_apply, v43_at, Ideal.hostDivf_def]

end Cert.RefForm

end
-- ==== Proof.LibFiniteTest.lean ====
/-
  The elementwise finiteness test, read over the extended reals — a general module: it depends only on the ideal
  float instance.

  A precondition "every entry is finite" compares |x| with the f32 word of +∞, 0x7F800000, entry by entry, and reduces
  the one-bit answers by "and". Over the extended reals |x| = max x (−x), the word denotes +∞ (`inf_word`), and
  |x| < +∞ holds exactly when x is neither infinity; so an entry that passes the test is a real number
  (`real_of_test`). A one-bit word made from a Boolean is 1 only for true (`true_of_ofBool_one`).
-/
import Idealize.ShloMosaic.PureOps.Ideal.Laws

noncomputable section

namespace Cert.LibFiniteTest

open Idealize.ShloMosaic

/-- The f32 word 0x7F800000 is +∞. -/
theorem inf_word : Ideal.ofBits .f32 0x7F800000#32 = (⊤ : EReal) := by simp [Ideal.ofBits, Ideal.ieee]

/-- An extended real whose absolute value is below +∞ is a real number. -/
theorem real_of_abs_lt_top (x : EReal) (h : max x (-x) < ⊤) : ∃ q : ℝ, x = (q : EReal) := by
  induction x using EReal.rec with
  | bot => simp at h
  | coe q => exact ⟨q, rfl⟩
  | top => simp at h

/-- A one-bit word made from a Boolean is 1 only for true. -/
theorem true_of_ofBool_one {b : Bool} (h : BitVec.ofBool b = 1#1) : b = true := by
  cases b
  · exact absurd h (by decide)
  · rfl

/-- The elementwise test |x| < +∞ against the word of +∞, passed, gives a real number. -/
theorem real_of_test (x : EReal) (h : Ideal.cmp .olt (max x (-x)) (Ideal.ofBits .f32 0x7F800000#32) = 1#1) :
    ∃ q : ℝ, x = (q : EReal) := by
  rw [inf_word] at h
  exact real_of_abs_lt_top x (of_decide_eq_true (true_of_ofBool_one h))

end Cert.LibFiniteTest

end
-- ==== Proof.Finite.lean ====
/-
  From the finiteness precondition to real numbers.

  The precondition is the "and" of five tests, one per floating-point argument, each saying that every entry x of
  the argument has |x| < +∞ (the entrywise comparison against the f32 word of +∞, reduced by "and" from 1). If the
  whole conjunction is 1 then each of the five reductions is 1, so every entry of every argument passes its test; over
  the extended reals |x| = max x (−x), and an entry with max x (−x) < +∞ is a real number. Stated here for the node
  features, the edge scorer's weights and the edge scorer's bias.
-/
import proofs.«153172_j18399639896424_2_alg».proof.Pre_finite_inputs
import proofs.«153172_j18399639896424_2_alg».proof.Proof.LibFiniteTest
import Idealize.ShloMosaic.Lib.ReduceAll
import Idealize.ShloMosaic.Lib.ValueIdx
import Idealize.ShloMosaic.PureOps.Ideal.Laws

noncomputable section

namespace Cert.Finite

open Idealize.ShloMosaic

/-- The shape with no axes has exactly one index. -/
instance subsingleton_scalar_idx : Subsingleton Cert.Pre_finite_inputs.S_.Idx :=
  ⟨fun a b => funext fun d => d.elim0⟩

/-- One test: if the reduction by "and" of the entrywise comparison |x| < +∞ is 1, every entry of x is real. -/
theorem reals_of_all {s : Shape} {axes : List (Fin s.rank)} (x : FVec Ideal s .f32)
    (hb : Cert.Pre_finite_inputs.S_.BroadcastsInDim s (![] : Fin 0 → Fin s.rank))
    (hr : s.ReducesTo axes Cert.Pre_finite_inputs.S_) (hn : 0 < Cert.Pre_finite_inputs.S_.numel)
    (init : IVec Cert.Pre_finite_inputs.S_ 1)
    (h : Host.reduce IntOp.andi
        (cmpf .olt (Host.absf x) (broadcastInDim s ![] hb (constant Cert.Pre_finite_inputs.S_ .f32 0x7F800000#32)))
        init hr hn ValueIdx.ix0 = 1#1) :
    ∀ i, ∃ r : ℝ, x i = (r : EReal) := by
  intro i
  have hi := Host.reduce_andi_all _ _ hr hn ValueIdx.ix0 h i
  exact Cert.LibFiniteTest.real_of_test (x i) hi

/-- The precondition gives real node features, real edge-scorer weights and a real edge-scorer bias. -/
theorem reals_of_pre [Cert.Pre_finite_inputs.Facts] (x0 : FVec Ideal Cert.Pre_finite_inputs.S50000x128 .f32)
    (x1 : IVec Cert.Pre_finite_inputs.S2x1600000 32) (x2 : FVec Ideal Cert.Pre_finite_inputs.S256x1 .f32)
    (x3 : FVec Ideal Cert.Pre_finite_inputs.S1 .f32) (x4 : FVec Ideal Cert.Pre_finite_inputs.S128x1 .f32)
    (x5 : FVec Ideal Cert.Pre_finite_inputs.S1 .f32)
    (hpre : Cert.Pre_finite_inputs.fn (F := Ideal) x0 x1 x2 x3 x4 x5 = fun _ => 1#1) :
    (∀ i, ∃ r : ℝ, x0 i = (r : EReal)) ∧ (∀ i, ∃ r : ℝ, x2 i = (r : EReal)) ∧ (∀ i, ∃ r : ℝ, x3 i = (r : EReal)) := by
  have h0 := congrFun hpre ValueIdx.ix0
  dsimp only [Cert.Pre_finite_inputs.fn, Cert.Pre_finite_inputs.fn_part1, andi] at h0
  -- the conjunction of one-bit words is 1: each of them is
  obtain ⟨h1234, _⟩ := IntOp.andi_eq_one.1 h0
  obtain ⟨h123, _⟩ := IntOp.andi_eq_one.1 h1234
  obtain ⟨h12, h3⟩ := IntOp.andi_eq_one.1 h123
  obtain ⟨h1, h2⟩ := IntOp.andi_eq_one.1 h12
  exact ⟨reals_of_all x0 _ _ _ _ h1, reals_of_all x2 _ _ _ _ h2, reals_of_all x3 _ _ _ _ h3⟩

end Cert.Finite

end
-- ==== Proof.lean ====
/-
  A graph-attention scoring kernel against its reference, at the exact (extended-real) values.

  Both programs score every node of a 50000-node graph and return the softmax of the scores. A node's score is the sum,
  over the edges that point to it, of (source node's projection + destination node's projection + edge bias), plus the
  node's own projection and bias; the three projections are the products of the feature matrix with three weight
  columns. The reference adds the whole edge score edge by edge. The kernel program computes all three projections in
  one launched matrix product, adds only the source-side projections edge by edge, and accounts for the rest as
  (number of edges into the node) x (the node's destination-side projection + edge bias); it then pads the score vector
  with -inf to a 391 x 128 tile and takes the softmax in a second launched kernel.

  The two agree because, over the reals, a sum of n copies of a number is n times it and a constant factor distributes
  over a finite sum: this is where the precondition (every float input finite) is used — all numbers involved are then
  real. The padding changes nothing: -inf never wins a maximum, and exp(-inf - M) = 0 adds nothing to a sum. An edge
  whose destination index is outside [0, 50000) is added nowhere by either program; an edge that lands on node v has
  destination index exactly v, which is neither raised nor clamped when the reference reads the destination-side
  projection through it.

  The frames of the two kernel programs come from their runs (no item of @main writes an argument array); the
  reference's frame from its run. The idealization rewrote nothing, so there is nothing to preserve.
-/
import proofs.«153172_j18399639896424_2_alg».proof.Defs
import proofs.«153172_j18399639896424_2_alg».proof.Proof.Gen.Kernel
import proofs.«153172_j18399639896424_2_alg».proof.Proof.Gen.KernelIdeal
import proofs.«153172_j18399639896424_2_alg».proof.Proof.Gen.ReferenceIdeal
import proofs.«153172_j18399639896424_2_alg».proof.Proof.Gen.Pre_finite_inputs
import proofs.«153172_j18399639896424_2_alg».proof.Proof.Gen.ReferenceIdeal.Run
import proofs.«153172_j18399639896424_2_alg».proof.Proof.Gen.ReferenceIdeal.Read
import proofs.«153172_j18399639896424_2_alg».proof.Proof.KRun
import proofs.«153172_j18399639896424_2_alg».proof.Proof.KIRun
import proofs.«153172_j18399639896424_2_alg».proof.Proof.KIValue
import proofs.«153172_j18399639896424_2_alg».proof.Proof.RefForm
import proofs.«153172_j18399639896424_2_alg».proof.Proof.Bridge
import proofs.«153172_j18399639896424_2_alg».proof.Proof.Finite
import Idealize.ShloMosaic.Adequacy
import Idealize.ShloMosaic.Init

noncomputable section

namespace Cert.Proof

open Idealize.ShloMosaic Idealize.ShloMosaic.ValueIdx Idealize.SL.Sem

theorem frame_k : Cert.frame_Kernel (hKernel := Cert.Kernel.Gen.facts) (hPre_finite_inputs := Cert.Pre_finite_inputs.Gen.facts) :=
  fun m ρ _ => Cert.Kernel.Hand.frame m ρ

theorem frame_ki : Cert.frame_KernelIdeal (hKernelIdeal := Cert.KernelIdeal.Gen.facts) (hPre_finite_inputs := Cert.Pre_finite_inputs.Gen.facts) :=
  fun m ρ _ => Cert.KernelIdeal.Hand.frame m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- The two idealized programs end with equal results: the kernel's softmax of its combined scores, the reference's
    softmax of its own, and the two score vectors agree at every node because every float input is real. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨_, Cert.KernelIdeal.Hand.run_value m ρ, ?_⟩
  refine (θ_run Cert.ReferenceIdeal.defs _ _).mono (fun _ h c => ⟨(h c).1.trans ?_, (h c).2⟩)
    (Cert.ReferenceIdeal.Value.run (F := Ideal) m' ρ')
  obtain ⟨hh, hwe, hbe⟩ := Cert.Finite.reals_of_pre _ _ _ _ _ _ (hpre c)
  rw [Cert.ReferenceIdeal.Read.val_main_v46_eq, (hagree c).1, (hagree c).2.1, (hagree c).2.2.1, (hagree c).2.2.2.1,
    (hagree c).2.2.2.2.1, (hagree c).2.2.2.2.2]
  funext j
  obtain ⟨i, rfl⟩ : ∃ i : Fin 50000, j = ix1 i := ⟨j 0, eq_ix1 j⟩
  refine (Cert.RefForm.ref_form _ _ _ _ _ _ i).trans ?_
  show _ = Cert.Spec.softmax _ i
  exact congrFun (Cert.Bridge.softmax_congr fun v => (Cert.Bridge.combined_eq _ _ _ _ _ _ hh hwe hbe v).symm) i

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
